-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S4x2048x3072 : Shape := ⟨3, ![4, 2048, 3072]⟩
abbrev S4x512x1024 : Shape := ⟨3, ![4, 512, 1024]⟩
abbrev S4x256x1024 : Shape := ⟨3, ![4, 256, 1024]⟩
abbrev S4x512x1 : Shape := ⟨3, ![4, 512, 1]⟩
abbrev S4x512x256 : Shape := ⟨3, ![4, 512, 256]⟩
abbrev S4x512 : Shape := ⟨2, ![4, 512]⟩

abbrev nBuf : Space → Nat
  | .hbm => 16
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S3072x1024, .f32⟩
  | .hbm, ⟨9, _⟩ => ⟨S1024x3072, .f32⟩
  | .hbm, ⟨10, _⟩ => ⟨S1024x3072, .bf16⟩
  | .hbm, ⟨11, _⟩ => ⟨S3072, .f32⟩
  | .hbm, ⟨12, _⟩ => ⟨S1x3072, .f32⟩
  | .hbm, ⟨13, _⟩ => ⟨S8192x3072, .bf16⟩
  | .hbm, ⟨14, _⟩ => ⟨S4x2048x3072, .bf16⟩
  | .hbm, ⟨15, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x3072, .bf16⟩
  | .local _ .vmem, ⟨5, _⟩ => ⟨S1024x3072, .bf16⟩
  | .local _ .vmem, ⟨6, _⟩ => ⟨S4x512x1024, .bf16⟩
  | .local _ .vmem, ⟨7, _⟩ => ⟨S4x512x1024, .bf16⟩
  | .local _ .vmem, ⟨8, _⟩ => ⟨S4x256x1024, .bf16⟩
  | .local _ .vmem, ⟨9, _⟩ => ⟨S4x256x1024, .bf16⟩
  | .local _ .vmem, ⟨10, _⟩ => ⟨S4x256x1024, .bf16⟩
  | .local _ .vmem, ⟨11, _⟩ => ⟨S4x256x1024, .bf16⟩
  | .local _ .vmem, ⟨12, _⟩ => ⟨S4x512x1024, .f32⟩
  | .local _ .vmem, ⟨13, _⟩ => ⟨S4x512x1024, .f32⟩
  | .local _ .vmem, ⟨14, _⟩ => ⟨S4x512x1, .f32⟩
  | .local _ .vmem, ⟨15, _⟩ => ⟨S4x512x1, .f32⟩
  | .local _ .vmem, ⟨16, _⟩ => ⟨S4x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg1.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, arg1.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x2048x1024_S8192x1024 : S4x2048x1024.ShapeCasts S8192x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  packedbf16_S1024x3072_S1024x3072_0_0 : (Rect.unit (s := S1024x3072) ![0, 0] S1024x3072.size inb_S1024x3072_S1024x3072_0_0).PackedRows (EltTy.packing .bf16)
  shapeCasts_S8192x3072_S4x2048x3072 : S8192x3072.ShapeCasts S4x2048x3072
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x1024_S4x512x1024_0_0_0 : ∀ a, (![0, 0, 0] : Fin 3 → Nat) a + S4x512x1024.size a ≤ S4x512x1024.size a
  h_S4x512x1024 : 0 < S4x512x1024.numel
  shapeCasts_S4x512x1024_S4x512x1024 : S4x512x1024.ShapeCasts S4x512x1024
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  reduces_S4x512x256_S4x512 : S4x512x256.Reduces [2] S4x512
  shapeCasts_S4x512_S4x512x1 : S4x512.ShapeCasts S4x512x1
  broadcasts_S4x512x1_S4x512x256 : S4x512x1.Broadcasts S4x512x256
  broadcasts_S4x512x1_S4x512x1024 : S4x512x1.Broadcasts S4x512x1024
  dot_S1024x1024_S1024x3072_S1024x3072_1_0_0_1_n_n_wf : DotDims.WF S1024x1024 S1024x3072 S1024x3072 [1] [0] [0] [1] [] []
  dot_S4x512x1024_S4x256x1024_S4x512x256_2_2_1_1_0_0_wf : DotDims.WF S4x512x1024 S4x256x1024 S4x512x256 [2] [2] [1] [1] [0] [0]
  dot_S4x512x256_S4x256x1024_S4x512x1024_2_1_1_2_0_0_wf : DotDims.WF S4x512x256 S4x256x1024 S4x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S8192x3072.size a
  hwx0_3 : ∀ i : grid0.Coords, EltTy.bits .bf16 = 32 ∨ (Rect.block (s := S8192x3072) S1024x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x1024.size a ≤ S4x2048x3072.size a
  hwx1_0 : ∀ i : grid1.Coords, EltTy.bits .bf16 = 32 ∨ (Rect.block (s := S4x2048x3072) S4x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x256x1024.size a ≤ S4x2048x3072.size a
  hwx1_1 : ∀ i : grid1.Coords, EltTy.bits .bf16 = 32 ∨ (Rect.block (s := S4x2048x3072) S4x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x256x1024.size a ≤ S4x2048x3072.size a
  hwx1_2 : ∀ i : grid1.Coords, EltTy.bits .bf16 = 32 ∨ (Rect.block (s := S4x2048x3072) S4x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512x1024.size a ≤ S4x2048x1024.size a
  hwx1_3 : ∀ i : grid1.Coords, EltTy.bits .f32 = 32 ∨ (Rect.block (s := S4x2048x1024) S4x512x1024.size (cc1_transform_3 i) (hinb1_3 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S4x512x1024_S4x256x1024_S4x512x256_2_2_1_1_0_0 : DotDims S4x512x1024 S4x256x1024 S4x512x256 where
  lhsContracting := [2]
  rhsContracting := [2]
  lhsNonContracting := [1]
  rhsNonContracting := [1]
  lhsBatch := [0]
  rhsBatch := [0]
  wf := dot_S4x512x1024_S4x256x1024_S4x512x256_2_2_1_1_0_0_wf
def dot_S4x512x256_S4x256x1024_S4x512x1024_2_1_1_2_0_0 : DotDims S4x512x256 S4x256x1024 S4x512x1024 where
  lhsContracting := [2]
  rhsContracting := [1]
  lhsNonContracting := [1]
  rhsNonContracting := [2]
  lhsBatch := [0]
  rhsBatch := [0]
  wf := dot_S4x512x256_S4x256x1024_S4x512x1024_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S4x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S4x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S4x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S4x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Data.lean ====
/-
  The proof data of the two kernel regions, stated once for any float instance.

  Region 0 computes, row block by row block, the fused projection  y = x · Wᵀ + b  (1024 rows of x at a
  time against the whole 1024 × 3072 weight and the 1 × 3072 bias): after the body at a grid point the output
  window's staging buffer holds the body's one stored value of the three input blocks.

  Region 1 is the online softmax over a 4 × 8 grid (query block qi, key/value block kj, kj innermost).
  Three scratch buffers carry the state (m, l, acc) of the recurrence from one grid point to the next:
  at kj = 0 the state is reset to (-∞, 0, 0); every point then replaces it by

      m'   = max m (rowmax s)            s = (q · kᵀ) · 2⁻⁵
      l'   = exp (m - m') · l   + rowsum (exp (s - m'))
      acc' = exp (m - m') · acc + exp (s - m') · v

  and at kj = 7 the output block acc' / l' is stored. `stAt1` is that state after each grid point, by
  recursion on the point; the output window is idle (kept as found) except at kj = 7.
-/
import proofs.«116713_j5162550690439_2_alg».proof.Proof.Gen.Kernel.Launch
import proofs.«116713_j5162550690439_2_alg».proof.Proof.Gen.Kernel.Skeleton
import proofs.«116713_j5162550690439_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: the fused projection -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0: each input's staging buffer keeps its block, the output's holds the
    projection of the three input blocks; the invariant is the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

/-! ## Region 1: the online softmax -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running maximum after one key/value block. -/
def mNew (q : Vec F S4x512x1024 .bf16) (k : Vec F S4x256x1024 .bf16) (m : Vec F S4x512x1 .f32) : Vec F S4x512x1 .f32 :=
  k1_pay2 (k1_pay9 q k m)
/-- The running denominator after one key/value block. -/
def lNew (q : Vec F S4x512x1024 .bf16) (k : Vec F S4x256x1024 .bf16) (m l : Vec F S4x512x1 .f32) : Vec F S4x512x1 .f32 :=
  k1_pay12 q k m m l
/-- The running numerator after one key/value block. -/
def accNew (q : Vec F S4x512x1024 .bf16) (k v : Vec F S4x256x1024 .bf16) (m : Vec F S4x512x1 .f32) (acc : Vec F S4x512x1024 .f32) : Vec F S4x512x1024 .f32 :=
  k1_pay1 (k1_pay7 v) (k1_pay10 q k m m) (k1_pay11 q k m) acc
/-- The output block: numerator over denominator. -/
def outFin (acc : Vec F S4x512x1024 .f32) (l : Vec F S4x512x1 .f32) : Vec F S4x512x1024 .f32 :=
  k1_pay3 acc l

/-- The state (m, l, acc) of the recurrence. -/
abbrev St1 (F : FTy → Type) [FloatOps F] : Type := Vec F S4x512x1 .f32 × Vec F S4x512x1 .f32 × Vec F S4x512x1024 .f32

/-- The reset state: (-∞, 0, 0). -/
def st1Init : St1 F := (k1_pay4 (F := F), k1_pay5 (F := F), k1_pay6 (F := F))

/-- One step of the recurrence on the blocks q, k, v. -/
def st1Step (q : Vec F S4x512x1024 .bf16) (k v : Vec F S4x256x1024 .bf16) (s : St1 F) : St1 F :=
  (mNew q k s.1, lNew q k s.1 s.2.1, accNew q k v s.1 s.2.2)

/-- The state after the body at point `n`: one step on the point's blocks, from the reset state when the
    point opens a query block (n ≡ 0 mod 8), else from what the point before left. -/
def stAt1 (c : Dev nD) : (n : ℕ) → n < cfg1.N → St1 F
  | 0, hn => st1Step (iblk1 V c 0 ⟨0, hn⟩) (iblk1 V c 1 ⟨0, hn⟩) (iblk1 V c 2 ⟨0, hn⟩) st1Init
  | n + 1, hn =>
    st1Step (iblk1 V c 0 ⟨n + 1, hn⟩) (iblk1 V c 1 ⟨n + 1, hn⟩) (iblk1 V c 2 ⟨n + 1, hn⟩)
      (if (n + 1) % 8 = 0 then st1Init else stAt1 c n (Nat.lt_of_succ_lt hn))

/-- The three scratch buffers as whole memrefs. -/
abbrev scM : Memref sig .tc .vmem S4x512x1 .f32 := Memref.whole cc1_scratch0
abbrev scL : Memref sig .tc .vmem S4x512x1 .f32 := Memref.whole cc1_scratch1
abbrev scA : Memref sig .tc .vmem S4x512x1024 .f32 := Memref.whole cc1_scratch2

/-- The scoped buffers region 1 neither stages nor names: region 0's staging buffers, each whole at some contents. -/
def otherStg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region invariant before position `n`: before the first point the scoped rest at anything and the
    generator register; afterwards the three scratch buffers at the state the point before left, the other
    scoped buffers at anything, and the generator register. -/
def PhiS1 (c : Dev nD) : (n : ℕ) → n ≤ cfg1.N → sProp 𝕄
  | 0, _ => Pipeline.ΦA spec1 c
  | n + 1, hn => iprop(owns (c : Thread nD τ) scM fullShare (stAt1 V c n hn).1
      ∗ owns (c : Thread nD τ) scL fullShare (stAt1 V c n hn).2.1
      ∗ owns (c : Thread nD τ) scA fullShare (stAt1 V c n hn).2.2
      ∗ otherStg c ∗ (∃ r, prngReg c r))

/-- The shares of the one array the three input windows read: a half, a quarter, a quarter. -/
abbrev qA : PosShare TreeShare := fullShare.left
abbrev qB : PosShare TreeShare := fullShare.right.left
abbrev qC : PosShare TreeShare := fullShare.right.right

/-- The proof data of region 1: each input's staging buffer keeps its block; the output's holds, at a
    point that closes a query block, numerator over denominator of the state there. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outFin (stAt1 V c t.val t.isLt).2.2 (stAt1 V c t.val t.isLt).2.1
  Φ t := PhiS1 V c t.val (Nat.le_of_lt_succ t.isLt)
  q w := match w with
    | ⟨0, _⟩ => qA
    | ⟨1, _⟩ => qB
    | ⟨2, _⟩ => qC
    | ⟨3, _⟩ => fullShare
  owed _ := 0

end Cert.Kernel.Hand

end
-- ==== Proof.K.Vals.lean ====
/-
  The contents of every unscoped buffer at each boundary of @main: at launch, after the host operations
  before region 0 (a reshape of x, the concatenated and transposed weights, the concatenated bias), at
  region 0's exit (its output array at what the write-backs left), after the reshape between the regions, and
  at region 1's exit (the result array at what its write-backs left). No host operation writes an argument
  array, and no region's output is one.
-/
import proofs.«116713_j5162550690439_2_alg».proof.Proof.K.Data
import proofs.«116713_j5162550690439_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => (s₀ m ρ).mem ((c : Dev nD), b)
/-- After the host operations before region 0. -/
abbrev W1 : Dev nD → Valuation τ sig (Elt F) := fun c => StableHlo.after hostOps0 (W0 m ρ c)
abbrev Vh1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vh1 m ρ) c).arrAt w cfg0.N
theorem W2_arr (c : Dev nD) (w : Fin cfg0.W) :
    W2 m ρ c (Proc.devRef .tc (Pipeline.arrRef spec0 w)) = (dat0 (Vh1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vh2 : (c : Dev nD) → (b : Ref sig .tc) → Buf (Elt F) ((c : Thread nD τ).loc b) := fun c b => W2 m ρ c b
theorem hF0 (c : Dev nD) (w : Fin cfg0.W) : (dat0 (Vh1 m ρ) c).arrAt w cfg0.N = Vh2 m ρ c (Pipeline.arrRef spec0 w) :=
  (W2_arr m ρ c w).symm
theorem hrest0 (c : Dev nD) : ∀ b, b ∉ Finset.univ.image (Pipeline.arrRef spec0) → Vh2 m ρ c b = Vh1 m ρ c b :=
  fun b hb => W2_of_ne m ρ c b fun w e => hb (Finset.mem_image.mpr ⟨w, Finset.mem_univ _, e⟩)
/-- After the reshape between the regions. -/
abbrev W3 : Dev nD → Valuation τ sig (Elt F) := fun c => StableHlo.after hostOps1 (W2 m ρ c)
abbrev Vh3 : (c : Dev nD) → (b : Ref sig .tc) → Buf (Elt F) ((c : Thread nD τ).loc b) := fun c b => W3 m ρ c b
/-- At region 1's exit: the result array at what the pipeline leaves, every other buffer as entered. -/
def W4 (c : Dev nD) : Valuation τ sig (Elt F) :=
  Function.update (W3 m ρ c) (Proc.devRef .tc main_v8) ((dat1 (Vh3 m ρ) c).arrAt 3 cfg1.N)
abbrev Vh4 : (c : Dev nD) → (b : Ref sig .tc) → Buf (Elt F) ((c : Thread nD τ).loc b) := fun c b => W4 m ρ c b
theorem W4_out (c : Dev nD) : W4 m ρ c (Proc.devRef .tc main_v8) = (dat1 (Vh3 m ρ) c).arrAt 3 cfg1.N := by
  unfold W4; exact Function.update_self ..
theorem W4_of_ne (c : Dev nD) (b : Ref sig .tc) (hb : b ≠ main_v8) :
    W4 m ρ c (Proc.devRef .tc b) = W3 m ρ c (Proc.devRef .tc b) := by
  unfold W4; exact Function.update_of_ne (StableHlo.devRef_ne_of_ne hb) ..

/-- No host operation writes an argument array or the result array. -/
theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
/-- An argument array ends as launched: no host operation writes it and no region's array is one. -/
theorem W4_arg (c : Dev nD) (r : Ref sig .tc) (h0 : r ∉ hostOps0_W) (h1 : r ∉ hostOps1_W) (h8 : r ≠ main_v8)
    (hw : ∀ w, Pipeline.arrRef spec0 w ≠ r) : W4 m ρ c r = m ((c : Thread nD τ).loc r) :=
  (W4_of_ne m ρ c r h8).trans <| (W3_of m ρ c r h1).trans <| (W2_of_ne m ρ c r hw).trans <| (W1_of m ρ c r h0).trans rfl

end Cert.Kernel.Hand

end
-- ==== Proof.K.Body0.lean ====
/-
  Region 0 (the fused projection): the body's triple and the library's body obligation, for any float instance.

  The body loads its three input staging buffers whole, loads the output's whole (the value is not used), and
  stores once, whole, the projection of what it loaded. Each access goes through the unit rectangle at zero offsets
  of the buffer's own sizes, through which a load reads the contents and the one covering store leaves its payload:
  so after the body the output's buffer holds the payload of the three input blocks.
-/
import proofs.«116713_j5162550690439_2_alg».proof.Proof.K.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data projected -/

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## What each input's staging buffer holds when the body is called

An input window's current staging buffer holds its block at every point, fetched there or not: the rows of x are
fetched at every point; the weight and the bias are fetched once, at the first point, and their block index never
moves, so the block the first point brought in is the block of every later point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's triple -/

/-- The zero offsets of a rank-2 access, however spelt. -/
theorem hz0 : (![0, 0] : Fin 2 → Nat) = fun _ => 0 := funext fun a => by fin_cases a <;> rfl

/-- The one store of the body is through the whole-buffer rectangle, which holds every index of the buffer. -/
theorem cover0_3 (p0 : Vec F S1024x3072 .bf16) (y : S1024x3072.Idx) :
    ∃ pc ∈ ([⟨Rect.unit (s := S1024x3072) ![0, 0] S1024x3072.size inb_S1024x3072_S1024x3072_0_0, p0⟩] :
      List (View.Piece (Elt F) S1024x3072 .bf16)), y ∈ pc.1.set := by
  refine ⟨_, List.mem_singleton_self _, ?_⟩
  exact View.mem_set_unit_zero (S := S1024x3072) hz0 inb_S1024x3072_S1024x3072_0_0 y

set_option maxHeartbeats 1000000 in
/-- The kernel body on whole staging memrefs, the inputs' at read contents x0, x1, x2 and the output's at anything,
    runs to the continuation holding the inputs' as they were and the output's at the projection of the three:
    the one store covers the buffer, and each load through the whole-buffer rectangle reads the contents. -/
theorem sound_kernel0 (c : Dev nD) (E : Set ℕ) (i : grid0.Coords)
    (arg1 : Memref sig .tc .vmem S1024x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S1024x3072 .bf16) (harg4 : arg4.IsWhole)
    (x0 : Vec F S1024x1024 .f32) (x1 : Vec F S1024x3072 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0_qkv_kernel i arg1 harg1 arg2 harg2 arg3 harg3 arg4 harg4) K := by
  simp only [cc0_qkv_kernel_eq_skeleton]; unfold cc0_qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have e0 : View.readAt (Elt F) arg1.view (Rect.unit ![0, 0] S1024x1024.size inb_S1024x1024_S1024x1024_0_0).toLoadRect f0
      = View.read (Elt F) arg1.view f0 := View.ld_unit_zero (S := S1024x1024) hz0 _ _
  have e1 : View.readAt (Elt F) arg2.view (Rect.unit ![0, 0] S1024x3072.size inb_S1024x3072_S1024x3072_0_0).toLoadRect f1
      = View.read (Elt F) arg2.view f1 := View.ld_unit_zero (S := S1024x3072) hz0 _ _
  have e2 : View.readAt (Elt F) arg3.view (Rect.unit ![0, 0] S1x3072.size inb_S1x3072_S1x3072_0_0).toLoadRect f2
      = View.read (Elt F) arg3.view f2 := View.ld_unit_zero (S := S1x3072) hz0 _ _
  rw [e0, e1, e2]
  refine (View.read_writes_eq_canon _ _ _ (cover0_3 _)).trans ?_
  exact View.canon_unit_zero (S := S1024x3072) hz0 _ _

/-! ## The body obligation, at a generic point -/

/-- What the body is called with at point t: the invariant, what the core owes, and each window's current staging
    buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Run1Base.lean ====
/-
  What the runs of the online-softmax body share: the two branch conditions of the body in closed form over
  the 4 × 8 grid (the reset at kj = 0, the output at kj = 7), where the output window is idle, and the one fact
  about memory the runs need — every store of this body covers its whole buffer, so a buffer reads back as
  the payload of the last store into it.
-/
import proofs.«116713_j5162550690439_2_alg».proof.Proof.K.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-buffer rectangle of rank 3, as a constant function. -/
theorem hz3 : (![0, 0, 0] : Fin 3 → Nat) = fun _ => 0 := funext fun a => by fin_cases a <;> rfl

/-- A whole-buffer store, made last, into a whole buffer leaves its payload, whatever the buffer held and
    whatever was stored before. -/
theorem read_storeL {S : Shape} {e : EltTy} (M : Memref sig .tc .vmem S e) (f : M.view.ty.Contents (Elt F))
    {off : Fin S.rank → Nat} (h : off = fun _ => 0) (inb : ∀ a, off a + S.size a ≤ S.size a) (w : S.Idx → Elt F e)
    (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-! ## The body's branch conditions -/

/-- The condition of the reset branch, as the body computes it from the grid coordinates: kj = 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the output branch: kj = 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off kj = 7 the output window is idle (the body stores nothing into it) and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At kj = 7 it is live. -/
theorem liveAt1_3 : ∀ t : Fin cfg1.N, cond1_1 (grid1.coords t) → cfg1.idle 3 (grid1.coords t) = false := by decide +kernel

end Cert.Kernel.Hand

end
-- ==== Proof.K.Run1A.lean ====
/-
  The online-softmax body at a point that opens a query block (kj = 0): the reset, then one step.
-/
import proofs.«116713_j5162550690439_2_alg».proof.Proof.K.Run1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point with kj = 0, on whole buffers: the inputs at q, k, v, the output's buffer at anything it
    held (o), the scratch at ANY contents. It resets the scratch to (-∞, 0, 0) and then makes one step of the
    recurrence from there; the inputs and the output's buffer are as they were. -/
theorem run1_A (c : Dev nD) (i : grid1.Coords) (arg2 : Memref sig .tc .vmem S4x512x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x512x1024 .f32) (harg5 : arg5.IsWhole) (arg6 : Memref sig .tc .vmem S4x512x1 .f32) (harg6 : arg6.IsWhole) (arg7 : Memref sig .tc .vmem S4x512x1 .f32) (harg7 : arg7.IsWhole) (arg8 : Memref sig .tc .vmem S4x512x1024 .f32) (harg8 : arg8.IsWhole)
    (hc0 : cond1_0 i) (hc1 : ¬cond1_1 i)
    (q : Vec F S4x512x1024 .bf16) (k v : Vec F S4x256x1024 .bf16) (o : Vec F S4x512x1024 .f32)
    (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare o
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v ∗ owns (c : Thread nD τ) arg5 fullShare o
            ∗ owns (c : Thread nD τ) arg6 fullShare (mNew q k (k1_pay4 (F := F))) ∗ owns (c : Thread nD τ) arg7 fullShare (lNew q k (k1_pay4 (F := F)) (k1_pay5 (F := F))) ∗ owns (c : Thread nD τ) arg8 fullShare (accNew q k v (k1_pay4 (F := F)) (k1_pay6 (F := F)))) -∗ K ⟨⟩))
      ⊢ wp frame (wpE (defs₀ (F := F)) Variants.none c none) E (cc1_flash_attn_kernel i arg2 harg2 arg3 harg3 arg4 harg4 arg5 harg5 arg6 harg6 arg7 harg7 arg8 harg8) K := by
  simp only [cc1_flash_attn_kernel_eq_skeleton]; unfold cc1_flash_attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_storeL arg6 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  isplitl [H7]
  · iexists _; isplitr
    swap; · iexact H7
    ipureintro
    sl_unfold_run_names
    rw [read_storeL arg7 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  · iexists _; isplitr
    swap; · iexact H8
    ipureintro
    sl_unfold_run_names
    rw [read_storeL arg8 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl

end Cert.Kernel.Hand

end
-- ==== Proof.K.Run1B.lean ====
/-
  The online-softmax body at a point inside a query block (0 < kj < 7): one step of the recurrence.
-/
import proofs.«116713_j5162550690439_2_alg».proof.Proof.K.Run1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point with 0 < kj < 7, on whole buffers: the inputs at q, k, v, the output's buffer at
    anything it held (o), the scratch at (m, l, acc). It runs to the continuation holding the inputs and
    the output's buffer as they were and the scratch at one step of the recurrence. -/
theorem run1_B (c : Dev nD) (i : grid1.Coords) (arg2 : Memref sig .tc .vmem S4x512x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x512x1024 .f32) (harg5 : arg5.IsWhole) (arg6 : Memref sig .tc .vmem S4x512x1 .f32) (harg6 : arg6.IsWhole) (arg7 : Memref sig .tc .vmem S4x512x1 .f32) (harg7 : arg7.IsWhole) (arg8 : Memref sig .tc .vmem S4x512x1024 .f32) (harg8 : arg8.IsWhole)
    (hc0 : ¬cond1_0 i) (hc1 : ¬cond1_1 i)
    (q : Vec F S4x512x1024 .bf16) (k v : Vec F S4x256x1024 .bf16) (o : Vec F S4x512x1024 .f32)
    (m l : Vec F S4x512x1 .f32) (acc : Vec F S4x512x1024 .f32)
    (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare o
        ∗ owns (c : Thread nD τ) arg6 fullShare m ∗ owns (c : Thread nD τ) arg7 fullShare l ∗ owns (c : Thread nD τ) arg8 fullShare acc
        ∗ (iprop(owns (c : Thread nD τ) arg2 fullShare q ∗ owns (c : Thread nD τ) arg3 fullShare k ∗ owns (c : Thread nD τ) arg4 fullShare v ∗ owns (c : Thread nD τ) arg5 fullShare o
            ∗ owns (c : Thread nD τ) arg6 fullShare (mNew q k m) ∗ owns (c : Thread nD τ) arg7 fullShare (lNew q k m l) ∗ owns (c : Thread nD τ) arg8 fullShare (accNew q k v m acc)) -∗ K ⟨⟩))
      ⊢ wp frame (wpE (defs₀ (F := F)) Variants.none c none) E (cc1_flash_attn_kernel i arg2 harg2 arg3 harg3 arg4 harg4 arg5 harg5 arg6 harg6 arg7 harg7 arg8 harg8) K := by
  simp only [cc1_flash_attn_kernel_eq_skeleton]; unfold cc1_flash_attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_storeL arg6 _ hz3]
    simp only [View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  isplitl [H7]
  · iexists _; isplitr
    swap; · iexact H7
    ipureintro
    sl_unfold_run_names
    rw [read_storeL arg7 _ hz3]
    simp only [View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  · iexists _; isplitr
    swap; · iexact H8
    ipureintro
    sl_unfold_run_names
    rw [read_storeL arg8 _ hz3]
    simp only [View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl

end Cert.Kernel.Hand

end
-- ==== Proof.K.Run1C.lean ====
/-
  The online-softmax body at a point that closes a query block (kj = 7): one step, then the output.
-/
import proofs.«116713_j5162550690439_2_alg».proof.Proof.K.Run1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point with kj = 7, on whole buffers: the inputs at q, k, v, the scratch at (m, l, acc), the
    output's buffer at anything. It makes one step of the recurrence and then stores, into the output's buffer,
    the NEW numerator over the NEW denominator (the final loads come after the scratch stores). -/
theorem run1_C (c : Dev nD) (i : grid1.Coords) (arg2 : Memref sig .tc .vmem S4x512x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x512x1024 .f32) (harg5 : arg5.IsWhole) (arg6 : Memref sig .tc .vmem S4x512x1 .f32) (harg6 : arg6.IsWhole) (arg7 : Memref sig .tc .vmem S4x512x1 .f32) (harg7 : arg7.IsWhole) (arg8 : Memref sig .tc .vmem S4x512x1024 .f32) (harg8 : arg8.IsWhole)
    (hc0 : ¬cond1_0 i) (hc1 : cond1_1 i)
    (q : Vec F S4x512x1024 .bf16) (k v : Vec F S4x256x1024 .bf16) (m l : Vec F S4x512x1 .f32) (acc : Vec F S4x512x1024 .f32)
    (E : Set ℕ) (K : PUnit → sProp 𝕄) :
    iprop(owns (c : Thread nD τ) arg2 fullShare q ∗ owns (c : Thread nD τ) arg3 fullShare k ∗ owns (c : Thread nD τ) arg4 fullShare v ∗ (∃ d, owns (c : Thread nD τ) arg5 fullShare d)
        ∗ owns (c : Thread nD τ) arg6 fullShare m ∗ owns (c : Thread nD τ) arg7 fullShare l ∗ owns (c : Thread nD τ) arg8 fullShare acc
        ∗ (iprop(owns (c : Thread nD τ) arg2 fullShare q ∗ owns (c : Thread nD τ) arg3 fullShare k ∗ owns (c : Thread nD τ) arg4 fullShare v ∗ owns (c : Thread nD τ) arg5 fullShare (outFin (accNew q k v m acc) (lNew q k m l))
            ∗ owns (c : Thread nD τ) arg6 fullShare (mNew q k m) ∗ owns (c : Thread nD τ) arg7 fullShare (lNew q k m l) ∗ owns (c : Thread nD τ) arg8 fullShare (accNew q k v m acc)) -∗ K ⟨⟩))
      ⊢ wp frame (wpE (defs₀ (F := F)) Variants.none c none) E (cc1_flash_attn_kernel i arg2 harg2 arg3 harg3 arg4 harg4 arg5 harg5 arg6 harg6 arg7 harg7 arg8 harg8) K := by
  simp only [cc1_flash_attn_kernel_eq_skeleton]; unfold cc1_flash_attn_kernel_skel
  simp only [k1_part1_eq_skeleton]
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [read_storeL arg5 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  isplitl [H6]
  · iexists _; isplitr
    swap; · iexact H6
    ipureintro
    sl_unfold_run_names
    rw [read_storeL arg6 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  isplitl [H7]
  · iexists _; isplitr
    swap; · iexact H7
    ipureintro
    sl_unfold_run_names
    rw [read_storeL arg7 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  · iexists _; isplitr
    swap; · iexact H8
    ipureintro
    sl_unfold_run_names
    rw [read_storeL arg8 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl

end Cert.Kernel.Hand

end
-- ==== Proof.K.Body1.lean ====
/-
  Region 1, the online softmax: the body obligation of its proof data and the invariant's entry and exit.

  The grid is 4 × 8 with kj innermost, so point t has kj = t mod 8. At kj = 0 the body resets the three scratch
  buffers to (-∞, 0, 0) before its step, so the state after the point is one step from the reset state whatever
  the scratch held; at 0 < kj the step starts from what the point before left; at kj = 7 the body also stores
  the new numerator over the new denominator into the output's buffer. The output window is idle off kj = 7:
  its buffer is handed back as found. Each input's buffer holds its block at every point, fetched there or not.
-/
import proofs.«116713_j5162550690439_2_alg».proof.Proof.K.Run1A
import proofs.«116713_j5162550690439_2_alg».proof.Proof.K.Run1B
import proofs.«116713_j5162550690439_2_alg».proof.Proof.K.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The state after each point, case by case -/

/-- At a point that opens a query block the state is one step from the reset state. -/
theorem stAt1_A (c : Dev nD) (t : Fin cfg1.N) (h0 : t.val % 8 = 0) :
    stAt1 V c t.val t.isLt = st1Step (iblk1 V c 0 t) (iblk1 V c 1 t) (iblk1 V c 2 t) st1Init := by
  obtain ⟨n, hn⟩ := t
  cases n with
  | zero => rfl
  | succ n =>
    have h0' : (n + 1) % 8 = 0 := h0
    have e : stAt1 V c (n + 1) hn = st1Step (iblk1 V c 0 ⟨n + 1, hn⟩) (iblk1 V c 1 ⟨n + 1, hn⟩) (iblk1 V c 2 ⟨n + 1, hn⟩) st1Init := by
      rw [stAt1, if_pos h0']
    exact e

/-- At any other point it is one step from the state the point before left. -/
theorem stAt1_B (c : Dev nD) (t : Fin cfg1.N) (h0 : ¬t.val % 8 = 0) :
    stAt1 V c t.val t.isLt = st1Step (iblk1 V c 0 t) (iblk1 V c 1 t) (iblk1 V c 2 t) (stAt1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 8 = 0 := h0
    have e : stAt1 V c (n + 1) hn = st1Step (iblk1 V c 0 ⟨n + 1, hn⟩) (iblk1 V c 1 ⟨n + 1, hn⟩) (iblk1 V c 2 ⟨n + 1, hn⟩) (stAt1 V c n (Nat.lt_of_succ_lt hn)) := by
      rw [stAt1, if_neg h0']
    exact e

/-- The same, component by component (m, l, acc). -/
theorem stAt1_A_m (c : Dev nD) (t : Fin cfg1.N) (h0 : t.val % 8 = 0) :
    (stAt1 V c t.val t.isLt).1 = mNew (iblk1 V c 0 t) (iblk1 V c 1 t) (k1_pay4 (F := F)) := congrArg (fun s : St1 F => s.1) (stAt1_A V c t h0)
theorem stAt1_A_l (c : Dev nD) (t : Fin cfg1.N) (h0 : t.val % 8 = 0) :
    (stAt1 V c t.val t.isLt).2.1 = lNew (iblk1 V c 0 t) (iblk1 V c 1 t) (k1_pay4 (F := F)) (k1_pay5 (F := F)) := congrArg (fun s : St1 F => s.2.1) (stAt1_A V c t h0)
theorem stAt1_A_acc (c : Dev nD) (t : Fin cfg1.N) (h0 : t.val % 8 = 0) :
    (stAt1 V c t.val t.isLt).2.2 = accNew (iblk1 V c 0 t) (iblk1 V c 1 t) (iblk1 V c 2 t) (k1_pay4 (F := F)) (k1_pay6 (F := F)) := congrArg (fun s : St1 F => s.2.2) (stAt1_A V c t h0)
theorem stAt1_B_m (c : Dev nD) (t : Fin cfg1.N) (h0 : ¬t.val % 8 = 0) :
    (stAt1 V c t.val t.isLt).1 = mNew (iblk1 V c 0 t) (iblk1 V c 1 t) (stAt1 V c (t.val - 1) (Nat.lt_of_le_of_lt (Nat.sub_le _ _) t.isLt)).1 := congrArg (fun s : St1 F => s.1) (stAt1_B V c t h0)
theorem stAt1_B_l (c : Dev nD) (t : Fin cfg1.N) (h0 : ¬t.val % 8 = 0) :
    (stAt1 V c t.val t.isLt).2.1 = lNew (iblk1 V c 0 t) (iblk1 V c 1 t) (stAt1 V c (t.val - 1) (Nat.lt_of_le_of_lt (Nat.sub_le _ _) t.isLt)).1 (stAt1 V c (t.val - 1) (Nat.lt_of_le_of_lt (Nat.sub_le _ _) t.isLt)).2.1 := congrArg (fun s : St1 F => s.2.1) (stAt1_B V c t h0)
theorem stAt1_B_acc (c : Dev nD) (t : Fin cfg1.N) (h0 : ¬t.val % 8 = 0) :
    (stAt1 V c t.val t.isLt).2.2 = accNew (iblk1 V c 0 t) (iblk1 V c 1 t) (iblk1 V c 2 t) (stAt1 V c (t.val - 1) (Nat.lt_of_le_of_lt (Nat.sub_le _ _) t.isLt)).1 (stAt1 V c (t.val - 1) (Nat.lt_of_le_of_lt (Nat.sub_le _ _) t.isLt)).2.2 := congrArg (fun s : St1 F => s.2.2) (stAt1_B V c t h0)

/-! ## The invariant, position by position -/

theorem PhiS1_zero (c : Dev nD) (n : ℕ) (h : n ≤ cfg1.N) (hz : n = 0) : PhiS1 V c n h = Pipeline.ΦA spec1 c := by
  subst hz; rfl

/-- After point `n`: the scratch at that point's state. -/
theorem PhiS1_succ (c : Dev nD) (n : ℕ) (hn : n < cfg1.N) :
    PhiS1 V c (n + 1) hn = iprop(owns (c : Thread nD τ) scM fullShare (stAt1 V c n hn).1
      ∗ owns (c : Thread nD τ) scL fullShare (stAt1 V c n hn).2.1
      ∗ owns (c : Thread nD τ) scA fullShare (stAt1 V c n hn).2.2
      ∗ otherStg c ∗ (∃ r, prngReg c r)) := rfl

/-- Before a point that is not the first: the scratch at the state the point before left. -/
theorem PhiS1_pos (c : Dev nD) (n : ℕ) (h : n ≤ cfg1.N) (hz : n ≠ 0) :
    PhiS1 V c n h = iprop(owns (c : Thread nD τ) scM fullShare (stAt1 V c (n - 1) (by omega)).1
      ∗ owns (c : Thread nD τ) scL fullShare (stAt1 V c (n - 1) (by omega)).2.1
      ∗ owns (c : Thread nD τ) scA fullShare (stAt1 V c (n - 1) (by omega)).2.2
      ∗ otherStg c ∗ (∃ r, prngReg c r)) := by
  cases n with
  | zero => exact absurd rfl hz
  | succ n => rfl

/-- What the region is entered with, the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-! ## The proof data, field by field -/

/-- The proof data's arrays are the contents the region is entered with. -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outFin (stAt1 V c t.val t.isLt).2.2 (stAt1 V c t.val t.isLt).2.1 := by dsimp only [dat1]

/-- Each input's current staging buffer holds its block at every point, fetched there or not: unfetched, the
    block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body obligation, at a generic point -/

/-- Each window's current staging memref at point `t`, as the pipeline passes it to the body, and its wholeness. -/
abbrev ms1_0 (t : Fin cfg1.N) : Memref sig .tc .vmem S4x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x512x1024 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's kj says which of the three runs
    applies; the invariant hands the body the scratch at the state the point before left (at anything at the
    first point) and takes it back at this point's state; off kj = 7 the output's buffer goes back as found, at
    kj = 7 it holds the new numerator over the new denominator; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 3 t (idleAt1_3 t hc1) (noFlush1_3 t hc1)]
      rw [stAt1_A_m V c t h0, stAt1_A_l V c t h0, stAt1_A_acc V c t h0]
      by_cases hz : t.val = 0
      · rw [PhiS1_castSucc V c t, PhiS1_zero V c _ _ hz, PhiA1_eq]
        iintro ⟨⟨⟨A1, A2, A3, A4, A5, A6, S0, S1, S2⟩, Hg⟩, Ho, ⟨%d0, H0⟩, ⟨%d1, H1⟩, ⟨%d2, H2⟩, ⟨%d3, H3⟩⟩
        iapply (run1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [S0]; · iexact S0
        isplitl [S1]; · iexact S1
        isplitl [S2]; · iexact S2
        iintro ⟨H0, H1, H2, H3, HM, HL, HA⟩
        isplitl [HM HL HA A1 A2 A3 A4 A5 A6 Hg]
        · isplitl [HM]; · iexact HM
          isplitl [HL]; · iexact HL
          isplitl [HA]; · iexact HA
          isplitl [A1 A2 A3 A4 A5 A6]
          · unfold otherStg
            isplitl [A1]; · iexact A1
            isplitl [A2]; · iexact A2
            isplitl [A3]; · iexact A3
            isplitl [A4]; · iexact A4
            isplitl [A5]; · iexact A5
            iexact A6
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HM, HL, HA, Hst, Hg⟩, Ho, ⟨%d0, H0⟩, ⟨%d1, H1⟩, ⟨%d2, H2⟩, ⟨%d3, H3⟩⟩
        iapply (run1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HM]; · iexists _; iexact HM
        isplitl [HL]; · iexists _; iexact HL
        isplitl [HA]; · iexists _; iexact HA
        iintro ⟨H0, H1, H2, H3, HM, HL, HA⟩
        isplitl [HM HL HA Hst Hg]
        · isplitl [HM]; · iexact HM
          isplitl [HL]; · iexact HL
          isplitl [HA]; · iexact HA
          isplitl [Hst]; · iexact Hst
          iexact Hg
        isplitl [Ho]; · iexact Ho
        isplitl [H0]; · iexact H0
        isplitl [H1]; · iexact H1
        isplitl [H2]; · iexact H2
        iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [stAt1_B_m V c t h0, stAt1_B_l V c t h0, stAt1_B_acc V c t h0]
      rw [PhiS1_castSucc V c t, PhiS1_pos V c _ _ hz]
      iintro ⟨⟨HM, HL, HA, Hst, Hg⟩, Ho, ⟨%d0, H0⟩, ⟨%d1, H1⟩, ⟨%d2, H2⟩, ⟨%d3, H3⟩⟩
      iapply (run1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (iblk1 V c 0 t) (iblk1 V c 1 t) (iblk1 V c 2 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, H3, HM, HL, HA⟩
      isplitl [HM HL HA Hst Hg]
      · isplitl [HM]; · iexact HM
        isplitl [HL]; · iexact HL
        isplitl [HA]; · iexact HA
        isplitl [Hst]; · iexact Hst
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [stAt1_B_m V c t h0, stAt1_B_l V c t h0, stAt1_B_acc V c t h0]
      rw [PhiS1_castSucc V c t, PhiS1_pos V c _ _ hz]
      iintro ⟨⟨HM, HL, HA, Hst, Hg⟩, Ho, ⟨%d0, H0⟩, ⟨%d1, H1⟩, ⟨%d2, H2⟩, ⟨%d3, H3⟩⟩
      iapply (run1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (iblk1 V c 0 t) (iblk1 V c 1 t) (iblk1 V c 2 t) ((dat1 V c).before 3 t d3) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, HM, HL, HA⟩
      isplitl [HM HL HA Hst Hg]
      · isplitl [HM]; · iexact HM
        isplitl [HL]; · iexact HL
        isplitl [HA]; · iexact HA
        isplitl [Hst]; · iexact Hst
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's entry and exit -/

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After any point but the first the invariant gives back what the region was entered with: the scratch's
    named contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  unfold otherStg
  iintro ⟨HM, HL, HA, ⟨A1, A2, A3, A4, A5, A6⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [HM]; · iexists _; iexact HM
    isplitl [HL]; · iexists _; iexact HL
    iexists _; iexact HA
  iexact Hg

/-- The same after the last point. -/
theorem hout1 (c : Dev nD) : (dat1 (F := F) V c).Φ (Fin.last cfg1.N) ⊢ Pipeline.ΦA spec1 c :=
  Phi_out1 V c _ (by rw [Fin.val_last]; have : cfg1.N = 32 := N_1; omega)

end Cert.Kernel.Hand

end
-- ==== Proof.K.Run.lean ====
/-
  The run of @main: two host stretches and two kernel regions in order. Each region is entered with every
  unscoped buffer at the boundary's contents and left with its output array at what its write-backs leave.
  Region 1's three input windows read ONE array, which the core holds once and lends the pipeline as three
  shares. The run's post names the result array's final contents and says every argument array is unchanged.
-/
import proofs.«116713_j5162550690439_2_alg».proof.Proof.K.Vals
import proofs.«116713_j5162550690439_2_alg».proof.Proof.K.Body0
import proofs.«116713_j5162550690439_2_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (Vh1 m ρ) c
  | ⟨1, _⟩ => fun c => dat1 (Vh3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W1`, left at `W2`. Its arrays are split
    out of the unscoped buffers and put back at their exit contents; the generator register passes through the
    invariant; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vh1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vh1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vh1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vh1 m ρ c) (Vh2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1: three input windows read one array

The q, k and v windows all index the fused projection array; the core holds that array once, at the full
share, and hands the pipeline three shares of it (a half, a quarter, a quarter), taking them back at the end. -/

/-- Region 1's arrays, window by window: the projection array at the three shares, the result array whole. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v7) ↦{qA} Fa 0) ∗ (((c : Thread nD τ).loc main_v7) ↦{qB} Fa 1)
          ∗ (((c : Thread nD τ).loc main_v7) ↦{qC} Fa 2) ∗ (((c : Thread nD τ).loc main_v8) ↦{fullShare} Fa 3)) := by
  unfold Dat.arrays
  rw [bigSep_W1, (arr_whole1 0).set_eq_univ, (arr_whole1 3).set_eq_univ]
  rfl

/-- The two buffers behind region 1's arrays. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v7) ↦{fullShare} Vc main_v7) ∗ (((c : Thread nD τ).loc main_v8) ↦{fullShare} Vc main_v8)) := by
  unfold Pipeline.arrBufs
  exact bigSep_eq_bigSepL_of_eq [main_v7, main_v8] (by decide) (by decide) _

/-- A whole buffer at the full share splits into a half and two quarters of it, -/
theorem three_split (c : Dev nD) (f : Buf (Elt F) ((c : Thread nD τ).loc main_v7)) :
    ((((c : Thread nD τ).loc main_v7) ↦{fullShare} f) : sProp 𝕄)
      ⊢ iprop((((c : Thread nD τ).loc main_v7) ↦{qA} f) ∗ (((c : Thread nD τ).loc main_v7) ↦{qB} f) ∗ (((c : Thread nD τ).loc main_v7) ↦{qC} f)) := by
  iintro H
  ihave H' := (pointsTo_share (PosShare.mem_left_op_right fullShare)).1 $$ H
  icases H' with ⟨Ha, Hr⟩
  ihave Hr' := (pointsTo_share (PosShare.mem_left_op_right fullShare.right)).1 $$ Hr
  icases Hr' with ⟨Hb, Hc⟩
  isplitl [Ha]; · iexact Ha
  isplitl [Hb]; · iexact Hb
  iexact Hc

/-- and they join back. -/
theorem three_join (c : Dev nD) (f : Buf (Elt F) ((c : Thread nD τ).loc main_v7)) :
    iprop((((c : Thread nD τ).loc main_v7) ↦{qA} f) ∗ (((c : Thread nD τ).loc main_v7) ↦{qB} f) ∗ (((c : Thread nD τ).loc main_v7) ↦{qC} f))
      ⊢ ((((c : Thread nD τ).loc main_v7) ↦{fullShare} f) : sProp 𝕄) := by
  iintro ⟨Ha, Hb, Hc⟩
  iapply (pointsTo_share (PosShare.mem_left_op_right fullShare)).2
  isplitl [Ha]; · iexact Ha
  iapply (pointsTo_share (PosShare.mem_left_op_right fullShare.right)).2
  isplitl [Hb]; · iexact Hb
  iexact Hc

theorem unsc1 : ∀ w : Fin cfg1.W, (Pipeline.arrRef spec1 w).isScoped = false := by decide

/-- ENTRY: every unscoped buffer at region 1's entry contents is its arrays at their entry contents — the
    projection array split in three — and the unscoped rest. -/
theorem hsplit1 (c : Dev nD) :
    (StableHlo.held (c : Thread nD τ) (Pipeline.ucRefs τ sig) (W3 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (Vh3 m ρ c)) := by
  show _ ⊢ iprop((dat1 (Vh3 m ρ) c).arrays ((dat1 (Vh3 m ρ) c).arrAt · 0) ∗ _)
  rw [← Pipeline.unscopedBufs_held c (W3 m ρ c), Pipeline.unscopedBufs_split₀ cfgs 1 unsc1 c (Vh3 m ρ c)]
  show iprop(Pipeline.arrBufs spec1 c (Vh3 m ρ c) ∗ Pipeline.unscopedRest spec1 c (Vh3 m ρ c)) ⊢ _
  rw [arrBufs1_eq, arrays1_eq]
  refine sep_mono ?_ .rfl
  refine (sep_mono (three_split c _) .rfl).trans ?_
  iintro ⟨⟨Ha, Hb, Hc⟩, H8⟩
  isplitl [Ha]; · iexact Ha
  isplitl [Hb]; · iexact Hb
  isplitl [Hc]; · iexact Hc
  iexact H8

/-- EXIT: the arrays at their final contents — the projection array's three shares joined, the result array at
    what the write-backs left — and the unscoped rest are every unscoped buffer at the exit contents. -/
theorem hjoin1 (c : Dev nD) :
    iprop((pdats m ρ 1 c).arrays ((pdats m ρ 1 c).arrAt · cfg1.N)
        ∗ Pipeline.unscopedRest (Ix := Unit) (Name := ℕ) (U := UR sig nD τ) (Lvl := ℕ) spec1 c (Vh3 m ρ c))
      ⊢ (StableHlo.held (c : Thread nD τ) (Pipeline.ucRefs τ sig) (W4 m ρ c) : sProp 𝕄) := by
  show iprop((dat1 (Vh3 m ρ) c).arrays ((dat1 (Vh3 m ρ) c).arrAt · cfg1.N) ∗ _) ⊢ _
  rw [← Pipeline.unscopedBufs_held c (W4 m ρ c), Pipeline.unscopedBufs_split₀ cfgs 1 unsc1 c (Vh4 m ρ c)]
  show _ ⊢ iprop(Pipeline.arrBufs spec1 c (Vh4 m ρ c) ∗ Pipeline.unscopedRest spec1 c (Vh4 m ρ c))
  rw [arrBufs1_eq, arrays1_eq,
    (dat1 (Vh3 m ρ) c).arrAt_in 0 rfl, (dat1 (Vh3 m ρ) c).arrAt_in 1 rfl, (dat1 (Vh3 m ρ) c).arrAt_in 2 rfl]
  have e7 : Vh4 m ρ c main_v7 = Vh3 m ρ c main_v7 := W4_of_ne m ρ c main_v7 (by decide)
  have e8 : Vh4 m ρ c main_v8 = (dat1 (Vh3 m ρ) c).arrAt 3 cfg1.N := W4_out m ρ c
  have eR : (Pipeline.unscopedRest (Ix := Unit) (Name := ℕ) (U := UR sig nD τ) (Lvl := ℕ) spec1 c (Vh4 m ρ c) : sProp 𝕄)
      = Pipeline.unscopedRest spec1 c (Vh3 m ρ c) := by
    unfold Pipeline.unscopedRest
    exact bigSep_congr fun b hb => by
      rw [show Vh4 m ρ c b = Vh3 m ρ c b from W4_of_ne m ρ c b fun e =>
        (Finset.mem_sdiff.mp hb).2 (Finset.mem_image.mpr ⟨3, Finset.mem_univ _, e.symm⟩)]
  rw [eR, e7, e8]
  refine sep_mono ?_ .rfl
  iintro ⟨Ha, Hb, Hc, H8⟩
  isplitr [H8]
  · iapply (three_join c _)
    isplitl [Ha]; · iexact Ha
    isplitl [Hb]; · iexact Hb
    iexact Hc
  iexact H8

set_option backward.isDefEq.respectTransparency.types false in
/-- Region 1 over the thread state: entered with every unscoped buffer at `W3`, left at `W4`. The generator
    register and the scoped rest enter the invariant (which carries the three scratch buffers from point to point)
    and come back; nothing is owed; the kernel has no semaphore of its own. -/
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vh3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vh3 m ρ c)
  hentry c := by
    rw [Pipeline.ownSems0_none]
    iintro ⟨⟨Hub, Hp, HO⟩, -, -⟩
    ihave H := (hsplit1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vh3 m ρ) c)
    unfold Pipeline.ΦA
    iintro ⟨Hp, -, Hr⟩
    isplitl [Hr]; · iexact Hr
    iexact Hp
  hout c := by
    rw [Pipeline.ownSems0_none]
    refine (hout1 (Vh3 m ρ) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (hjoin1 m ρ c); isplitl [Ha] <;> iassumption
      iexact HY
    unfold Pipeline.Dat.owesAt Pipeline.owesWithin
    icases HO with ⟨%W, -, HO⟩; iexists W; iexact HO

/-! ## @main as segments, and the run -/

abbrev segsH : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segsH m ρ) := (main_chain c).trans (by chain_rfl)

set_option backward.isDefEq.respectTransparency.types false in
/-- THE RUN. From any memory with zero counters every weakly fair execution of @main terminates, nothing
    faulting, and in every final state the result array holds what region 1's write-backs left
    (`Dat.arrAt` of window 3 after the last point, over the array region 1 was entered with) and every
    argument array holds its launch contents. -/
theorem run : θ_run defs (onTc (τ := τ) (main (F := F))) ⟨m, fun _ => 0, ρ⟩ (fun r => ∀ c : Dev nD,
      r.2.mem ((c.tc : Thread nD τ).loc main_v8) = (dat1 (Vh3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v8 (by decide))).trans (W4_out m ρ c),
       (h c _ (mem_uc main_arg0 (by decide))).trans (W4_arg m ρ c main_arg0 (by decide) (by decide) (by decide) (by decide)),
       (h c _ (mem_uc main_arg1 (by decide))).trans (W4_arg m ρ c main_arg1 (by decide) (by decide) (by decide) (by decide)),
       (h c _ (mem_uc main_arg2 (by decide))).trans (W4_arg m ρ c main_arg2 (by decide) (by decide) (by decide) (by decide)),
       (h c _ (mem_uc main_arg3 (by decide))).trans (W4_arg m ρ c main_arg3 (by decide) (by decide) (by decide) (by decide)),
       (h c _ (mem_uc main_arg4 (by decide))).trans (W4_arg m ρ c main_arg4 (by decide) (by decide) (by decide) (by decide)),
       (h c _ (mem_uc main_arg5 (by decide))).trans (W4_arg m ρ c main_arg5 (by decide) (by decide) (by decide) (by decide)),
       (h c _ (mem_uc main_arg6 (by decide))).trans (W4_arg m ρ c main_arg6 (by decide) (by decide) (by decide) (by decide))⟩)

end Cert.Kernel.Hand

end
-- ==== Proof.KI.Data.lean ====
/-
  The proof data of the two kernel regions, stated once for any float instance.

  Region 0 computes, row block by row block, the fused projection  y = x · Wᵀ + b  (1024 rows of x at a
  time against the whole 1024 × 3072 weight and the 1 × 3072 bias): after the body at a grid point the output
  window's staging buffer holds the body's one stored value of the three input blocks.

  Region 1 is the online softmax over a 4 × 8 grid (query block qi, key/value block kj, kj innermost).
  Three scratch buffers carry the state (m, l, acc) of the recurrence from one grid point to the next:
  at kj = 0 the state is reset to (-∞, 0, 0); every point then replaces it by

      m'   = max m (rowmax s)            s = (q · kᵀ) · 2⁻⁵
      l'   = exp (m - m') · l   + rowsum (exp (s - m'))
      acc' = exp (m - m') · acc + exp (s - m') · v

  and at kj = 7 the output block acc' / l' is stored. `stAt1` is that state after each grid point, by
  recursion on the point; the output window is idle (kept as found) except at kj = 7.
-/
import proofs.«116713_j5162550690439_2_alg».proof.Proof.Gen.KernelIdeal.Launch
import proofs.«116713_j5162550690439_2_alg».proof.Proof.Gen.KernelIdeal.Skeleton
import proofs.«116713_j5162550690439_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: the fused projection -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0: each input's staging buffer keeps its block, the output's holds the
    projection of the three input blocks; the invariant is the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

/-! ## Region 1: the online softmax -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running maximum after one key/value block. -/
def mNew (q : Vec F S4x512x1024 .bf16) (k : Vec F S4x256x1024 .bf16) (m : Vec F S4x512x1 .f32) : Vec F S4x512x1 .f32 :=
  k1_pay2 (k1_pay9 q k m)
/-- The running denominator after one key/value block. -/
def lNew (q : Vec F S4x512x1024 .bf16) (k : Vec F S4x256x1024 .bf16) (m l : Vec F S4x512x1 .f32) : Vec F S4x512x1 .f32 :=
  k1_pay12 q k m m l
/-- The running numerator after one key/value block. -/
def accNew (q : Vec F S4x512x1024 .bf16) (k v : Vec F S4x256x1024 .bf16) (m : Vec F S4x512x1 .f32) (acc : Vec F S4x512x1024 .f32) : Vec F S4x512x1024 .f32 :=
  k1_pay1 (k1_pay7 v) (k1_pay10 q k m m) (k1_pay11 q k m) acc
/-- The output block: numerator over denominator. -/
def outFin (acc : Vec F S4x512x1024 .f32) (l : Vec F S4x512x1 .f32) : Vec F S4x512x1024 .f32 :=
  k1_pay3 acc l

/-- The state (m, l, acc) of the recurrence. -/
abbrev St1 (F : FTy → Type) [FloatOps F] : Type := Vec F S4x512x1 .f32 × Vec F S4x512x1 .f32 × Vec F S4x512x1024 .f32

/-- The reset state: (-∞, 0, 0). -/
def st1Init : St1 F := (k1_pay4 (F := F), k1_pay5 (F := F), k1_pay6 (F := F))

/-- One step of the recurrence on the blocks q, k, v. -/
def st1Step (q : Vec F S4x512x1024 .bf16) (k v : Vec F S4x256x1024 .bf16) (s : St1 F) : St1 F :=
  (mNew q k s.1, lNew q k s.1 s.2.1, accNew q k v s.1 s.2.2)

/-- The state after the body at point `n`: one step on the point's blocks, from the reset state when the
    point opens a query block (n ≡ 0 mod 8), else from what the point before left. -/
def stAt1 (c : Dev nD) : (n : ℕ) → n < cfg1.N → St1 F
  | 0, hn => st1Step (iblk1 V c 0 ⟨0, hn⟩) (iblk1 V c 1 ⟨0, hn⟩) (iblk1 V c 2 ⟨0, hn⟩) st1Init
  | n + 1, hn =>
    st1Step (iblk1 V c 0 ⟨n + 1, hn⟩) (iblk1 V c 1 ⟨n + 1, hn⟩) (iblk1 V c 2 ⟨n + 1, hn⟩)
      (if (n + 1) % 8 = 0 then st1Init else stAt1 c n (Nat.lt_of_succ_lt hn))

/-- The three scratch buffers as whole memrefs. -/
abbrev scM : Memref sig .tc .vmem S4x512x1 .f32 := Memref.whole cc1_scratch0
abbrev scL : Memref sig .tc .vmem S4x512x1 .f32 := Memref.whole cc1_scratch1
abbrev scA : Memref sig .tc .vmem S4x512x1024 .f32 := Memref.whole cc1_scratch2

/-- The scoped buffers region 1 neither stages nor names: region 0's staging buffers, each whole at some contents. -/
def otherStg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region invariant before position `n`: before the first point the scoped rest at anything and the
    generator register; afterwards the three scratch buffers at the state the point before left, the other
    scoped buffers at anything, and the generator register. -/
def PhiS1 (c : Dev nD) : (n : ℕ) → n ≤ cfg1.N → sProp 𝕄
  | 0, _ => Pipeline.ΦA spec1 c
  | n + 1, hn => iprop(owns (c : Thread nD τ) scM fullShare (stAt1 V c n hn).1
      ∗ owns (c : Thread nD τ) scL fullShare (stAt1 V c n hn).2.1
      ∗ owns (c : Thread nD τ) scA fullShare (stAt1 V c n hn).2.2
      ∗ otherStg c ∗ (∃ r, prngReg c r))

/-- The shares of the one array the three input windows read: a half, a quarter, a quarter. -/
abbrev qA : PosShare TreeShare := fullShare.left
abbrev qB : PosShare TreeShare := fullShare.right.left
abbrev qC : PosShare TreeShare := fullShare.right.right

/-- The proof data of region 1: each input's staging buffer keeps its block; the output's holds, at a
    point that closes a query block, numerator over denominator of the state there. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outFin (stAt1 V c t.val t.isLt).2.2 (stAt1 V c t.val t.isLt).2.1
  Φ t := PhiS1 V c t.val (Nat.le_of_lt_succ t.isLt)
  q w := match w with
    | ⟨0, _⟩ => qA
    | ⟨1, _⟩ => qB
    | ⟨2, _⟩ => qC
    | ⟨3, _⟩ => fullShare
  owed _ := 0

end Cert.KernelIdeal.Hand

end
-- ==== Proof.KI.Vals.lean ====
/-
  The contents of every unscoped buffer at each boundary of @main: at launch, after the host operations
  before region 0 (a reshape of x, the concatenated and transposed weights, the concatenated bias), at
  region 0's exit (its output array at what the write-backs left), after the reshape between the regions, and
  at region 1's exit (the result array at what its write-backs left). No host operation writes an argument
  array, and no region's output is one.
-/
import proofs.«116713_j5162550690439_2_alg».proof.Proof.KI.Data
import proofs.«116713_j5162550690439_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => (s₀ m ρ).mem ((c : Dev nD), b)
/-- After the host operations before region 0. -/
abbrev W1 : Dev nD → Valuation τ sig (Elt F) := fun c => StableHlo.after hostOps0 (W0 m ρ c)
abbrev Vh1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vh1 m ρ) c).arrAt w cfg0.N
theorem W2_arr (c : Dev nD) (w : Fin cfg0.W) :
    W2 m ρ c (Proc.devRef .tc (Pipeline.arrRef spec0 w)) = (dat0 (Vh1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vh2 : (c : Dev nD) → (b : Ref sig .tc) → Buf (Elt F) ((c : Thread nD τ).loc b) := fun c b => W2 m ρ c b
theorem hF0 (c : Dev nD) (w : Fin cfg0.W) : (dat0 (Vh1 m ρ) c).arrAt w cfg0.N = Vh2 m ρ c (Pipeline.arrRef spec0 w) :=
  (W2_arr m ρ c w).symm
theorem hrest0 (c : Dev nD) : ∀ b, b ∉ Finset.univ.image (Pipeline.arrRef spec0) → Vh2 m ρ c b = Vh1 m ρ c b :=
  fun b hb => W2_of_ne m ρ c b fun w e => hb (Finset.mem_image.mpr ⟨w, Finset.mem_univ _, e⟩)
/-- After the reshape between the regions. -/
abbrev W3 : Dev nD → Valuation τ sig (Elt F) := fun c => StableHlo.after hostOps1 (W2 m ρ c)
abbrev Vh3 : (c : Dev nD) → (b : Ref sig .tc) → Buf (Elt F) ((c : Thread nD τ).loc b) := fun c b => W3 m ρ c b
/-- At region 1's exit: the result array at what the pipeline leaves, every other buffer as entered. -/
def W4 (c : Dev nD) : Valuation τ sig (Elt F) :=
  Function.update (W3 m ρ c) (Proc.devRef .tc main_v8) ((dat1 (Vh3 m ρ) c).arrAt 3 cfg1.N)
abbrev Vh4 : (c : Dev nD) → (b : Ref sig .tc) → Buf (Elt F) ((c : Thread nD τ).loc b) := fun c b => W4 m ρ c b
theorem W4_out (c : Dev nD) : W4 m ρ c (Proc.devRef .tc main_v8) = (dat1 (Vh3 m ρ) c).arrAt 3 cfg1.N := by
  unfold W4; exact Function.update_self ..
theorem W4_of_ne (c : Dev nD) (b : Ref sig .tc) (hb : b ≠ main_v8) :
    W4 m ρ c (Proc.devRef .tc b) = W3 m ρ c (Proc.devRef .tc b) := by
  unfold W4; exact Function.update_of_ne (StableHlo.devRef_ne_of_ne hb) ..

/-- No host operation writes an argument array or the result array. -/
theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
/-- An argument array ends as launched: no host operation writes it and no region's array is one. -/
theorem W4_arg (c : Dev nD) (r : Ref sig .tc) (h0 : r ∉ hostOps0_W) (h1 : r ∉ hostOps1_W) (h8 : r ≠ main_v8)
    (hw : ∀ w, Pipeline.arrRef spec0 w ≠ r) : W4 m ρ c r = m ((c : Thread nD τ).loc r) :=
  (W4_of_ne m ρ c r h8).trans <| (W3_of m ρ c r h1).trans <| (W2_of_ne m ρ c r hw).trans <| (W1_of m ρ c r h0).trans rfl

end Cert.KernelIdeal.Hand

end
-- ==== Proof.KI.Body0.lean ====
/-
  Region 0 (the fused projection): the body's triple and the library's body obligation, for any float instance.

  The body loads its three input staging buffers whole, loads the output's whole (the value is not used), and
  stores once, whole, the projection of what it loaded. Each access goes through the unit rectangle at zero offsets
  of the buffer's own sizes, through which a load reads the contents and the one covering store leaves its payload:
  so after the body the output's buffer holds the payload of the three input blocks.
-/
import proofs.«116713_j5162550690439_2_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data projected -/

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## What each input's staging buffer holds when the body is called

An input window's current staging buffer holds its block at every point, fetched there or not: the rows of x are
fetched at every point; the weight and the bias are fetched once, at the first point, and their block index never
moves, so the block the first point brought in is the block of every later point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's triple -/

/-- The zero offsets of a rank-2 access, however spelt. -/
theorem hz0 : (![0, 0] : Fin 2 → Nat) = fun _ => 0 := funext fun a => by fin_cases a <;> rfl

/-- The one store of the body is through the whole-buffer rectangle, which holds every index of the buffer. -/
theorem cover0_3 (p0 : Vec F S1024x3072 .bf16) (y : S1024x3072.Idx) :
    ∃ pc ∈ ([⟨Rect.unit (s := S1024x3072) ![0, 0] S1024x3072.size inb_S1024x3072_S1024x3072_0_0, p0⟩] :
      List (View.Piece (Elt F) S1024x3072 .bf16)), y ∈ pc.1.set := by
  refine ⟨_, List.mem_singleton_self _, ?_⟩
  exact View.mem_set_unit_zero (S := S1024x3072) hz0 inb_S1024x3072_S1024x3072_0_0 y

set_option maxHeartbeats 1000000 in
/-- The kernel body on whole staging memrefs, the inputs' at read contents x0, x1, x2 and the output's at anything,
    runs to the continuation holding the inputs' as they were and the output's at the projection of the three:
    the one store covers the buffer, and each load through the whole-buffer rectangle reads the contents. -/
theorem sound_kernel0 (c : Dev nD) (E : Set ℕ) (i : grid0.Coords)
    (arg1 : Memref sig .tc .vmem S1024x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S1024x3072 .bf16) (harg4 : arg4.IsWhole)
    (x0 : Vec F S1024x1024 .f32) (x1 : Vec F S1024x3072 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0_qkv_kernel i arg1 harg1 arg2 harg2 arg3 harg3 arg4 harg4) K := by
  simp only [cc0_qkv_kernel_eq_skeleton]; unfold cc0_qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have e0 : View.readAt (Elt F) arg1.view (Rect.unit ![0, 0] S1024x1024.size inb_S1024x1024_S1024x1024_0_0).toLoadRect f0
      = View.read (Elt F) arg1.view f0 := View.ld_unit_zero (S := S1024x1024) hz0 _ _
  have e1 : View.readAt (Elt F) arg2.view (Rect.unit ![0, 0] S1024x3072.size inb_S1024x3072_S1024x3072_0_0).toLoadRect f1
      = View.read (Elt F) arg2.view f1 := View.ld_unit_zero (S := S1024x3072) hz0 _ _
  have e2 : View.readAt (Elt F) arg3.view (Rect.unit ![0, 0] S1x3072.size inb_S1x3072_S1x3072_0_0).toLoadRect f2
      = View.read (Elt F) arg3.view f2 := View.ld_unit_zero (S := S1x3072) hz0 _ _
  rw [e0, e1, e2]
  refine (View.read_writes_eq_canon _ _ _ (cover0_3 _)).trans ?_
  exact View.canon_unit_zero (S := S1024x3072) hz0 _ _

/-! ## The body obligation, at a generic point -/

/-- What the body is called with at point t: the invariant, what the core owes, and each window's current staging
    buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Run1Base.lean ====
/-
  What the runs of the online-softmax body share: the two branch conditions of the body in closed form over
  the 4 × 8 grid (the reset at kj = 0, the output at kj = 7), where the output window is idle, and the one fact
  about memory the runs need — every store of this body covers its whole buffer, so a buffer reads back as
  the payload of the last store into it.
-/
import proofs.«116713_j5162550690439_2_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer rectangle of rank 3, as a constant function. -/
theorem hz3 : (![0, 0, 0] : Fin 3 → Nat) = fun _ => 0 := funext fun a => by fin_cases a <;> rfl

/-- A whole-buffer store, made last, into a whole buffer leaves its payload, whatever the buffer held and
    whatever was stored before. -/
theorem read_storeL {S : Shape} {e : EltTy} (M : Memref sig .tc .vmem S e) (f : M.view.ty.Contents (Elt F))
    {off : Fin S.rank → Nat} (h : off = fun _ => 0) (inb : ∀ a, off a + S.size a ≤ S.size a) (w : S.Idx → Elt F e)
    (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-! ## The body's branch conditions -/

/-- The condition of the reset branch, as the body computes it from the grid coordinates: kj = 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the output branch: kj = 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off kj = 7 the output window is idle (the body stores nothing into it) and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At kj = 7 it is live. -/
theorem liveAt1_3 : ∀ t : Fin cfg1.N, cond1_1 (grid1.coords t) → cfg1.idle 3 (grid1.coords t) = false := by decide +kernel

end Cert.KernelIdeal.Hand

end
-- ==== Proof.KI.Run1A.lean ====
/-
  The online-softmax body at a point that opens a query block (kj = 0): the reset, then one step.
-/
import proofs.«116713_j5162550690439_2_alg».proof.Proof.KI.Run1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point with kj = 0, on whole buffers: the inputs at q, k, v, the output's buffer at anything it
    held (o), the scratch at ANY contents. It resets the scratch to (-∞, 0, 0) and then makes one step of the
    recurrence from there; the inputs and the output's buffer are as they were. -/
theorem run1_A (c : Dev nD) (i : grid1.Coords) (arg2 : Memref sig .tc .vmem S4x512x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x512x1024 .f32) (harg5 : arg5.IsWhole) (arg6 : Memref sig .tc .vmem S4x512x1 .f32) (harg6 : arg6.IsWhole) (arg7 : Memref sig .tc .vmem S4x512x1 .f32) (harg7 : arg7.IsWhole) (arg8 : Memref sig .tc .vmem S4x512x1024 .f32) (harg8 : arg8.IsWhole)
    (hc0 : cond1_0 i) (hc1 : ¬cond1_1 i)
    (q : Vec F S4x512x1024 .bf16) (k v : Vec F S4x256x1024 .bf16) (o : Vec F S4x512x1024 .f32)
    (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare o
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v ∗ owns (c : Thread nD τ) arg5 fullShare o
            ∗ owns (c : Thread nD τ) arg6 fullShare (mNew q k (k1_pay4 (F := F))) ∗ owns (c : Thread nD τ) arg7 fullShare (lNew q k (k1_pay4 (F := F)) (k1_pay5 (F := F))) ∗ owns (c : Thread nD τ) arg8 fullShare (accNew q k v (k1_pay4 (F := F)) (k1_pay6 (F := F)))) -∗ K ⟨⟩))
      ⊢ wp frame (wpE (defs₀ (F := F)) Variants.none c none) E (cc1_flash_attn_kernel i arg2 harg2 arg3 harg3 arg4 harg4 arg5 harg5 arg6 harg6 arg7 harg7 arg8 harg8) K := by
  simp only [cc1_flash_attn_kernel_eq_skeleton]; unfold cc1_flash_attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_storeL arg6 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  isplitl [H7]
  · iexists _; isplitr
    swap; · iexact H7
    ipureintro
    sl_unfold_run_names
    rw [read_storeL arg7 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  · iexists _; isplitr
    swap; · iexact H8
    ipureintro
    sl_unfold_run_names
    rw [read_storeL arg8 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl

end Cert.KernelIdeal.Hand

end
-- ==== Proof.KI.Run1B.lean ====
/-
  The online-softmax body at a point inside a query block (0 < kj < 7): one step of the recurrence.
-/
import proofs.«116713_j5162550690439_2_alg».proof.Proof.KI.Run1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point with 0 < kj < 7, on whole buffers: the inputs at q, k, v, the output's buffer at
    anything it held (o), the scratch at (m, l, acc). It runs to the continuation holding the inputs and
    the output's buffer as they were and the scratch at one step of the recurrence. -/
theorem run1_B (c : Dev nD) (i : grid1.Coords) (arg2 : Memref sig .tc .vmem S4x512x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x512x1024 .f32) (harg5 : arg5.IsWhole) (arg6 : Memref sig .tc .vmem S4x512x1 .f32) (harg6 : arg6.IsWhole) (arg7 : Memref sig .tc .vmem S4x512x1 .f32) (harg7 : arg7.IsWhole) (arg8 : Memref sig .tc .vmem S4x512x1024 .f32) (harg8 : arg8.IsWhole)
    (hc0 : ¬cond1_0 i) (hc1 : ¬cond1_1 i)
    (q : Vec F S4x512x1024 .bf16) (k v : Vec F S4x256x1024 .bf16) (o : Vec F S4x512x1024 .f32)
    (m l : Vec F S4x512x1 .f32) (acc : Vec F S4x512x1024 .f32)
    (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare o
        ∗ owns (c : Thread nD τ) arg6 fullShare m ∗ owns (c : Thread nD τ) arg7 fullShare l ∗ owns (c : Thread nD τ) arg8 fullShare acc
        ∗ (iprop(owns (c : Thread nD τ) arg2 fullShare q ∗ owns (c : Thread nD τ) arg3 fullShare k ∗ owns (c : Thread nD τ) arg4 fullShare v ∗ owns (c : Thread nD τ) arg5 fullShare o
            ∗ owns (c : Thread nD τ) arg6 fullShare (mNew q k m) ∗ owns (c : Thread nD τ) arg7 fullShare (lNew q k m l) ∗ owns (c : Thread nD τ) arg8 fullShare (accNew q k v m acc)) -∗ K ⟨⟩))
      ⊢ wp frame (wpE (defs₀ (F := F)) Variants.none c none) E (cc1_flash_attn_kernel i arg2 harg2 arg3 harg3 arg4 harg4 arg5 harg5 arg6 harg6 arg7 harg7 arg8 harg8) K := by
  simp only [cc1_flash_attn_kernel_eq_skeleton]; unfold cc1_flash_attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_storeL arg6 _ hz3]
    simp only [View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  isplitl [H7]
  · iexists _; isplitr
    swap; · iexact H7
    ipureintro
    sl_unfold_run_names
    rw [read_storeL arg7 _ hz3]
    simp only [View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  · iexists _; isplitr
    swap; · iexact H8
    ipureintro
    sl_unfold_run_names
    rw [read_storeL arg8 _ hz3]
    simp only [View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl

end Cert.KernelIdeal.Hand

end
-- ==== Proof.KI.Run1C.lean ====
/-
  The online-softmax body at a point that closes a query block (kj = 7): one step, then the output.
-/
import proofs.«116713_j5162550690439_2_alg».proof.Proof.KI.Run1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point with kj = 7, on whole buffers: the inputs at q, k, v, the scratch at (m, l, acc), the
    output's buffer at anything. It makes one step of the recurrence and then stores, into the output's buffer,
    the NEW numerator over the NEW denominator (the final loads come after the scratch stores). -/
theorem run1_C (c : Dev nD) (i : grid1.Coords) (arg2 : Memref sig .tc .vmem S4x512x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x512x1024 .f32) (harg5 : arg5.IsWhole) (arg6 : Memref sig .tc .vmem S4x512x1 .f32) (harg6 : arg6.IsWhole) (arg7 : Memref sig .tc .vmem S4x512x1 .f32) (harg7 : arg7.IsWhole) (arg8 : Memref sig .tc .vmem S4x512x1024 .f32) (harg8 : arg8.IsWhole)
    (hc0 : ¬cond1_0 i) (hc1 : cond1_1 i)
    (q : Vec F S4x512x1024 .bf16) (k v : Vec F S4x256x1024 .bf16) (m l : Vec F S4x512x1 .f32) (acc : Vec F S4x512x1024 .f32)
    (E : Set ℕ) (K : PUnit → sProp 𝕄) :
    iprop(owns (c : Thread nD τ) arg2 fullShare q ∗ owns (c : Thread nD τ) arg3 fullShare k ∗ owns (c : Thread nD τ) arg4 fullShare v ∗ (∃ d, owns (c : Thread nD τ) arg5 fullShare d)
        ∗ owns (c : Thread nD τ) arg6 fullShare m ∗ owns (c : Thread nD τ) arg7 fullShare l ∗ owns (c : Thread nD τ) arg8 fullShare acc
        ∗ (iprop(owns (c : Thread nD τ) arg2 fullShare q ∗ owns (c : Thread nD τ) arg3 fullShare k ∗ owns (c : Thread nD τ) arg4 fullShare v ∗ owns (c : Thread nD τ) arg5 fullShare (outFin (accNew q k v m acc) (lNew q k m l))
            ∗ owns (c : Thread nD τ) arg6 fullShare (mNew q k m) ∗ owns (c : Thread nD τ) arg7 fullShare (lNew q k m l) ∗ owns (c : Thread nD τ) arg8 fullShare (accNew q k v m acc)) -∗ K ⟨⟩))
      ⊢ wp frame (wpE (defs₀ (F := F)) Variants.none c none) E (cc1_flash_attn_kernel i arg2 harg2 arg3 harg3 arg4 harg4 arg5 harg5 arg6 harg6 arg7 harg7 arg8 harg8) K := by
  simp only [cc1_flash_attn_kernel_eq_skeleton]; unfold cc1_flash_attn_kernel_skel
  simp only [k1_part1_eq_skeleton]
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [read_storeL arg5 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  isplitl [H6]
  · iexists _; isplitr
    swap; · iexact H6
    ipureintro
    sl_unfold_run_names
    rw [read_storeL arg6 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  isplitl [H7]
  · iexists _; isplitr
    swap; · iexact H7
    ipureintro
    sl_unfold_run_names
    rw [read_storeL arg7 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl
  · iexists _; isplitr
    swap; · iexact H8
    ipureintro
    sl_unfold_run_names
    rw [read_storeL arg8 _ hz3]
    simp only [View.readCov_unit_zero (S := S4x512x1) _ hz3, View.readCov_unit_zero (S := S4x512x1024) _ hz3, View.readAt_eq_ld, harg2.read_unread, harg3.read_unread, harg4.read_unread, harg6.read_unread, harg7.read_unread, harg8.read_unread, View.ld_unit_zero (S := S4x512x1024) hz3, View.ld_unit_zero (S := S4x256x1024) hz3, View.ld_unit_zero (S := S4x512x1) hz3]
    rfl

end Cert.KernelIdeal.Hand

end
-- ==== Proof.KI.Body1.lean ====
/-
  Region 1, the online softmax: the body obligation of its proof data and the invariant's entry and exit.

  The grid is 4 × 8 with kj innermost, so point t has kj = t mod 8. At kj = 0 the body resets the three scratch
  buffers to (-∞, 0, 0) before its step, so the state after the point is one step from the reset state whatever
  the scratch held; at 0 < kj the step starts from what the point before left; at kj = 7 the body also stores
  the new numerator over the new denominator into the output's buffer. The output window is idle off kj = 7:
  its buffer is handed back as found. Each input's buffer holds its block at every point, fetched there or not.
-/
import proofs.«116713_j5162550690439_2_alg».proof.Proof.KI.Run1A
import proofs.«116713_j5162550690439_2_alg».proof.Proof.KI.Run1B
import proofs.«116713_j5162550690439_2_alg».proof.Proof.KI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The state after each point, case by case -/

/-- At a point that opens a query block the state is one step from the reset state. -/
theorem stAt1_A (c : Dev nD) (t : Fin cfg1.N) (h0 : t.val % 8 = 0) :
    stAt1 V c t.val t.isLt = st1Step (iblk1 V c 0 t) (iblk1 V c 1 t) (iblk1 V c 2 t) st1Init := by
  obtain ⟨n, hn⟩ := t
  cases n with
  | zero => rfl
  | succ n =>
    have h0' : (n + 1) % 8 = 0 := h0
    have e : stAt1 V c (n + 1) hn = st1Step (iblk1 V c 0 ⟨n + 1, hn⟩) (iblk1 V c 1 ⟨n + 1, hn⟩) (iblk1 V c 2 ⟨n + 1, hn⟩) st1Init := by
      rw [stAt1, if_pos h0']
    exact e

/-- At any other point it is one step from the state the point before left. -/
theorem stAt1_B (c : Dev nD) (t : Fin cfg1.N) (h0 : ¬t.val % 8 = 0) :
    stAt1 V c t.val t.isLt = st1Step (iblk1 V c 0 t) (iblk1 V c 1 t) (iblk1 V c 2 t) (stAt1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 8 = 0 := h0
    have e : stAt1 V c (n + 1) hn = st1Step (iblk1 V c 0 ⟨n + 1, hn⟩) (iblk1 V c 1 ⟨n + 1, hn⟩) (iblk1 V c 2 ⟨n + 1, hn⟩) (stAt1 V c n (Nat.lt_of_succ_lt hn)) := by
      rw [stAt1, if_neg h0']
    exact e

/-- The same, component by component (m, l, acc). -/
theorem stAt1_A_m (c : Dev nD) (t : Fin cfg1.N) (h0 : t.val % 8 = 0) :
    (stAt1 V c t.val t.isLt).1 = mNew (iblk1 V c 0 t) (iblk1 V c 1 t) (k1_pay4 (F := F)) := congrArg (fun s : St1 F => s.1) (stAt1_A V c t h0)
theorem stAt1_A_l (c : Dev nD) (t : Fin cfg1.N) (h0 : t.val % 8 = 0) :
    (stAt1 V c t.val t.isLt).2.1 = lNew (iblk1 V c 0 t) (iblk1 V c 1 t) (k1_pay4 (F := F)) (k1_pay5 (F := F)) := congrArg (fun s : St1 F => s.2.1) (stAt1_A V c t h0)
theorem stAt1_A_acc (c : Dev nD) (t : Fin cfg1.N) (h0 : t.val % 8 = 0) :
    (stAt1 V c t.val t.isLt).2.2 = accNew (iblk1 V c 0 t) (iblk1 V c 1 t) (iblk1 V c 2 t) (k1_pay4 (F := F)) (k1_pay6 (F := F)) := congrArg (fun s : St1 F => s.2.2) (stAt1_A V c t h0)
theorem stAt1_B_m (c : Dev nD) (t : Fin cfg1.N) (h0 : ¬t.val % 8 = 0) :
    (stAt1 V c t.val t.isLt).1 = mNew (iblk1 V c 0 t) (iblk1 V c 1 t) (stAt1 V c (t.val - 1) (Nat.lt_of_le_of_lt (Nat.sub_le _ _) t.isLt)).1 := congrArg (fun s : St1 F => s.1) (stAt1_B V c t h0)
theorem stAt1_B_l (c : Dev nD) (t : Fin cfg1.N) (h0 : ¬t.val % 8 = 0) :
    (stAt1 V c t.val t.isLt).2.1 = lNew (iblk1 V c 0 t) (iblk1 V c 1 t) (stAt1 V c (t.val - 1) (Nat.lt_of_le_of_lt (Nat.sub_le _ _) t.isLt)).1 (stAt1 V c (t.val - 1) (Nat.lt_of_le_of_lt (Nat.sub_le _ _) t.isLt)).2.1 := congrArg (fun s : St1 F => s.2.1) (stAt1_B V c t h0)
theorem stAt1_B_acc (c : Dev nD) (t : Fin cfg1.N) (h0 : ¬t.val % 8 = 0) :
    (stAt1 V c t.val t.isLt).2.2 = accNew (iblk1 V c 0 t) (iblk1 V c 1 t) (iblk1 V c 2 t) (stAt1 V c (t.val - 1) (Nat.lt_of_le_of_lt (Nat.sub_le _ _) t.isLt)).1 (stAt1 V c (t.val - 1) (Nat.lt_of_le_of_lt (Nat.sub_le _ _) t.isLt)).2.2 := congrArg (fun s : St1 F => s.2.2) (stAt1_B V c t h0)

/-! ## The invariant, position by position -/

theorem PhiS1_zero (c : Dev nD) (n : ℕ) (h : n ≤ cfg1.N) (hz : n = 0) : PhiS1 V c n h = Pipeline.ΦA spec1 c := by
  subst hz; rfl

/-- After point `n`: the scratch at that point's state. -/
theorem PhiS1_succ (c : Dev nD) (n : ℕ) (hn : n < cfg1.N) :
    PhiS1 V c (n + 1) hn = iprop(owns (c : Thread nD τ) scM fullShare (stAt1 V c n hn).1
      ∗ owns (c : Thread nD τ) scL fullShare (stAt1 V c n hn).2.1
      ∗ owns (c : Thread nD τ) scA fullShare (stAt1 V c n hn).2.2
      ∗ otherStg c ∗ (∃ r, prngReg c r)) := rfl

/-- Before a point that is not the first: the scratch at the state the point before left. -/
theorem PhiS1_pos (c : Dev nD) (n : ℕ) (h : n ≤ cfg1.N) (hz : n ≠ 0) :
    PhiS1 V c n h = iprop(owns (c : Thread nD τ) scM fullShare (stAt1 V c (n - 1) (by omega)).1
      ∗ owns (c : Thread nD τ) scL fullShare (stAt1 V c (n - 1) (by omega)).2.1
      ∗ owns (c : Thread nD τ) scA fullShare (stAt1 V c (n - 1) (by omega)).2.2
      ∗ otherStg c ∗ (∃ r, prngReg c r)) := by
  cases n with
  | zero => exact absurd rfl hz
  | succ n => rfl

/-- What the region is entered with, the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-! ## The proof data, field by field -/

/-- The proof data's arrays are the contents the region is entered with. -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outFin (stAt1 V c t.val t.isLt).2.2 (stAt1 V c t.val t.isLt).2.1 := by dsimp only [dat1]

/-- Each input's current staging buffer holds its block at every point, fetched there or not: unfetched, the
    block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body obligation, at a generic point -/

/-- Each window's current staging memref at point `t`, as the pipeline passes it to the body, and its wholeness. -/
abbrev ms1_0 (t : Fin cfg1.N) : Memref sig .tc .vmem S4x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x512x1024 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's kj says which of the three runs
    applies; the invariant hands the body the scratch at the state the point before left (at anything at the
    first point) and takes it back at this point's state; off kj = 7 the output's buffer goes back as found, at
    kj = 7 it holds the new numerator over the new denominator; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 3 t (idleAt1_3 t hc1) (noFlush1_3 t hc1)]
      rw [stAt1_A_m V c t h0, stAt1_A_l V c t h0, stAt1_A_acc V c t h0]
      by_cases hz : t.val = 0
      · rw [PhiS1_castSucc V c t, PhiS1_zero V c _ _ hz, PhiA1_eq]
        iintro ⟨⟨⟨A1, A2, A3, A4, A5, A6, S0, S1, S2⟩, Hg⟩, Ho, ⟨%d0, H0⟩, ⟨%d1, H1⟩, ⟨%d2, H2⟩, ⟨%d3, H3⟩⟩
        iapply (run1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [S0]; · iexact S0
        isplitl [S1]; · iexact S1
        isplitl [S2]; · iexact S2
        iintro ⟨H0, H1, H2, H3, HM, HL, HA⟩
        isplitl [HM HL HA A1 A2 A3 A4 A5 A6 Hg]
        · isplitl [HM]; · iexact HM
          isplitl [HL]; · iexact HL
          isplitl [HA]; · iexact HA
          isplitl [A1 A2 A3 A4 A5 A6]
          · unfold otherStg
            isplitl [A1]; · iexact A1
            isplitl [A2]; · iexact A2
            isplitl [A3]; · iexact A3
            isplitl [A4]; · iexact A4
            isplitl [A5]; · iexact A5
            iexact A6
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HM, HL, HA, Hst, Hg⟩, Ho, ⟨%d0, H0⟩, ⟨%d1, H1⟩, ⟨%d2, H2⟩, ⟨%d3, H3⟩⟩
        iapply (run1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HM]; · iexists _; iexact HM
        isplitl [HL]; · iexists _; iexact HL
        isplitl [HA]; · iexists _; iexact HA
        iintro ⟨H0, H1, H2, H3, HM, HL, HA⟩
        isplitl [HM HL HA Hst Hg]
        · isplitl [HM]; · iexact HM
          isplitl [HL]; · iexact HL
          isplitl [HA]; · iexact HA
          isplitl [Hst]; · iexact Hst
          iexact Hg
        isplitl [Ho]; · iexact Ho
        isplitl [H0]; · iexact H0
        isplitl [H1]; · iexact H1
        isplitl [H2]; · iexact H2
        iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [stAt1_B_m V c t h0, stAt1_B_l V c t h0, stAt1_B_acc V c t h0]
      rw [PhiS1_castSucc V c t, PhiS1_pos V c _ _ hz]
      iintro ⟨⟨HM, HL, HA, Hst, Hg⟩, Ho, ⟨%d0, H0⟩, ⟨%d1, H1⟩, ⟨%d2, H2⟩, ⟨%d3, H3⟩⟩
      iapply (run1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (iblk1 V c 0 t) (iblk1 V c 1 t) (iblk1 V c 2 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, H3, HM, HL, HA⟩
      isplitl [HM HL HA Hst Hg]
      · isplitl [HM]; · iexact HM
        isplitl [HL]; · iexact HL
        isplitl [HA]; · iexact HA
        isplitl [Hst]; · iexact Hst
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [stAt1_B_m V c t h0, stAt1_B_l V c t h0, stAt1_B_acc V c t h0]
      rw [PhiS1_castSucc V c t, PhiS1_pos V c _ _ hz]
      iintro ⟨⟨HM, HL, HA, Hst, Hg⟩, Ho, ⟨%d0, H0⟩, ⟨%d1, H1⟩, ⟨%d2, H2⟩, ⟨%d3, H3⟩⟩
      iapply (run1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) hc0 hc1 (iblk1 V c 0 t) (iblk1 V c 1 t) (iblk1 V c 2 t) ((dat1 V c).before 3 t d3) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, HM, HL, HA⟩
      isplitl [HM HL HA Hst Hg]
      · isplitl [HM]; · iexact HM
        isplitl [HL]; · iexact HL
        isplitl [HA]; · iexact HA
        isplitl [Hst]; · iexact Hst
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's entry and exit -/

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After any point but the first the invariant gives back what the region was entered with: the scratch's
    named contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  unfold otherStg
  iintro ⟨HM, HL, HA, ⟨A1, A2, A3, A4, A5, A6⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [HM]; · iexists _; iexact HM
    isplitl [HL]; · iexists _; iexact HL
    iexists _; iexact HA
  iexact Hg

/-- The same after the last point. -/
theorem hout1 (c : Dev nD) : (dat1 (F := F) V c).Φ (Fin.last cfg1.N) ⊢ Pipeline.ΦA spec1 c :=
  Phi_out1 V c _ (by rw [Fin.val_last]; have : cfg1.N = 32 := N_1; omega)

end Cert.KernelIdeal.Hand

end
-- ==== Proof.KI.Run.lean ====
/-
  The run of @main: two host stretches and two kernel regions in order. Each region is entered with every
  unscoped buffer at the boundary's contents and left with its output array at what its write-backs leave.
  Region 1's three input windows read ONE array, which the core holds once and lends the pipeline as three
  shares. The run's post names the result array's final contents and says every argument array is unchanged.
-/
import proofs.«116713_j5162550690439_2_alg».proof.Proof.KI.Vals
import proofs.«116713_j5162550690439_2_alg».proof.Proof.KI.Body0
import proofs.«116713_j5162550690439_2_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (Vh1 m ρ) c
  | ⟨1, _⟩ => fun c => dat1 (Vh3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W1`, left at `W2`. Its arrays are split
    out of the unscoped buffers and put back at their exit contents; the generator register passes through the
    invariant; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vh1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vh1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vh1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vh1 m ρ c) (Vh2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1: three input windows read one array

The q, k and v windows all index the fused projection array; the core holds that array once, at the full
share, and hands the pipeline three shares of it (a half, a quarter, a quarter), taking them back at the end. -/

/-- Region 1's arrays, window by window: the projection array at the three shares, the result array whole. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v7) ↦{qA} Fa 0) ∗ (((c : Thread nD τ).loc main_v7) ↦{qB} Fa 1)
          ∗ (((c : Thread nD τ).loc main_v7) ↦{qC} Fa 2) ∗ (((c : Thread nD τ).loc main_v8) ↦{fullShare} Fa 3)) := by
  unfold Dat.arrays
  rw [bigSep_W1, (arr_whole1 0).set_eq_univ, (arr_whole1 3).set_eq_univ]
  rfl

/-- The two buffers behind region 1's arrays. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v7) ↦{fullShare} Vc main_v7) ∗ (((c : Thread nD τ).loc main_v8) ↦{fullShare} Vc main_v8)) := by
  unfold Pipeline.arrBufs
  exact bigSep_eq_bigSepL_of_eq [main_v7, main_v8] (by decide) (by decide) _

/-- A whole buffer at the full share splits into a half and two quarters of it, -/
theorem three_split (c : Dev nD) (f : Buf (Elt F) ((c : Thread nD τ).loc main_v7)) :
    ((((c : Thread nD τ).loc main_v7) ↦{fullShare} f) : sProp 𝕄)
      ⊢ iprop((((c : Thread nD τ).loc main_v7) ↦{qA} f) ∗ (((c : Thread nD τ).loc main_v7) ↦{qB} f) ∗ (((c : Thread nD τ).loc main_v7) ↦{qC} f)) := by
  iintro H
  ihave H' := (pointsTo_share (PosShare.mem_left_op_right fullShare)).1 $$ H
  icases H' with ⟨Ha, Hr⟩
  ihave Hr' := (pointsTo_share (PosShare.mem_left_op_right fullShare.right)).1 $$ Hr
  icases Hr' with ⟨Hb, Hc⟩
  isplitl [Ha]; · iexact Ha
  isplitl [Hb]; · iexact Hb
  iexact Hc

/-- and they join back. -/
theorem three_join (c : Dev nD) (f : Buf (Elt F) ((c : Thread nD τ).loc main_v7)) :
    iprop((((c : Thread nD τ).loc main_v7) ↦{qA} f) ∗ (((c : Thread nD τ).loc main_v7) ↦{qB} f) ∗ (((c : Thread nD τ).loc main_v7) ↦{qC} f))
      ⊢ ((((c : Thread nD τ).loc main_v7) ↦{fullShare} f) : sProp 𝕄) := by
  iintro ⟨Ha, Hb, Hc⟩
  iapply (pointsTo_share (PosShare.mem_left_op_right fullShare)).2
  isplitl [Ha]; · iexact Ha
  iapply (pointsTo_share (PosShare.mem_left_op_right fullShare.right)).2
  isplitl [Hb]; · iexact Hb
  iexact Hc

theorem unsc1 : ∀ w : Fin cfg1.W, (Pipeline.arrRef spec1 w).isScoped = false := by decide

/-- ENTRY: every unscoped buffer at region 1's entry contents is its arrays at their entry contents — the
    projection array split in three — and the unscoped rest. -/
theorem hsplit1 (c : Dev nD) :
    (StableHlo.held (c : Thread nD τ) (Pipeline.ucRefs τ sig) (W3 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (Vh3 m ρ c)) := by
  show _ ⊢ iprop((dat1 (Vh3 m ρ) c).arrays ((dat1 (Vh3 m ρ) c).arrAt · 0) ∗ _)
  rw [← Pipeline.unscopedBufs_held c (W3 m ρ c), Pipeline.unscopedBufs_split₀ cfgs 1 unsc1 c (Vh3 m ρ c)]
  show iprop(Pipeline.arrBufs spec1 c (Vh3 m ρ c) ∗ Pipeline.unscopedRest spec1 c (Vh3 m ρ c)) ⊢ _
  rw [arrBufs1_eq, arrays1_eq]
  refine sep_mono ?_ .rfl
  refine (sep_mono (three_split c _) .rfl).trans ?_
  iintro ⟨⟨Ha, Hb, Hc⟩, H8⟩
  isplitl [Ha]; · iexact Ha
  isplitl [Hb]; · iexact Hb
  isplitl [Hc]; · iexact Hc
  iexact H8

/-- EXIT: the arrays at their final contents — the projection array's three shares joined, the result array at
    what the write-backs left — and the unscoped rest are every unscoped buffer at the exit contents. -/
theorem hjoin1 (c : Dev nD) :
    iprop((pdats m ρ 1 c).arrays ((pdats m ρ 1 c).arrAt · cfg1.N)
        ∗ Pipeline.unscopedRest (Ix := Unit) (Name := ℕ) (U := UR sig nD τ) (Lvl := ℕ) spec1 c (Vh3 m ρ c))
      ⊢ (StableHlo.held (c : Thread nD τ) (Pipeline.ucRefs τ sig) (W4 m ρ c) : sProp 𝕄) := by
  show iprop((dat1 (Vh3 m ρ) c).arrays ((dat1 (Vh3 m ρ) c).arrAt · cfg1.N) ∗ _) ⊢ _
  rw [← Pipeline.unscopedBufs_held c (W4 m ρ c), Pipeline.unscopedBufs_split₀ cfgs 1 unsc1 c (Vh4 m ρ c)]
  show _ ⊢ iprop(Pipeline.arrBufs spec1 c (Vh4 m ρ c) ∗ Pipeline.unscopedRest spec1 c (Vh4 m ρ c))
  rw [arrBufs1_eq, arrays1_eq,
    (dat1 (Vh3 m ρ) c).arrAt_in 0 rfl, (dat1 (Vh3 m ρ) c).arrAt_in 1 rfl, (dat1 (Vh3 m ρ) c).arrAt_in 2 rfl]
  have e7 : Vh4 m ρ c main_v7 = Vh3 m ρ c main_v7 := W4_of_ne m ρ c main_v7 (by decide)
  have e8 : Vh4 m ρ c main_v8 = (dat1 (Vh3 m ρ) c).arrAt 3 cfg1.N := W4_out m ρ c
  have eR : (Pipeline.unscopedRest (Ix := Unit) (Name := ℕ) (U := UR sig nD τ) (Lvl := ℕ) spec1 c (Vh4 m ρ c) : sProp 𝕄)
      = Pipeline.unscopedRest spec1 c (Vh3 m ρ c) := by
    unfold Pipeline.unscopedRest
    exact bigSep_congr fun b hb => by
      rw [show Vh4 m ρ c b = Vh3 m ρ c b from W4_of_ne m ρ c b fun e =>
        (Finset.mem_sdiff.mp hb).2 (Finset.mem_image.mpr ⟨3, Finset.mem_univ _, e.symm⟩)]
  rw [eR, e7, e8]
  refine sep_mono ?_ .rfl
  iintro ⟨Ha, Hb, Hc, H8⟩
  isplitr [H8]
  · iapply (three_join c _)
    isplitl [Ha]; · iexact Ha
    isplitl [Hb]; · iexact Hb
    iexact Hc
  iexact H8

set_option backward.isDefEq.respectTransparency.types false in
/-- Region 1 over the thread state: entered with every unscoped buffer at `W3`, left at `W4`. The generator
    register and the scoped rest enter the invariant (which carries the three scratch buffers from point to point)
    and come back; nothing is owed; the kernel has no semaphore of its own. -/
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vh3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vh3 m ρ c)
  hentry c := by
    rw [Pipeline.ownSems0_none]
    iintro ⟨⟨Hub, Hp, HO⟩, -, -⟩
    ihave H := (hsplit1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vh3 m ρ) c)
    unfold Pipeline.ΦA
    iintro ⟨Hp, -, Hr⟩
    isplitl [Hr]; · iexact Hr
    iexact Hp
  hout c := by
    rw [Pipeline.ownSems0_none]
    refine (hout1 (Vh3 m ρ) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (hjoin1 m ρ c); isplitl [Ha] <;> iassumption
      iexact HY
    unfold Pipeline.Dat.owesAt Pipeline.owesWithin
    icases HO with ⟨%W, -, HO⟩; iexists W; iexact HO

/-! ## @main as segments, and the run -/

abbrev segsH : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segsH m ρ) := (main_chain c).trans (by chain_rfl)

set_option backward.isDefEq.respectTransparency.types false in
/-- THE RUN. From any memory with zero counters every weakly fair execution of @main terminates, nothing
    faulting, and in every final state the result array holds what region 1's write-backs left
    (`Dat.arrAt` of window 3 after the last point, over the array region 1 was entered with) and every
    argument array holds its launch contents. -/
theorem run : θ_run defs (onTc (τ := τ) (main (F := F))) ⟨m, fun _ => 0, ρ⟩ (fun r => ∀ c : Dev nD,
      r.2.mem ((c.tc : Thread nD τ).loc main_v8) = (dat1 (Vh3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v8 (by decide))).trans (W4_out m ρ c),
       (h c _ (mem_uc main_arg0 (by decide))).trans (W4_arg m ρ c main_arg0 (by decide) (by decide) (by decide) (by decide)),
       (h c _ (mem_uc main_arg1 (by decide))).trans (W4_arg m ρ c main_arg1 (by decide) (by decide) (by decide) (by decide)),
       (h c _ (mem_uc main_arg2 (by decide))).trans (W4_arg m ρ c main_arg2 (by decide) (by decide) (by decide) (by decide)),
       (h c _ (mem_uc main_arg3 (by decide))).trans (W4_arg m ρ c main_arg3 (by decide) (by decide) (by decide) (by decide)),
       (h c _ (mem_uc main_arg4 (by decide))).trans (W4_arg m ρ c main_arg4 (by decide) (by decide) (by decide) (by decide)),
       (h c _ (mem_uc main_arg5 (by decide))).trans (W4_arg m ρ c main_arg5 (by decide) (by decide) (by decide) (by decide)),
       (h c _ (mem_uc main_arg6 (by decide))).trans (W4_arg m ρ c main_arg6 (by decide) (by decide) (by decide) (by decide))⟩)

end Cert.KernelIdeal.Hand

end
-- ==== Proof.Finite.lean ====
/-
  Under the precondition every entry of every argument array is a real number.

  The precondition is the conjunction, over the seven argument arrays, of "every entry's absolute value is
  below +∞". On the extended reals |x| = max x (-x), and max x (-x) < ⊤ excludes both infinities.
-/
import proofs.«116713_j5162550690439_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- The pattern of +∞ denotes ⊤. -/
theorem ofBits_inf : Ideal.ofBits .f32 0x7F800000#32 = (⊤ : EReal) := by
  simp [Ideal.ofBits, Ideal.ieee]

/-- An extended real whose absolute value is below +∞ is a real number. -/
theorem elt_real (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hc
    simp only [Ideal.cmp, hc, decide_false, BitVec.ofBool_false] at h
    exact absurd h (by decide)
  induction x using EReal.rec with
  | bot => simp at hlt
  | coe r => exact ⟨r, rfl⟩
  | top => simp at hlt

/-- A conjunction of two one-bit words that is 1 has both 1. -/
theorem both (x y : IVec S_ 1) (e : andi x y ValueIdx.ix0 = 1#1) : x ValueIdx.ix0 = 1#1 ∧ y ValueIdx.ix0 = 1#1 :=
  IntOp.andi_eq_one.1 e

/-- The precondition, read entry by entry. -/
theorem real_of_pre [Cert.Pre_finite_inputs.Facts] (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [fn, fn_part1] at h0
  obtain ⟨h5, e6⟩ := both _ _ h0
  obtain ⟨h4, e5⟩ := both _ _ h5
  obtain ⟨h3, e4⟩ := both _ _ h4
  obtain ⟨h2, e3⟩ := both _ _ h3
  obtain ⟨h1, e2⟩ := both _ _ h2
  obtain ⟨e0, e1⟩ := both _ _ h1
  exact ⟨fun i => elt_real _ (Host.reduce_andi_all _ _ _ _ _ e0 i), fun i => elt_real _ (Host.reduce_andi_all _ _ _ _ _ e1 i),
    fun i => elt_real _ (Host.reduce_andi_all _ _ _ _ _ e2 i), fun i => elt_real _ (Host.reduce_andi_all _ _ _ _ _ e3 i),
    fun i => elt_real _ (Host.reduce_andi_all _ _ _ _ _ e4 i), fun i => elt_real _ (Host.reduce_andi_all _ _ _ _ _ e5 i),
    fun i => elt_real _ (Host.reduce_andi_all _ _ _ _ _ e6 i)⟩

end Cert.Finite

end
-- ==== Proof.Spec.lean ====
/-
  The two ways the programs compute attention, as functions on the extended reals.

  With q, k, v : 4 × 2048 × 1024 (batch, position, feature), the reference forms every score
  s(n,i,j) = (∑_d q(n,i,d) · k(n,j,d)) / √1024, the row maximum M, the weights e_j = exp (s_j - M),
  their sum L, and returns ∑_j (e_j / L) · v(n,j,d)  (`attnRef`).

  The kernel scales the score by the literal 2⁻⁵ instead and goes through the 2048 keys in 8 blocks of
  256, carrying for each row a running maximum m, a running denominator l and a running numerator
  acc(d): from (-∞, 0, 0), each block replaces them by
      m' = max m (max_k s_k),  l' = exp (m - m') · l + ∑_k exp (s_k - m'),
      acc'(d) = exp (m - m') · acc(d) + ∑_k exp (s_k - m') · v(k,d),
  and the result is acc(d) / l after the last block  (`attnOnline`).

  The projections are q = x · Wqᵀ + bq and likewise k, v  (`proj`).
-/
import Idealize.ShloMosaic.PureOps.Ideal
import Idealize.ShloMosaic.PureOps.Ideal.Laws

noncomputable section

namespace Cert.Attn

open Idealize.ShloMosaic

/-- A batch × position × feature array of extended reals. -/
abbrev T3 : Type := Fin 4 → Fin 2048 → Fin 1024 → EReal

/-- The linear projection x · Wᵀ + b. -/
def proj (x : T3) (W : Fin 1024 → Fin 1024 → EReal) (b : Fin 1024 → EReal) : T3 :=
  fun n s o => (∑ h : Fin 1024, x n s h * W o h) + b o

/-- The unscaled score of query position i against key position j. -/
def score (q k : T3) (n : Fin 4) (i j : Fin 2048) : EReal := ∑ d : Fin 1024, q n i d * k n j d

/-- The reference: softmax over all 2048 keys of score / √1024, then the weighted sum of v. -/
def attnRef (q k v : T3) : T3 := fun n i d =>
  let s : Fin 2048 → EReal := fun j => Ideal.div (score q k n i j) (Ideal.sqrt (Ideal.ofBits .f32 0x44800000#32))
  let M : EReal := max (Ideal.ofBits .f32 0xFF800000#32) ((Finset.univ : Finset (Fin 2048)).fold max (Ideal.ofBits .f32 0xFF800000#32) s)
  let L : EReal := Ideal.ofBits .f32 0x00000000#32 + ∑ j : Fin 2048, Ideal.exp (s j - M)
  ∑ j : Fin 2048, Ideal.div (Ideal.exp (s j - M)) L * v n j d

/-- A row's running state: maximum, denominator, numerator. -/
abbrev RowSt : Type := EReal × EReal × (Fin 1024 → EReal)

/-- The reset state (-∞, 0, 0), as the kernel's literals. -/
def rowInit : RowSt :=
  (Ideal.ofBits .f32 0xFF800000#32, Ideal.ofBits .f32 0x00000000#32, fun _ => Ideal.ofBits .f32 0x00000000#32)

/-- One block of 256 keys: scores `s`, values `vv`. -/
def rowStep (s : Fin 256 → EReal) (vv : Fin 256 → Fin 1024 → EReal) (st : RowSt) : RowSt :=
  let m' : EReal := max st.1 ((Finset.univ : Finset (Fin 256)).fold max (Ideal.ofBits .f32 0xFF800000#32) s)
  (m', Ideal.exp (st.1 - m') * st.2.1 + ∑ k : Fin 256, Ideal.exp (s k - m'),
   fun d => Ideal.exp (st.1 - m') * st.2.2 d + ∑ k : Fin 256, Ideal.exp (s k - m') * vv k d)

/-- Row (n, i)'s scores against key block j, scaled by the kernel's literal 2⁻⁵. -/
def sBlk (q k : T3) (n : Fin 4) (i : Fin 2048) (j : Fin 8) : Fin 256 → EReal :=
  fun kk => score q k n i ⟨256 * j.val + kk.val, by omega⟩ * Ideal.ofBits .f32 0x3D000000#32

/-- Value block j. -/
def vBlk (v : T3) (n : Fin 4) (j : Fin 8) : Fin 256 → Fin 1024 → EReal :=
  fun kk d => v n ⟨256 * j.val + kk.val, by omega⟩ d

/-- Row (n, i)'s state after its first `j` key/value blocks. -/
def rowAt (q k v : T3) (n : Fin 4) (i : Fin 2048) : (j : ℕ) → j ≤ 8 → RowSt
  | 0, _ => rowInit
  | j + 1, h => rowStep (sBlk q k n i ⟨j, by omega⟩) (vBlk v n ⟨j, by omega⟩) (rowAt q k v n i j (by omega))

/-- The kernel: numerator over denominator after all 8 blocks. -/
def attnOnline (q k v : T3) : T3 := fun n i d =>
  Ideal.div ((rowAt q k v n i 8 le_rfl).2.2 d) (rowAt q k v n i 8 le_rfl).2.1

end Cert.Attn

end
-- ==== Proof.SpecLaws.lean ====
/-
  The two forms of attention in Spec.lean agree on arrays of reals.

  With every entry of q, k, v a real, every score is a real, and so is every running maximum after the
  first block. Writing t_x for the scaled score of key x, the state after j ≥ 1 blocks is
      (m, exp (-m) · N_j, exp (-m) · A_j)   for some real m,
  where N_j = ∑_{x < 256 j} exp t_x and A_j(d) = ∑_{x < 256 j} exp t_x · v(x, d): one block multiplies the old
  sums by exp (m - m') and adds the block's terms exp (t_x - m'), and exp (m - m') · exp (-m) = exp (-m'),
  exp (t_x - m') = exp (-m') · exp t_x. Which real m is does not matter: the quotient
  (exp (-m) · A_8(d)) / (exp (-m) · N_8) = A_8(d) / N_8, and the reference's
  ∑_x (exp (t_x - M) / ∑_y exp (t_y - M)) · v(x, d) is the same number for its real M.
  From the reset state (-∞, 0, 0) the first block starts the sums, since exp (-∞ - m') = 0.
  Dividing by √1024 = 32 and multiplying by the literal 2⁻⁵ give the same real.
-/
import proofs.«116713_j5162550690439_2_alg».proof.Proof.Spec

noncomputable section

namespace Cert.Attn

open Idealize.ShloMosaic

/-! ### The literals -/

/-- The kernel's scale literal is 2⁻⁵. -/
theorem ofBits_scale : Ideal.ofBits .f32 0x3D000000#32 = (((1 / 32 : ℝ)) : EReal) := by
  simp [Ideal.ofBits, Ideal.ieee, -EReal.coe_mul]; norm_num

/-- The reference's literal 1024.0. -/
theorem ofBits_1024 : Ideal.ofBits .f32 0x44800000#32 = ((1024 : ℝ) : EReal) := by
  simp [Ideal.ofBits, Ideal.ieee, -EReal.coe_mul]; norm_num

/-- √1024 = 32. -/
theorem sqrt_1024 : Ideal.sqrt (Ideal.ofBits .f32 0x44800000#32) = ((32 : ℝ) : EReal) := by
  rw [ofBits_1024, Ideal.sqrt_coe, if_neg (by norm_num)]
  congr 1
  rw [show (1024 : ℝ) = 32 ^ 2 by norm_num]
  exact Real.sqrt_sq (by norm_num)

/-- The literal -∞ is the bottom of the extended reals. -/
theorem ofBits_neg_inf : Ideal.ofBits .f32 0xFF800000#32 = (⊥ : EReal) := by
  simp [Ideal.ofBits, Ideal.ieee]

/-- The literal +0.0 is 0. -/
theorem ofBits_zero : Ideal.ofBits .f32 0x00000000#32 = (0 : EReal) := by
  simp [Ideal.ofBits, Ideal.ieee]

/-! ### Reals inside the extended reals -/

/-- The coercion of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A running maximum from -∞ over a nonempty family of reals is a real. -/
theorem fold_max_coe {ι : Type*} (s : Finset ι) (hs : s.Nonempty) (f : ι → ℝ) :
    ∃ r : ℝ, s.fold max (⊥ : EReal) (fun i => (f i : EReal)) = (r : EReal) := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-- A projection of real arrays is real. -/
theorem proj_real (x : T3) (W : Fin 1024 → Fin 1024 → EReal) (b : Fin 1024 → EReal)
    (hx : ∀ n s h, ∃ r : ℝ, x n s h = (r : EReal)) (hW : ∀ o h, ∃ r : ℝ, W o h = (r : EReal))
    (hb : ∀ o, ∃ r : ℝ, b o = (r : EReal)) :
    ∀ n s o, ∃ r : ℝ, proj x W b n s o = (r : EReal) := by
  choose xr hxr using hx
  choose Wr hWr using hW
  choose br hbr using hb
  intro n s o
  refine ⟨(∑ h : Fin 1024, xr n s h * Wr o h) + br o, ?_⟩
  simp only [proj, hxr, hWr, hbr]
  rw [EReal.coe_add, coe_sum]
  simp only [EReal.coe_mul]

/-! ### One block -/

/-- One block from the reset state: the sums start. -/
theorem rowStep_bot (sb : Fin 256 → ℝ) (wb : Fin 256 → Fin 1024 → ℝ) :
    ∃ r : ℝ, rowStep (fun k => (sb k : EReal)) (fun k d => (wb k d : EReal)) (⊥, 0, fun _ => 0) =
      ((r : EReal), ((Real.exp (-r) * (0 + ∑ k, Real.exp (sb k)) : ℝ) : EReal),
        fun d => ((Real.exp (-r) * (0 + ∑ k, Real.exp (sb k) * wb k d) : ℝ) : EReal)) := by
  obtain ⟨r, hr⟩ := fold_max_coe (Finset.univ : Finset (Fin 256)) Finset.univ_nonempty sb
  refine ⟨r, ?_⟩
  have e2 : ∀ k, Real.exp (sb k - r) = Real.exp (-r) * Real.exp (sb k) := by
    intro k; rw [← Real.exp_add]; congr 1; ring
  simp only [rowStep, ofBits_neg_inf, hr, max_eq_right (bot_le : (⊥ : EReal) ≤ (r : EReal)),
    EReal.bot_sub, Ideal.exp_bot, mul_zero, zero_add, ← EReal.coe_sub, Ideal.exp_coe, ← EReal.coe_mul,
    ← coe_sum, e2, mul_assoc, ← Finset.mul_sum]

/-- One block from a state with a real maximum: with the state's sums normalised by exp (-m), the new
    sums are the old ones plus the block's, normalised by exp (-m'). -/
theorem rowStep_coe (sb : Fin 256 → ℝ) (wb : Fin 256 → Fin 1024 → ℝ) (m N : ℝ) (A : Fin 1024 → ℝ) :
    ∃ r : ℝ, rowStep (fun k => (sb k : EReal)) (fun k d => (wb k d : EReal))
        ((m : EReal), ((Real.exp (-m) * N : ℝ) : EReal), fun d => ((Real.exp (-m) * A d : ℝ) : EReal)) =
      ((r : EReal), ((Real.exp (-r) * (N + ∑ k, Real.exp (sb k)) : ℝ) : EReal),
        fun d => ((Real.exp (-r) * (A d + ∑ k, Real.exp (sb k) * wb k d) : ℝ) : EReal)) := by
  obtain ⟨r0, hr⟩ := fold_max_coe (Finset.univ : Finset (Fin 256)) Finset.univ_nonempty sb
  refine ⟨max m r0, ?_⟩
  have hmax : max (m : EReal) (r0 : EReal) = ((max m r0 : ℝ) : EReal) :=
    (EReal.coe_strictMono.monotone.map_max).symm
  have e1 : ∀ c : ℝ, Real.exp (m - max m r0) * (Real.exp (-m) * c) = Real.exp (-(max m r0)) * c := by
    intro c; rw [← mul_assoc, ← Real.exp_add]; congr 2; ring
  have e2 : ∀ k, Real.exp (sb k - max m r0) = Real.exp (-(max m r0)) * Real.exp (sb k) := by
    intro k; rw [← Real.exp_add]; congr 1; ring
  simp only [rowStep, ofBits_neg_inf, hr, hmax, ← EReal.coe_sub, Ideal.exp_coe, ← EReal.coe_mul,
    ← coe_sum, ← EReal.coe_add, e1, e2, mul_assoc, ← Finset.mul_sum, ← mul_add]

/-! ### The recurrence on real arrays -/

/-- A real array as an array of extended reals. -/
def cT (f : Fin 4 → Fin 2048 → Fin 1024 → ℝ) : T3 := fun n i d => (f n i d : EReal)

/-- A score of real arrays is the real dot product. -/
theorem score_coe (qr kr : Fin 4 → Fin 2048 → Fin 1024 → ℝ) (n : Fin 4) (i j : Fin 2048) :
    score (cT qr) (cT kr) n i j = ((∑ d, qr n i d * kr n j d : ℝ) : EReal) := by
  simp only [score, cT]; rw [coe_sum]; simp only [EReal.coe_mul]

/-- The scaled score of row (n, i) against key x, as a real; 0 beyond the keys. -/
def tS (qr kr : Fin 4 → Fin 2048 → Fin 1024 → ℝ) (n : Fin 4) (i : Fin 2048) (x : ℕ) : ℝ :=
  if h : x < 2048 then (∑ d, qr n i d * kr n ⟨x, h⟩ d) * (1 / 32) else 0

/-- The value row of key x, as reals; 0 beyond the keys. -/
def wS (vr : Fin 4 → Fin 2048 → Fin 1024 → ℝ) (n : Fin 4) (x : ℕ) (d : Fin 1024) : ℝ :=
  if h : x < 2048 then vr n ⟨x, h⟩ d else 0

/-- A block of scaled scores, as reals. -/
theorem sBlk_coe (qr kr : Fin 4 → Fin 2048 → Fin 1024 → ℝ) (n : Fin 4) (i : Fin 2048) (j : ℕ) (hj : j < 8) :
    sBlk (cT qr) (cT kr) n i ⟨j, hj⟩ = fun kk : Fin 256 => ((tS qr kr n i (256 * j + kk) : ℝ) : EReal) := by
  funext kk
  have hx : 256 * j + kk.val < 2048 := by omega
  simp only [sBlk, score_coe, ofBits_scale, ← EReal.coe_mul, tS, dif_pos hx]

/-- A block of values, as reals. -/
theorem vBlk_coe (vr : Fin 4 → Fin 2048 → Fin 1024 → ℝ) (n : Fin 4) (j : ℕ) (hj : j < 8) :
    vBlk (cT vr) n ⟨j, hj⟩ = fun (kk : Fin 256) d => ((wS vr n (256 * j + kk) d : ℝ) : EReal) := by
  funext kk d
  have hx : 256 * j + kk.val < 2048 := by omega
  simp only [vBlk, cT, wS, dif_pos hx]

/-- The unnormalised denominator over the first 256·j keys. -/
def Nn (t : ℕ → ℝ) (j : ℕ) : ℝ := ∑ x ∈ Finset.range (256 * j), Real.exp (t x)

/-- The unnormalised numerator over the first 256·j keys. -/
def An (t : ℕ → ℝ) (w : ℕ → Fin 1024 → ℝ) (j : ℕ) (d : Fin 1024) : ℝ :=
  ∑ x ∈ Finset.range (256 * j), Real.exp (t x) * w x d

/-- One more block of keys adds its terms to the denominator. -/
theorem Nn_succ (t : ℕ → ℝ) (j : ℕ) :
    Nn t (j + 1) = Nn t j + ∑ k : Fin 256, Real.exp (t (256 * j + k)) := by
  rw [Nn, Nn, Nat.mul_succ, Finset.sum_range_add]
  congr 1 <;> exact Finset.sum_range _

/-- One more block of keys adds its terms to the numerator. -/
theorem An_succ (t : ℕ → ℝ) (w : ℕ → Fin 1024 → ℝ) (j : ℕ) (d : Fin 1024) :
    An t w (j + 1) d = An t w j d + ∑ k : Fin 256, Real.exp (t (256 * j + k)) * w (256 * j + k) d := by
  rw [An, An, Nat.mul_succ, Finset.sum_range_add]
  congr 1 <;> exact Finset.sum_range _

/-- After j + 1 blocks the state is (m, exp (-m) · N, exp (-m) · A) for a real m, with N and A the
    unnormalised sums over the keys seen so far. -/
theorem rowAt_succ (qr kr vr : Fin 4 → Fin 2048 → Fin 1024 → ℝ) (n : Fin 4) (i : Fin 2048) :
    ∀ (j : ℕ) (h : j + 1 ≤ 8), ∃ m : ℝ,
      rowAt (cT qr) (cT kr) (cT vr) n i (j + 1) h =
        ((m : EReal), ((Real.exp (-m) * Nn (tS qr kr n i) (j + 1) : ℝ) : EReal),
          fun d => ((Real.exp (-m) * An (tS qr kr n i) (wS vr n) (j + 1) d : ℝ) : EReal)) := by
  intro j
  induction j with
  | zero =>
    intro h
    obtain ⟨r, hr⟩ := rowStep_bot (fun kk : Fin 256 => tS qr kr n i (256 * 0 + kk))
      (fun kk d => wS vr n (256 * 0 + kk) d)
    refine ⟨r, ?_⟩
    have h0 : rowAt (cT qr) (cT kr) (cT vr) n i 0 (by omega) = (⊥, 0, fun _ => 0) := by
      simp only [rowAt, rowInit, ofBits_neg_inf, ofBits_zero]
    rw [rowAt, h0, sBlk_coe, vBlk_coe, hr]
    simp only [Nn_succ, An_succ]
    simp [Nn, An]
  | succ j ih =>
    intro h
    obtain ⟨m, hm⟩ := ih (by omega)
    obtain ⟨r, hr⟩ := rowStep_coe (fun kk : Fin 256 => tS qr kr n i (256 * (j + 1) + kk))
      (fun kk d => wS vr n (256 * (j + 1) + kk) d) m (Nn (tS qr kr n i) (j + 1))
      (An (tS qr kr n i) (wS vr n) (j + 1))
    refine ⟨r, ?_⟩
    rw [rowAt, hm, sBlk_coe, vBlk_coe, hr]
    simp only [Nn_succ, An_succ]

/-- The denominator over all 2048 keys, over the key index itself. -/
theorem Nn_eight (qr kr : Fin 4 → Fin 2048 → Fin 1024 → ℝ) (n : Fin 4) (i : Fin 2048) :
    Nn (tS qr kr n i) 8 = ∑ j : Fin 2048, Real.exp ((∑ d, qr n i d * kr n j d) * (1 / 32)) := by
  rw [Nn, show 256 * 8 = 2048 from rfl, Finset.sum_range]
  refine Finset.sum_congr rfl (fun j _ => ?_)
  rw [tS, dif_pos j.isLt]

/-- The numerator over all 2048 keys, over the key index itself. -/
theorem An_eight (qr kr vr : Fin 4 → Fin 2048 → Fin 1024 → ℝ) (n : Fin 4) (i : Fin 2048) (d : Fin 1024) :
    An (tS qr kr n i) (wS vr n) 8 d =
      ∑ j : Fin 2048, Real.exp ((∑ d, qr n i d * kr n j d) * (1 / 32)) * vr n j d := by
  rw [An, show 256 * 8 = 2048 from rfl, Finset.sum_range]
  refine Finset.sum_congr rfl (fun j _ => ?_)
  rw [tS, wS, dif_pos j.isLt, dif_pos j.isLt]

/-- The kernel's form on real arrays: the normalised numerator over the normalised denominator. -/
theorem attnOnline_coe (qr kr vr : Fin 4 → Fin 2048 → Fin 1024 → ℝ) (n : Fin 4) (i : Fin 2048) (d : Fin 1024) :
    ∃ m : ℝ, attnOnline (cT qr) (cT kr) (cT vr) n i d =
      ((Real.exp (-m) * An (tS qr kr n i) (wS vr n) 8 d *
        (1 / (Real.exp (-m) * Nn (tS qr kr n i) 8)) : ℝ) : EReal) := by
  obtain ⟨m, hm⟩ := rowAt_succ qr kr vr n i 7 (by norm_num)
  refine ⟨m, ?_⟩
  have hN : 0 < Nn (tS qr kr n i) 8 := by
    rw [Nn_eight]
    exact Finset.sum_pos (fun _ _ => Real.exp_pos _) Finset.univ_nonempty
  have hpos : Real.exp (-m) * Nn (tS qr kr n i) 8 ≠ 0 := (mul_pos (Real.exp_pos _) hN).ne'
  have h8 : rowAt (cT qr) (cT kr) (cT vr) n i 8 le_rfl = _ := hm
  simp only [attnOnline, h8]
  rw [Ideal.div_coe hpos, ← EReal.coe_mul]

/-- The reference's form on real arrays. -/
theorem attnRef_coe (qr kr vr : Fin 4 → Fin 2048 → Fin 1024 → ℝ) (n : Fin 4) (i : Fin 2048) (d : Fin 1024) :
    ∃ r : ℝ, attnRef (cT qr) (cT kr) (cT vr) n i d =
      ((∑ j : Fin 2048, Real.exp ((∑ d, qr n i d * kr n j d) * (1 / 32) - r) *
        (1 / ∑ j' : Fin 2048, Real.exp ((∑ d, qr n i d * kr n j' d) * (1 / 32) - r)) * vr n j d : ℝ) : EReal) := by
  have hs : ∀ j, Ideal.div (score (cT qr) (cT kr) n i j) (Ideal.sqrt (Ideal.ofBits .f32 0x44800000#32)) =
      (((∑ d, qr n i d * kr n j d) * (1 / 32) : ℝ) : EReal) := by
    intro j
    rw [sqrt_1024, Ideal.div_coe (by norm_num), score_coe, ← EReal.coe_mul]
  obtain ⟨r, hr⟩ := fold_max_coe (Finset.univ : Finset (Fin 2048)) Finset.univ_nonempty
    (fun j => (∑ d, qr n i d * kr n j d) * (1 / 32))
  refine ⟨r, ?_⟩
  have hL : (∑ j' : Fin 2048, Real.exp ((∑ d, qr n i d * kr n j' d) * (1 / 32) - r)) ≠ 0 :=
    (Finset.sum_pos (fun _ _ => Real.exp_pos _) Finset.univ_nonempty).ne'
  simp only [attnRef, hs, ofBits_neg_inf, ofBits_zero, hr, max_eq_right (bot_le : (⊥ : EReal) ≤ (r : EReal)),
    zero_add, ← EReal.coe_sub, Ideal.exp_coe, ← coe_sum, Ideal.div_coe hL, cT, ← EReal.coe_mul]

/-- Softmax does not depend on the shift: normalising the weights exp t by exp (-m) or by exp (-r)
    gives the same weighted mean. -/
theorem softmax_shift {ι : Type*} [Fintype ι] [Nonempty ι] (t w : ι → ℝ) (m r : ℝ) :
    Real.exp (-m) * (∑ j, Real.exp (t j) * w j) * (1 / (Real.exp (-m) * ∑ j, Real.exp (t j))) =
      ∑ j, Real.exp (t j - r) * (1 / ∑ j', Real.exp (t j' - r)) * w j := by
  have hS : 0 < ∑ j, Real.exp (t j) :=
    Finset.sum_pos (fun _ _ => Real.exp_pos _) Finset.univ_nonempty
  have e2 : ∀ j, Real.exp (t j - r) = Real.exp (-r) * Real.exp (t j) := by
    intro j; rw [← Real.exp_add]; congr 1; ring
  have hm0 : Real.exp (-m) ≠ 0 := (Real.exp_pos _).ne'
  have hr0 : Real.exp (-r) ≠ 0 := (Real.exp_pos _).ne'
  simp only [e2]
  rw [← Finset.mul_sum]
  generalize (∑ j, Real.exp (t j)) = S at hS
  have hS0 : S ≠ 0 := hS.ne'
  trans (1 / S) * ∑ j, Real.exp (t j) * w j
  · field_simp
  · rw [Finset.mul_sum]
    refine Finset.sum_congr rfl (fun j _ => ?_)
    field_simp

/-- On arrays of reals the kernel's online form and the reference's form of attention are equal. -/
theorem attnOnline_eq_attnRef (q k v : T3)
    (hq : ∀ n i d, ∃ r : ℝ, q n i d = (r : EReal)) (hk : ∀ n i d, ∃ r : ℝ, k n i d = (r : EReal))
    (hv : ∀ n i d, ∃ r : ℝ, v n i d = (r : EReal)) :
    attnOnline q k v = attnRef q k v := by
  choose qr hqr using hq
  choose kr hkr using hk
  choose vr hvr using hv
  obtain rfl : q = cT qr := by funext n i d; exact hqr n i d
  obtain rfl : k = cT kr := by funext n i d; exact hkr n i d
  obtain rfl : v = cT vr := by funext n i d; exact hvr n i d
  funext n i d
  obtain ⟨m, hm⟩ := attnOnline_coe qr kr vr n i d
  obtain ⟨r, hr⟩ := attnRef_coe qr kr vr n i d
  rw [hm, hr, Nn_eight, An_eight]
  refine congrArg Real.toEReal ?_
  exact softmax_shift (fun j : Fin 2048 => (∑ d, qr n i d * kr n j d) * (1 / 32)) (fun j => vr n j d) m r

end Cert.Attn

end
-- ==== Proof.SpecIdx.lean ====
/-
  Arrays of the programs read as functions of their coordinates: an array over the index type of a
  rank-3, rank-2 or rank-1 shape, as a function of three, two or one coordinate.
-/
import proofs.«116713_j5162550690439_2_alg».proof.Proof.Spec
import Idealize.ShloMosaic.Lib.ValueIdx

noncomputable section

namespace Cert.Attn

open Idealize.ShloMosaic ValueIdx

/-- A 4 × 2048 × 1024 array read as a function of its three coordinates. -/
def arr3 (a : (⟨3, ![4, 2048, 1024]⟩ : Shape).Idx → EReal) : T3 := fun n s h => a (ix3 n s h)

/-- A 1024 × 1024 array read as a function of its two coordinates. -/
def arr2 (a : (⟨2, ![1024, 1024]⟩ : Shape).Idx → EReal) : Fin 1024 → Fin 1024 → EReal :=
  fun o h => a (ix2 o h)

/-- A length-1024 array read as a function of its coordinate. -/
def arr1 (a : (⟨1, ![1024]⟩ : Shape).Idx → EReal) : Fin 1024 → EReal := fun o => a (ix1 o)

@[simp] theorem arr3_apply (a : (⟨3, ![4, 2048, 1024]⟩ : Shape).Idx → EReal) (n : Fin 4) (s : Fin 2048)
    (h : Fin 1024) : arr3 a n s h = a (ix3 n s h) := rfl

@[simp] theorem arr2_apply (a : (⟨2, ![1024, 1024]⟩ : Shape).Idx → EReal) (o h : Fin 1024) :
    arr2 a o h = a (ix2 o h) := rfl

@[simp] theorem arr1_apply (a : (⟨1, ![1024]⟩ : Shape).Idx → EReal) (o : Fin 1024) :
    arr1 a o = a (ix1 o) := rfl

end Cert.Attn

end
-- ==== Proof.RefG.lean ====
/-
  The reference program computes softmax attention of three linear projections of its input.

  Read one operation at a time, the reference forms q = x · Wqᵀ + bq, k = x · Wkᵀ + bk, v = x · Wvᵀ + bv, the
  scores q · kᵀ divided by √1024, each row's maximum (a running maximum from -∞ over the 2048 keys, then
  once more against -∞), the weights exp (s - M), their row sum from 0, the quotient, and the product with v.
  At an index (n, i, d) that is `attnRef` of the three projections, operation for operation.
-/
import proofs.«116713_j5162550690439_2_alg».proof.Proof.Gen.ReferenceIdeal.Read
import proofs.«116713_j5162550690439_2_alg».proof.Proof.SpecIdx

noncomputable section

namespace Cert.ReferenceIdeal.RefValue

open Cert.ReferenceIdeal Cert.ReferenceIdeal.Gen Cert.ReferenceIdeal.Read Cert.Attn Idealize.ShloMosaic Idealize.ShloMosaic.ValueIdx
  Idealize.ShloMosaic.TcCoe Idealize.SL.Sem

variable (x0 : (⟨S4x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-- The first projection of the reference, x · W1ᵀ + b1, at (n, s, o). -/
theorem proj_q (n : Fin 4) (s : Fin 2048) (o : Fin 1024) :
    val_main_v3 (F := Ideal) x0 x1 x2 (ix3 n s o) = proj (arr3 x0) (arr2 x1) (arr1 x2) n s o := by
  have el : ∀ k : Fin 1024, lidx_main_v0 (ix3 n s o) k = ix3 n s k := fun k =>
    funext fun a => Fin.ext (by match a with | ⟨0, _⟩ => rfl | ⟨1, _⟩ => rfl | ⟨2, _⟩ => rfl)
  have er : ∀ k : Fin 1024, ridx_main_v0 (ix3 n s o) k = ix2 o k := fun k =>
    funext fun a => Fin.ext (by match a with | ⟨0, _⟩ => rfl | ⟨1, _⟩ => rfl)
  have eb : idx_main_v1 (idx_main_v2 (ix3 n s o)) = ix1 o :=
    funext fun a => Fin.ext (by match a with | ⟨0, _⟩ => rfl)
  rw [val_main_v3_apply, val_main_v0_apply, val_main_v2_apply, val_main_v1_apply]
  simp only [Ideal.addf_def, el, er, eb, proj, arr3, arr2, arr1]

/-- The second projection, x · W2ᵀ + b2, at (n, s, o). -/
theorem proj_k (n : Fin 4) (s : Fin 2048) (o : Fin 1024) :
    val_main_v7 (F := Ideal) x0 x3 x4 (ix3 n s o) = proj (arr3 x0) (arr2 x3) (arr1 x4) n s o := by
  have el : ∀ k : Fin 1024, lidx_main_v4 (ix3 n s o) k = ix3 n s k := fun k =>
    funext fun a => Fin.ext (by match a with | ⟨0, _⟩ => rfl | ⟨1, _⟩ => rfl | ⟨2, _⟩ => rfl)
  have er : ∀ k : Fin 1024, ridx_main_v4 (ix3 n s o) k = ix2 o k := fun k =>
    funext fun a => Fin.ext (by match a with | ⟨0, _⟩ => rfl | ⟨1, _⟩ => rfl)
  have eb : idx_main_v5 (idx_main_v6 (ix3 n s o)) = ix1 o :=
    funext fun a => Fin.ext (by match a with | ⟨0, _⟩ => rfl)
  rw [val_main_v7_apply, val_main_v4_apply, val_main_v6_apply, val_main_v5_apply]
  simp only [Ideal.addf_def, el, er, eb, proj, arr3, arr2, arr1]

/-- The third projection, x · W3ᵀ + b3, at (n, s, o). -/
theorem proj_v (n : Fin 4) (s : Fin 2048) (o : Fin 1024) :
    val_main_v11 (F := Ideal) x0 x5 x6 (ix3 n s o) = proj (arr3 x0) (arr2 x5) (arr1 x6) n s o := by
  have el : ∀ k : Fin 1024, lidx_main_v8 (ix3 n s o) k = ix3 n s k := fun k =>
    funext fun a => Fin.ext (by match a with | ⟨0, _⟩ => rfl | ⟨1, _⟩ => rfl | ⟨2, _⟩ => rfl)
  have er : ∀ k : Fin 1024, ridx_main_v8 (ix3 n s o) k = ix2 o k := fun k =>
    funext fun a => Fin.ext (by match a with | ⟨0, _⟩ => rfl | ⟨1, _⟩ => rfl)
  have eb : idx_main_v9 (idx_main_v10 (ix3 n s o)) = ix1 o :=
    funext fun a => Fin.ext (by match a with | ⟨0, _⟩ => rfl)
  rw [val_main_v11_apply, val_main_v8_apply, val_main_v10_apply, val_main_v9_apply]
  simp only [Ideal.addf_def, el, er, eb, proj, arr3, arr2, arr1]

/-- The score of query position i against key position j, divided by √1024. -/
theorem scaled_score (n : Fin 4) (i j : Fin 2048) :
    val_main_v15 (F := Ideal) x0 x1 x2 x3 x4 (ix3 n i j) =
      Ideal.div (score (proj (arr3 x0) (arr2 x1) (arr1 x2)) (proj (arr3 x0) (arr2 x3) (arr1 x4)) n i j)
        (Ideal.sqrt (Ideal.ofBits .f32 0x44800000#32)) := by
  have el : ∀ k : Fin 1024, lidx_main_v12 (ix3 n i j) k = ix3 n i k := fun k =>
    funext fun a => Fin.ext (by match a with | ⟨0, _⟩ => rfl | ⟨1, _⟩ => rfl | ⟨2, _⟩ => rfl)
  have er : ∀ k : Fin 1024, ridx_main_v12 (ix3 n i j) k = ix3 n j k := fun k =>
    funext fun a => Fin.ext (by match a with | ⟨0, _⟩ => rfl | ⟨1, _⟩ => rfl | ⟨2, _⟩ => rfl)
  rw [val_main_v15_apply, val_main_v12_apply, val_main_v14_apply, val_main_v13_apply, val_main_cst_apply]
  simp only [el, er, proj_q, proj_k, Ideal.hostDivf_def, Ideal.hostUnary_sqrt_def, Ideal.ofBits_def, score]

/-- A row index of the scores with the key coordinate put back on the reduced axis. -/
theorem lift_ix2 (h : S4x2048x2048.Reduces [2] S4x2048) (n : Fin 4) (i : Fin 2048) (k : Fin (S4x2048x2048.size 2)) :
    h.lift (ix2 n i) k = ix3 n i (⟨k.val, k.isLt⟩ : Fin 2048) := by
  funext c; apply Fin.ext
  fin_cases c <;> rfl

/-- The row maximum of the reference: the running maximum from -∞ over the 2048 keys, then once more against -∞. -/
theorem row_max (n : Fin 4) (i : Fin 2048) :
    val_main_v18 (F := Ideal) x0 x1 x2 x3 x4 (ix2 n i) =
      max (Ideal.ofBits .f32 0xFF800000#32) ((Finset.univ : Finset (Fin 2048)).fold max (Ideal.ofBits .f32 0xFF800000#32)
        (fun j => val_main_v15 (F := Ideal) x0 x1 x2 x3 x4 (ix3 n i j))) := by
  have h : S4x2048x2048.Reduces [2] S4x2048 := by decide
  have hf : (val_main_v15 (F := Ideal) x0 x1 x2 x3 x4 ∘ h.lift (ix2 n i)) =
      fun k : Fin 2048 => val_main_v15 (F := Ideal) x0 x1 x2 x3 x4 (ix3 n i k) :=
    funext fun k => congrArg (val_main_v15 (F := Ideal) x0 x1 x2 x3 x4) (lift_ix2 h n i k)
  rw [val_main_v18_apply, val_main_v17_apply, val_main_cst_1_apply]
  unfold val_main_v16
  rw [Host.reduce_eq_fold_single FloatOps.maximumf _ _ reducesTo_S4x2048x2048_S4x2048_d2 h h_S_, val_main_cst_0_apply]
  simp only [Ideal.ofBits_def]
  exact congrArg (fun f => max (Ideal.ofBits .f32 0xFF800000#32)
    (Finset.fold max (Ideal.ofBits .f32 0xFF800000#32) f (Finset.univ : Finset (Fin 2048)))) hf

/-- The weight exp (s_j - M) of key j in row (n, i). -/
theorem weight (n : Fin 4) (i j : Fin 2048) :
    val_main_v22 (F := Ideal) x0 x1 x2 x3 x4 (ix3 n i j) =
      Ideal.exp (val_main_v15 (F := Ideal) x0 x1 x2 x3 x4 (ix3 n i j) -
        val_main_v18 (F := Ideal) x0 x1 x2 x3 x4 (ix2 n i)) := by
  have e : idx_main_v19 (idx_main_v20 (ix3 n i j)) = ix2 n i :=
    funext fun a => Fin.ext (by match a with | ⟨0, _⟩ => rfl | ⟨1, _⟩ => rfl)
  rw [val_main_v22_apply, val_main_v21_apply, val_main_v20_apply, val_main_v19_apply, e]
  simp only [Ideal.hostUnary_exp_def, Ideal.subf_def]

/-- The denominator 0 + ∑_j exp (s_j - M) of row (n, i). -/
theorem denom (n : Fin 4) (i : Fin 2048) :
    val_main_v23 (F := Ideal) x0 x1 x2 x3 x4 (ix2 n i) =
      Ideal.ofBits .f32 0x00000000#32 + ∑ j : Fin 2048, val_main_v22 (F := Ideal) x0 x1 x2 x3 x4 (ix3 n i j) := by
  have e : ∀ k : Fin 2048, idx_main_v23 (ix2 n i) k = ix3 n i k := fun k =>
    funext fun a => Fin.ext (by match a with | ⟨0, _⟩ => rfl | ⟨1, _⟩ => rfl | ⟨2, _⟩ => rfl)
  rw [val_main_v23_apply, val_main_cst_2_apply]
  simp only [e, Ideal.ofBits_def]

/-- The normalised weight of key j in row (n, i). -/
theorem nweight (n : Fin 4) (i j : Fin 2048) :
    val_main_v26 (F := Ideal) x0 x1 x2 x3 x4 (ix3 n i j) =
      Ideal.div (val_main_v22 (F := Ideal) x0 x1 x2 x3 x4 (ix3 n i j))
        (val_main_v23 (F := Ideal) x0 x1 x2 x3 x4 (ix2 n i)) := by
  have e : idx_main_v24 (idx_main_v25 (ix3 n i j)) = ix2 n i :=
    funext fun a => Fin.ext (by match a with | ⟨0, _⟩ => rfl | ⟨1, _⟩ => rfl)
  rw [val_main_v26_apply, val_main_v25_apply, val_main_v24_apply, e]
  simp only [Ideal.hostDivf_def]

/-- The reference's result at (n, i, d) is the softmax attention of the three projections. -/
theorem result_apply (n : Fin 4) (i : Fin 2048) (d : Fin 1024) :
    val_main_v27 (F := Ideal) x0 x1 x2 x3 x4 x5 x6 (ix3 n i d) =
      attnRef (proj (arr3 x0) (arr2 x1) (arr1 x2)) (proj (arr3 x0) (arr2 x3) (arr1 x4))
        (proj (arr3 x0) (arr2 x5) (arr1 x6)) n i d := by
  have el : ∀ k : Fin 2048, lidx_main_v27 (ix3 n i d) k = ix3 n i k := fun k =>
    funext fun a => Fin.ext (by match a with | ⟨0, _⟩ => rfl | ⟨1, _⟩ => rfl | ⟨2, _⟩ => rfl)
  have er : ∀ k : Fin 2048, ridx_main_v27 (ix3 n i d) k = ix3 n k d := fun k =>
    funext fun a => Fin.ext (by match a with | ⟨0, _⟩ => rfl | ⟨1, _⟩ => rfl | ⟨2, _⟩ => rfl)
  rw [val_main_v27_apply]
  simp only [el, er, nweight, weight, denom, row_max, scaled_score, proj_v, attnRef]

/-- The reference's result array, as a function of its index. -/
theorem result_eq :
    val_main_v27 (F := Ideal) x0 x1 x2 x3 x4 x5 x6 = fun i =>
      attnRef (proj (arr3 x0) (arr2 x1) (arr1 x2)) (proj (arr3 x0) (arr2 x3) (arr1 x4))
        (proj (arr3 x0) (arr2 x5) (arr1 x6)) (i 0) (i 1) (i 2) := by
  funext i
  obtain ⟨n, s, d, rfl⟩ : ∃ (n : Fin 4) (s : Fin 2048) (d : Fin 1024), i = ix3 n s d := ⟨i 0, i 1, i 2, eq_ix3 i⟩
  exact result_apply x0 x1 x2 x3 x4 x5 x6 n s d

/-- The term the reference's run states for its result buffer, of the seven argument arrays. -/
theorem res_eq (m : (ℓ : Loc nD τ sig) → Buf (Elt Ideal) ℓ) (c : Dev nD) :
    Cert.ReferenceIdeal.Value.res_main_v27 m c = fun i =>
      attnRef
        (proj (arr3 (m ((c.tc : Thread nD τ).loc main_arg0))) (arr2 (m ((c.tc : Thread nD τ).loc main_arg1)))
          (arr1 (m ((c.tc : Thread nD τ).loc main_arg2))))
        (proj (arr3 (m ((c.tc : Thread nD τ).loc main_arg0))) (arr2 (m ((c.tc : Thread nD τ).loc main_arg3)))
          (arr1 (m ((c.tc : Thread nD τ).loc main_arg4))))
        (proj (arr3 (m ((c.tc : Thread nD τ).loc main_arg0))) (arr2 (m ((c.tc : Thread nD τ).loc main_arg5)))
          (arr1 (m ((c.tc : Thread nD τ).loc main_arg6))))
        (i 0) (i 1) (i 2) :=
  (val_main_v27_eq m c).trans (result_eq _ _ _ _ _ _ _)

end Cert.ReferenceIdeal.RefValue

end
-- ==== Proof.KI.Val0.lean ====
/-
  Region 0 (the fused projection) at the ideal values: what it leaves in its output array.

  Each of the 8 grid points reads 1024 rows of x, the whole 1024 × 3072 weight and the 1 × 3072 bias, and writes
  back, as rows 1024·t … 1024·t + 1023 of the output, the product of the rows with the weight (accumulated onto
  zero) plus the bias row repeated down the rows; a change of float format is the identity on the extended reals.
  The 8 row blocks tile the output, so after the last point the array is one function of the three input arrays:
  entry (r, o) is  Σ_h x(r, h) · w(h, o) + b(0, o).
-/
import proofs.«116713_j5162550690439_2_alg».proof.Proof.KI.Data
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-! ## The specification -/

/-- The projection of the whole arrays: entry (r, o) is the r-th row of x against the o-th column of the weight,
    plus the bias at o. -/
def G0 (x : S8192x1024.Idx → EReal) (w : S1024x3072.Idx → EReal) (b : S1x3072.Idx → EReal) : S8192x3072.Idx → EReal :=
  fun i => (∑ h : Fin 1024, x (ix2 (⟨(i 0).val, (i 0).isLt⟩ : Fin 8192) h) * w (ix2 h (⟨(i 1).val, (i 1).isLt⟩ : Fin 3072)))
    + b (ix2 (0 : Fin 1) (⟨(i 1).val, (i 1).isLt⟩ : Fin 3072))

/-- The specification at an index given by its coordinates. -/
theorem G0_apply (x : S8192x1024.Idx → EReal) (w : S1024x3072.Idx → EReal) (b : S1x3072.Idx → EReal) (r : Fin 8192) (o : Fin 3072) :
    G0 x w b (ix2 r o) = (∑ h : Fin 1024, x (ix2 r h) * w (ix2 h o)) + b (ix2 (0 : Fin 1) o) := rfl

/-! ## The body's payload at an index -/

/-- The contraction of the body's matrix product: the rows of the left operand against the columns of the right. -/
abbrev dot0 : DotDims S1024x1024 S1024x3072 S1024x3072 := dot_S1024x1024_S1024x3072_S1024x3072_1_0_0_1_n_n

theorem lhs0_0 (i : S1024x3072.Idx) (q : dot0.contr.Idx) : (dot0.lhsIdx i q 0).val = (i 0).val := by
  unfold DotDims.lhsIdx
  rw [dif_neg (show ¬(0 : Fin S1024x1024.rank) ∈ dot0.lhsBatch by decide), dif_pos (show (0 : Fin S1024x1024.rank) ∈ dot0.lhsNonContracting by decide)]
  rfl
theorem lhs0_1 (i : S1024x3072.Idx) (q : dot0.contr.Idx) : (dot0.lhsIdx i q 1).val = (q ⟨0, by decide⟩).val :=
  dot0.lhsIdx_val_of_single rfl i q
theorem rhs0_0 (i : S1024x3072.Idx) (q : dot0.contr.Idx) : (dot0.rhsIdx i q 0).val = (q ⟨0, by decide⟩).val :=
  dot0.rhsIdx_val_of_single rfl i q
theorem rhs0_1 (i : S1024x3072.Idx) (q : dot0.contr.Idx) : (dot0.rhsIdx i q 1).val = (i 1).val := by
  unfold DotDims.rhsIdx
  rw [dif_neg (show ¬(1 : Fin S1024x3072.rank) ∈ dot0.rhsBatch by decide), dif_pos (show (1 : Fin S1024x3072.rank) ∈ dot0.rhsNonContracting by decide)]
  rfl

/-- The body's stored value at (p, o): the p-th loaded row against the o-th column of the weight, plus the bias at
    o. The product accumulates onto zero; the casts to and from bf16 are the identity on the extended reals. -/
theorem pay0_apply (x : FVec Ideal S1024x1024 .f32) (w : FVec Ideal S1024x3072 .bf16) (b : FVec Ideal S1x3072 .f32)
    (p : Fin 1024) (o : Fin 3072) :
    k0_pay1 (F := Ideal) x w b (ix2 p o) = (∑ h : Fin 1024, x (ix2 p h) * w (ix2 h o)) + b (ix2 (0 : Fin 1) o) := by
  unfold k0_pay1
  simp only [shapeCast_self]
  refine (truncf_apply (φ := .f32) (ψ := .bf16) _ bitsLt_bf16_f32 (ix2 p o)).trans ?_
  refine (addf_apply (φ := .f32) _ _ (ix2 p o)).trans ?_
  refine congrArg₂ (· + ·) ?_ ?_
  · refine (Ideal.matmul_constant_zero_apply dot0 none _ _ _).trans ?_
    rw [← Equiv.sum_comp (contrEquiv1 dot0 1024 rfl rfl).symm]
    refine Finset.sum_congr rfl fun k _ => ?_
    have hk := contrEquiv1_symm_val dot0 1024 rfl rfl k
    have el : dot0.lhsIdx (ix2 p o) ((contrEquiv1 dot0 1024 rfl rfl).symm k) = ix2 p k := funext fun a => Fin.ext (by
      match a with
      | ⟨0, _⟩ => exact lhs0_0 _ _
      | ⟨1, _⟩ => exact (lhs0_1 _ _).trans hk)
    have er : dot0.rhsIdx (ix2 p o) ((contrEquiv1 dot0 1024 rfl rfl).symm k) = ix2 k o := funext fun a => Fin.ext (by
      match a with
      | ⟨0, _⟩ => exact (rhs0_0 _ _).trans hk
      | ⟨1, _⟩ => exact rhs0_1 _ _)
    rw [el, er]
    rfl
  · exact broadcastTo_1b_ab_apply _ _ p o

/-! ## From the blocks to the array -/

variable (V : (c : Dev nD) → (b : Ref sig .tc) → Buf (Elt Ideal) ((c : Thread nD τ).loc b))

/-- The printed index maps, decided over the grid: the rows of x and the output's rows move with the point, the
    weight and the bias stay at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of x at point t is rows 1024·t … 1024·t + 1023 of the array. -/
theorem iblk0_0_apply (c : Dev nD) (t : Fin cfg0.N) (p : Fin 1024) (h : Fin 1024) (r : Fin 8192)
    (hr : r.val = 1024 * t.val + p.val) :
    (iblk0 V c 0 t : Vec Ideal S1024x1024 .f32) (ix2 p h) = (V c main_v0 : S8192x1024.Idx → EReal) (ix2 r h) := by
  obtain ⟨e0, e1, -⟩ := idx_facts0 t
  unfold iblk0
  rw [View.read_apply]
  show V c main_v0 _ = V c main_v0 _
  refine congrArg (V c main_v0) ?_
  funext a
  apply Fin.ext
  match a with
  | ⟨0, _⟩ => show win0_0.index t 0 * 1024 + 1 * p.val = r.val; rw [e0, hr]; omega
  | ⟨1, _⟩ => show win0_0.index t 1 * 1024 + 1 * h.val = h.val; rw [e1]; omega

/-- The block of the weight at every point is the whole array. -/
theorem iblk0_1_apply (c : Dev nD) (t : Fin cfg0.N) (h : Fin 1024) (o : Fin 3072) :
    (iblk0 V c 1 t : Vec Ideal S1024x3072 .bf16) (ix2 h o) = (V c main_v3 : S1024x3072.Idx → EReal) (ix2 h o) := by
  obtain ⟨-, -, e2, e3, -⟩ := idx_facts0 t
  unfold iblk0
  rw [View.read_apply]
  show V c main_v3 _ = V c main_v3 _
  refine congrArg (V c main_v3) ?_
  funext a
  apply Fin.ext
  match a with
  | ⟨0, _⟩ => show win0_1.index t 0 * 1024 + 1 * h.val = h.val; rw [e2]; omega
  | ⟨1, _⟩ => show win0_1.index t 1 * 3072 + 1 * o.val = o.val; rw [e3]; omega

/-- The block of the bias at every point is the whole array. -/
theorem iblk0_2_apply (c : Dev nD) (t : Fin cfg0.N) (z : Fin 1) (o : Fin 3072) :
    (iblk0 V c 2 t : Vec Ideal S1x3072 .f32) (ix2 z o) = (V c main_v5 : S1x3072.Idx → EReal) (ix2 z o) := by
  obtain ⟨-, -, -, -, e4, e5, -⟩ := idx_facts0 t
  unfold iblk0
  rw [View.read_apply]
  show V c main_v5 _ = V c main_v5 _
  refine congrArg (V c main_v5) ?_
  funext a
  apply Fin.ext
  match a with
  | ⟨0, _⟩ => show win0_2.index t 0 * 1 + 1 * z.val = z.val; rw [e4]; omega
  | ⟨1, _⟩ => show win0_2.index t 1 * 3072 + 1 * o.val = o.val; rw [e5]; omega

/-- The output's block at point t, read off a whole array, is its rows 1024·t … 1024·t + 1023. -/
theorem oblk0_apply (G : S8192x3072.Idx → EReal) (t : Fin cfg0.N) (p : Fin 1024) (o : Fin 3072) (r : Fin 8192)
    (hr : r.val = 1024 * t.val + p.val) :
    ((cfg0.win 3).blk t).view.read (Elt Ideal) G (ix2 p o) = G (ix2 r o) := by
  obtain ⟨-, -, -, -, -, -, e6, e7⟩ := idx_facts0 t
  rw [View.read_apply]
  refine congrArg G ?_
  funext a
  apply Fin.ext
  match a with
  | ⟨0, _⟩ => show win0_3.index t 0 * 1024 + 1 * p.val = r.val; rw [e6, hr]; omega
  | ⟨1, _⟩ => show win0_3.index t 1 * 3072 + 1 * o.val = o.val; rw [e7]; omega

/-- What point t writes back is block t of the projection of the arrays as the region finds them. -/
theorem flushed0_eq (c : Dev nD) (t : Fin cfg0.N) :
    (dat0 (F := Ideal) V c).flushed 3 t
      = ((cfg0.win 3).blk t).view.read (Elt Ideal) (G0 (V c main_v0) (V c main_v3) (V c main_v5)) := by
  show (cfg0.win 3).cut (grid0.coords t) ((dat0 (F := Ideal) V c).after 3 t) = _
  have ea : (dat0 (F := Ideal) V c).after 3 t = k0_pay1 (iblk0 V c 0 t) (iblk0 V c 1 t) (iblk0 V c 2 t) := by
    dsimp only [dat0]
  rw [ea]
  funext j
  obtain ⟨p, o, rfl⟩ : ∃ (p : Fin 1024) (o : Fin 3072), j = ix2 p o := ⟨j 0, j 1, eq_ix2 j⟩
  have hN : cfg0.N = 8 := N_0
  have ht : t.val < 8 := hN ▸ t.isLt
  refine Eq.trans ?_ (oblk0_apply (G0 (V c main_v0) (V c main_v3) (V c main_v5)) t p o
    ⟨1024 * t.val + p.val, by have := p.isLt; omega⟩ rfl).symm
  refine Eq.trans ?_ (G0_apply (V c main_v0) (V c main_v3) (V c main_v5) ⟨1024 * t.val + p.val, by have := p.isLt; omega⟩ o).symm
  refine (pay0_apply (iblk0 V c 0 t) (iblk0 V c 1 t) (iblk0 V c 2 t) p o).trans ?_
  refine congrArg₂ (· + ·) (Finset.sum_congr rfl fun h _ => ?_) (iblk0_2_apply V c t 0 o)
  rw [iblk0_0_apply V c t p h ⟨1024 * t.val + p.val, by have := p.isLt; omega⟩ rfl, iblk0_1_apply V c t h o]

/-- An index of the output array is in point t's block iff each coordinate is in the block's range on its axis. -/
theorem mem_blk0 (t : Fin cfg0.N) (i : S8192x3072.Idx) :
    i ∈ ((cfg0.win 3).blk t).view.set ↔ ∀ a : Fin 2, win0_3.index t a * S1024x3072.size a ≤ (i a).val
      ∧ (i a).val < win0_3.index t a * S1024x3072.size a + S1024x3072.size a := by
  show i ∈ ((View.whole main_v6).slice (win0_3.rect t)).set ↔ _
  rw [View.set_slice_whole, Rect.mem_set_unit]
  exact Iff.rfl

/-- The 8 row blocks tile the output: row r is in the block of point r / 1024. -/
theorem cover0 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 8 := N_0
  have hlt : (i 0).val / 1024 < cfg0.N := by rw [hN]; omega
  obtain ⟨-, -, -, -, -, -, e6, e7⟩ := idx_facts0 ⟨(i 0).val / 1024, hlt⟩
  refine ⟨⟨(i 0).val / 1024, hlt⟩, flush0_3 _, ?_⟩
  rw [mem_blk0]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e6]; show (i 0).val / 1024 * 1024 ≤ (i 0).val ∧ (i 0).val < (i 0).val / 1024 * 1024 + 1024; omega
  | ⟨1, _⟩ =>
    show win0_3.index ⟨(i 0).val / 1024, hlt⟩ (1 : Fin 2) * 3072 ≤ (i 1).val
      ∧ (i 1).val < win0_3.index ⟨(i 0).val / 1024, hlt⟩ (1 : Fin 2) * 3072 + 3072
    rw [e7]; omega

/-- The output array after the region's 8 points: the projection of the three input arrays as the region finds them. -/
theorem final0 (c : Dev nD) :
    (dat0 (F := Ideal) V c).arrAt 3 cfg0.N = G0 (V c main_v0) (V c main_v3) (V c main_v5) :=
  (dat0 (F := Ideal) V c).arrAt_eq_of_cover 3 (G0 (V c main_v0) (V c main_v3) (V c main_v5))
    (fun t _ => flushed0_eq V c t) cover0

end Cert.KernelIdeal.Hand

end
-- ==== Proof.KI.Glue.lean ====
/-
  The fused projection array, entry by entry, in terms of the program's arguments.

  Before region 0 the host flattens x (4 × 2048 × 1024) to 8192 rows, stacks the three weights Wq, Wk, Wv
  (3072 × 1024) and transposes the stack (1024 × 3072; the change of float format is the identity on the
  extended reals), and lays the three biases end to end as one row (1 × 3072). Region 0 leaves
  Σ_h x(r, h) · w(h, o) + b(0, o) at (r, o), and the result is reshaped to 4 × 2048 × 3072. So entry
  (n, s, o) of that array is row (n, s) of x against row o of the stacked weights plus the stacked bias at o,
  and a column o = d, 1024 + d, 2048 + d (d < 1024) falls in the piece of Wq, Wk, Wv: the three column bands
  are the projections q = x · Wqᵀ + bq, k = x · Wkᵀ + bk, v = x · Wvᵀ + bv.
-/
import proofs.«116713_j5162550690439_2_alg».proof.Proof.KI.Vals
import proofs.«116713_j5162550690439_2_alg».proof.Proof.KI.Val0
import proofs.«116713_j5162550690439_2_alg».proof.Proof.Spec
import proofs.«116713_j5162550690439_2_alg».proof.Proof.SpecIdx
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## What the host operations wrote -/

/-- The weights stacked: Wq over Wk over Wv. -/
abbrev wcat (c : Dev nD) : S3072x1024.Idx → EReal :=
  concatenate S3072x1024 0 [⟨S1024x1024, (m ((c : Thread nD τ).loc main_arg1) : S1024x1024.Idx → EReal)⟩,
    ⟨S1024x1024, (m ((c : Thread nD τ).loc main_arg3) : S1024x1024.Idx → EReal)⟩,
    ⟨S1024x1024, (m ((c : Thread nD τ).loc main_arg5) : S1024x1024.Idx → EReal)⟩]
    concatenates_S1024x1024_S1024x1024_S1024x1024_S3072x1024_d0

/-- The biases laid end to end: bq, bk, bv. -/
abbrev bcat (c : Dev nD) : S3072.Idx → EReal :=
  concatenate S3072 0 [⟨S1024, (m ((c : Thread nD τ).loc main_arg2) : S1024.Idx → EReal)⟩,
    ⟨S1024, (m ((c : Thread nD τ).loc main_arg4) : S1024.Idx → EReal)⟩,
    ⟨S1024, (m ((c : Thread nD τ).loc main_arg6) : S1024.Idx → EReal)⟩]
    concatenates_S1024_S1024_S1024_S3072_d0

theorem W1_v0 (c : Dev nD) :
    (W1 (F := Ideal) m ρ c (Proc.devRef .tc main_v0) : S8192x1024.Idx → EReal)
      = shapeCast S8192x1024 (m ((c : Thread nD τ).loc main_arg0) : S4x2048x1024.Idx → EReal) shapeCasts_S4x2048x1024_S8192x1024 := by
  show StableHlo.after hostOps0 _ (Proc.devRef .tc main_v0) = _
  after_results
  rfl

theorem W1_v3 (c : Dev nD) :
    (W1 (F := Ideal) m ρ c (Proc.devRef .tc main_v3) : S1024x3072.Idx → EReal)
      = truncf (F := Ideal) (φ := .f32) .bf16 (transpose S1024x3072 [1, 0] (wcat m c) transposes_S3072x1024_S1024x3072_1_0) bitsLt_bf16_f32 := by
  show StableHlo.after hostOps0 _ (Proc.devRef .tc main_v3) = _
  after_results
  rfl

theorem W1_v5 (c : Dev nD) :
    (W1 (F := Ideal) m ρ c (Proc.devRef .tc main_v5) : S1x3072.Idx → EReal)
      = shapeCast S1x3072 (bcat m c) shapeCasts_S3072_S1x3072 := by
  show StableHlo.after hostOps0 _ (Proc.devRef .tc main_v5) = _
  after_results
  rfl

theorem W3_v7 (c : Dev nD) :
    (W3 (F := Ideal) m ρ c (Proc.devRef .tc main_v7) : S4x2048x3072.Idx → EReal)
      = shapeCast S4x2048x3072 (W2 (F := Ideal) m ρ c (Proc.devRef .tc main_v6) : S8192x3072.Idx → EReal) shapeCasts_S8192x3072_S4x2048x3072 := by
  show StableHlo.after hostOps1 _ (Proc.devRef .tc main_v7) = _
  after_results
  rfl

/-! ## The prepared arrays read at an index -/

/-- Region 0's output array at its exit is the projection of the arrays the host operations prepared. -/
theorem W2_v6 (c : Dev nD) :
    (W2 (F := Ideal) m ρ c (Proc.devRef .tc main_v6) : S8192x3072.Idx → EReal)
      = G0 (Vh1 (F := Ideal) m ρ c main_v0) (Vh1 (F := Ideal) m ρ c main_v3) (Vh1 (F := Ideal) m ρ c main_v5) :=
  (W2_arr (F := Ideal) m ρ c 3).trans (final0 (Vh1 (F := Ideal) m ρ) c)

/-- The x rows: row 2048·n + s of the flattened array is (n, s). -/
theorem v0_apply (c : Dev nD) (n : Fin 4) (s : Fin 2048) (h : Fin 1024) (r : Fin 8192) (hr : r.val = 2048 * n.val + s.val) :
    (Vh1 (F := Ideal) m ρ c main_v0 : S8192x1024.Idx → EReal) (ix2 r h)
      = (m ((c : Thread nD τ).loc main_arg0) : S4x2048x1024.Idx → EReal) (ix3 n s h) := by
  show (W1 (F := Ideal) m ρ c (Proc.devRef .tc main_v0) : S8192x1024.Idx → EReal) (ix2 r h) = _
  rw [W1_v0]
  refine shapeCast_apply (s := S4x2048x1024) (t := S8192x1024) _ _ (ix2 r h) (ix3 n s h) ?_
  show (S4x2048x1024.rowMajor (ix3 n s h)).val = (S8192x1024.rowMajor (ix2 r h)).val
  rw [Shape.rowMajor_val_two, Shape.rowMajor_val_three]
  show (n.val * 2048 + s.val) * 1024 + h.val = r.val * 1024 + h.val
  rw [hr]; omega

/-- The transposed weight at (h, o) is the stacked weight at (o, h). -/
theorem v3_apply (c : Dev nD) (h : Fin 1024) (o : Fin 3072) :
    (Vh1 (F := Ideal) m ρ c main_v3 : S1024x3072.Idx → EReal) (ix2 h o) = wcat m c (ix2 o h) := by
  show (W1 (F := Ideal) m ρ c (Proc.devRef .tc main_v3) : S1024x3072.Idx → EReal) (ix2 h o) = _
  rw [W1_v3]
  refine (truncf_apply (φ := .f32) (ψ := .bf16) _ bitsLt_bf16_f32 (ix2 h o)).trans ?_
  exact transpose_ix2_apply (a := 3072) (b := 1024) _ _ h o

/-- The bias row at (0, o) is the concatenated bias at o. -/
theorem v5_apply (c : Dev nD) (o : Fin 3072) :
    (Vh1 (F := Ideal) m ρ c main_v5 : S1x3072.Idx → EReal) (ix2 (0 : Fin 1) o) = bcat m c (ix1 o) := by
  show (W1 (F := Ideal) m ρ c (Proc.devRef .tc main_v5) : S1x3072.Idx → EReal) (ix2 (0 : Fin 1) o) = _
  rw [W1_v5]
  exact shapeCast_a_1a_apply (a := 3072) _ _ 0 o

/-! ## The concatenations read at an index: which piece a column falls in -/

theorem wcat_q (c : Dev nD) (d h : Fin 1024) (o : Fin 3072) (ho : o.val = d.val) :
    wcat m c (ix2 o h) = (m ((c : Thread nD τ).loc main_arg1) : S1024x1024.Idx → EReal) (ix2 d h) := by
  refine concatenate_apply_piece (t := S3072x1024) 0 _ _ (ix2 o h) 0 (by show (0 : ℕ) < 3; omega) S1024x1024 _ rfl rfl 0 rfl (ix2 d h) ?_ ?_
  · intro b hb
    match b with
    | ⟨0, _⟩ => exact absurd rfl hb
    | ⟨1, _⟩ => rfl
  · show 0 + d.val = o.val
    omega

theorem wcat_k (c : Dev nD) (d h : Fin 1024) (o : Fin 3072) (ho : o.val = 1024 + d.val) :
    wcat m c (ix2 o h) = (m ((c : Thread nD τ).loc main_arg3) : S1024x1024.Idx → EReal) (ix2 d h) := by
  refine concatenate_apply_piece (t := S3072x1024) 0 _ _ (ix2 o h) 1 (by show (1 : ℕ) < 3; omega) S1024x1024 _ rfl rfl 1024 rfl (ix2 d h) ?_ ?_
  · intro b hb
    match b with
    | ⟨0, _⟩ => exact absurd rfl hb
    | ⟨1, _⟩ => rfl
  · show 1024 + d.val = o.val
    omega

theorem wcat_v (c : Dev nD) (d h : Fin 1024) (o : Fin 3072) (ho : o.val = 2048 + d.val) :
    wcat m c (ix2 o h) = (m ((c : Thread nD τ).loc main_arg5) : S1024x1024.Idx → EReal) (ix2 d h) := by
  refine concatenate_apply_piece (t := S3072x1024) 0 _ _ (ix2 o h) 2 (by show (2 : ℕ) < 3; omega) S1024x1024 _ rfl rfl 2048 rfl (ix2 d h) ?_ ?_
  · intro b hb
    match b with
    | ⟨0, _⟩ => exact absurd rfl hb
    | ⟨1, _⟩ => rfl
  · show 2048 + d.val = o.val
    omega

theorem bcat_q (c : Dev nD) (d : Fin 1024) (o : Fin 3072) (ho : o.val = d.val) :
    bcat m c (ix1 o) = (m ((c : Thread nD τ).loc main_arg2) : S1024.Idx → EReal) (ix1 d) := by
  refine concatenate_apply_piece (t := S3072) 0 _ _ (ix1 o) 0 (by show (0 : ℕ) < 3; omega) S1024 _ rfl rfl 0 rfl (ix1 d) ?_ ?_
  · intro b hb
    match b with
    | ⟨0, _⟩ => exact absurd rfl hb
  · show 0 + d.val = o.val
    omega

theorem bcat_k (c : Dev nD) (d : Fin 1024) (o : Fin 3072) (ho : o.val = 1024 + d.val) :
    bcat m c (ix1 o) = (m ((c : Thread nD τ).loc main_arg4) : S1024.Idx → EReal) (ix1 d) := by
  refine concatenate_apply_piece (t := S3072) 0 _ _ (ix1 o) 1 (by show (1 : ℕ) < 3; omega) S1024 _ rfl rfl 1024 rfl (ix1 d) ?_ ?_
  · intro b hb
    match b with
    | ⟨0, _⟩ => exact absurd rfl hb
  · show 1024 + d.val = o.val
    omega

theorem bcat_v (c : Dev nD) (d : Fin 1024) (o : Fin 3072) (ho : o.val = 2048 + d.val) :
    bcat m c (ix1 o) = (m ((c : Thread nD τ).loc main_arg6) : S1024.Idx → EReal) (ix1 d) := by
  refine concatenate_apply_piece (t := S3072) 0 _ _ (ix1 o) 2 (by show (2 : ℕ) < 3; omega) S1024 _ rfl rfl 2048 rfl (ix1 d) ?_ ?_
  · intro b hb
    match b with
    | ⟨0, _⟩ => exact absurd rfl hb
  · show 2048 + d.val = o.val
    omega

/-! ## The three column bands -/

/-- The fused projection array at (n, s, o): row (n, s) of x against row o of the stacked weights, plus the
    concatenated bias at o. -/
theorem v7_apply (c : Dev nD) (n : Fin 4) (s : Fin 2048) (o : Fin 3072) :
    (Vh3 (F := Ideal) m ρ c main_v7 : S4x2048x3072.Idx → EReal) (ix3 n s o)
      = (∑ h : Fin 1024, Cert.Attn.arr3 (m ((c : Thread nD τ).loc main_arg0)) n s h * wcat m c (ix2 o h))
        + bcat m c (ix1 o) := by
  have hn := n.isLt
  have hs := s.isLt
  let r : Fin 8192 := ⟨2048 * n.val + s.val, by omega⟩
  show (W3 (F := Ideal) m ρ c (Proc.devRef .tc main_v7) : S4x2048x3072.Idx → EReal) (ix3 n s o) = _
  rw [W3_v7]
  refine (shapeCast_apply (s := S8192x3072) (t := S4x2048x3072) _ _ (ix3 n s o) (ix2 r o) ?_).trans ?_
  · show (S8192x3072.rowMajor (ix2 r o)).val = (S4x2048x3072.rowMajor (ix3 n s o)).val
    rw [Shape.rowMajor_val_two, Shape.rowMajor_val_three]
    show (2048 * n.val + s.val) * 3072 + o.val = (n.val * 2048 + s.val) * 3072 + o.val
    omega
  rw [W2_v6, G0_apply]
  refine congrArg₂ (· + ·) (Finset.sum_congr rfl fun h _ => ?_) (v5_apply m ρ c o)
  rw [v0_apply m ρ c n s h r rfl, v3_apply]
  rfl

open Cert.Attn in
theorem qkv_q (c : Dev nD) (n : Fin 4) (s : Fin 2048) (d : Fin 1024) :
    (Vh3 (F := Ideal) m ρ c main_v7 : S4x2048x3072.Idx → EReal) (ix3 n s ⟨d.val, by omega⟩)
      = proj (arr3 (m ((c : Thread nD τ).loc main_arg0))) (arr2 (m ((c : Thread nD τ).loc main_arg1)))
          (arr1 (m ((c : Thread nD τ).loc main_arg2))) n s d := by
  rw [v7_apply]
  refine congrArg₂ (· + ·) (Finset.sum_congr rfl fun h _ => ?_) (bcat_q m c d _ rfl)
  rw [wcat_q m c d h _ rfl]
  rfl

open Cert.Attn in
theorem qkv_k (c : Dev nD) (n : Fin 4) (s : Fin 2048) (d : Fin 1024) :
    (Vh3 (F := Ideal) m ρ c main_v7 : S4x2048x3072.Idx → EReal) (ix3 n s ⟨1024 + d.val, by omega⟩)
      = proj (arr3 (m ((c : Thread nD τ).loc main_arg0))) (arr2 (m ((c : Thread nD τ).loc main_arg3)))
          (arr1 (m ((c : Thread nD τ).loc main_arg4))) n s d := by
  rw [v7_apply]
  refine congrArg₂ (· + ·) (Finset.sum_congr rfl fun h _ => ?_) (bcat_k m c d _ rfl)
  rw [wcat_k m c d h _ rfl]
  rfl

open Cert.Attn in
theorem qkv_v (c : Dev nD) (n : Fin 4) (s : Fin 2048) (d : Fin 1024) :
    (Vh3 (F := Ideal) m ρ c main_v7 : S4x2048x3072.Idx → EReal) (ix3 n s ⟨2048 + d.val, by omega⟩)
      = proj (arr3 (m ((c : Thread nD τ).loc main_arg0))) (arr2 (m ((c : Thread nD τ).loc main_arg5)))
          (arr1 (m ((c : Thread nD τ).loc main_arg6))) n s d := by
  rw [v7_apply]
  refine congrArg₂ (· + ·) (Finset.sum_congr rfl fun h _ => ?_) (bcat_v m c d _ rfl)
  rw [wcat_v m c d h _ rfl]
  rfl

end Cert.KernelIdeal.Hand

end
-- ==== Proof.KI.Val1Blk.lean ====
/-
  Region 1 (the online softmax) reads three blocks of one 4 × 2048 × 3072 array at each of its 32 grid points
  and writes one block of its 4 × 2048 × 1024 output. With the point t = 8·qi + kj:

    the query block is rows 512·qi … 512·qi + 511, columns 0 … 1023;
    the key block is rows 256·kj … 256·kj + 255, columns 1024 … 2047;
    the value block is rows 256·kj … 256·kj + 255, columns 2048 … 3071;
    the output block is rows 512·qi … 512·qi + 511 of the output, written back when kj = 7.

  An element of a block sits in its array, on each axis, at block index × block size + its coordinate in the block.
  The four output blocks written back (qi = 0 … 3) tile the output's rows.
-/
import proofs.«116713_j5162550690439_2_alg».proof.Proof.KI.Data
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps, decided over the grid: the query and output blocks move with qi = t / 8, the key and
    value blocks with kj = t % 8; the key block is the second, the value block the third third of the columns. -/
theorem idx_facts1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 1
    ∧ win1_2.index t (0 : Fin 3) = 0 ∧ win1_2.index t (1 : Fin 3) = t.val % 8 ∧ win1_2.index t (2 : Fin 3) = 2
    ∧ win1_3.index t (0 : Fin 3) = 0 ∧ win1_3.index t (1 : Fin 3) = t.val / 8 ∧ win1_3.index t (2 : Fin 3) = 0 :=
  (by decide +kernel : ∀ t : Fin grid1.N, _)

/-- The query block at point t: rows 512·(t / 8) + r, the first 1024 columns. -/
theorem iblk1_0_apply (c : Dev nD) (t : Fin cfg1.N) (n : Fin 4) (r : Fin 512) (d : Fin 1024) (s : Fin 2048) (e : Fin 3072)
    (hs : s.val = 512 * (t.val / 8) + r.val) (he : e.val = d.val) :
    (iblk1 V c 0 t : Vec Ideal S4x512x1024 .bf16) (ix3 n r d) = (V c main_v7 : S4x2048x3072.Idx → EReal) (ix3 n s e) := by
  obtain ⟨e0, e1, e2, -⟩ := idx_facts1 t
  unfold iblk1
  rw [View.read_apply]
  show V c main_v7 _ = V c main_v7 _
  refine congrArg (V c main_v7) ?_
  funext a
  apply Fin.ext
  match a with
  | ⟨0, _⟩ => show win1_0.index t 0 * 4 + 1 * n.val = n.val; rw [e0]; omega
  | ⟨1, _⟩ => show win1_0.index t 1 * 512 + 1 * r.val = s.val; rw [e1, hs]; omega
  | ⟨2, _⟩ => show win1_0.index t 2 * 1024 + 1 * d.val = e.val; rw [e2, he]; omega

/-- The key block at point t: rows 256·(t % 8) + r, columns 1024 … 2047. -/
theorem iblk1_1_apply (c : Dev nD) (t : Fin cfg1.N) (n : Fin 4) (r : Fin 256) (d : Fin 1024) (s : Fin 2048) (e : Fin 3072)
    (hs : s.val = 256 * (t.val % 8) + r.val) (he : e.val = 1024 + d.val) :
    (iblk1 V c 1 t : Vec Ideal S4x256x1024 .bf16) (ix3 n r d) = (V c main_v7 : S4x2048x3072.Idx → EReal) (ix3 n s e) := by
  obtain ⟨-, -, -, e0, e1, e2, -⟩ := idx_facts1 t
  unfold iblk1
  rw [View.read_apply]
  show V c main_v7 _ = V c main_v7 _
  refine congrArg (V c main_v7) ?_
  funext a
  apply Fin.ext
  match a with
  | ⟨0, _⟩ => show win1_1.index t 0 * 4 + 1 * n.val = n.val; rw [e0]; omega
  | ⟨1, _⟩ => show win1_1.index t 1 * 256 + 1 * r.val = s.val; rw [e1, hs]; omega
  | ⟨2, _⟩ => show win1_1.index t 2 * 1024 + 1 * d.val = e.val; rw [e2, he]; omega

/-- The value block at point t: rows 256·(t % 8) + r, columns 2048 … 3071. -/
theorem iblk1_2_apply (c : Dev nD) (t : Fin cfg1.N) (n : Fin 4) (r : Fin 256) (d : Fin 1024) (s : Fin 2048) (e : Fin 3072)
    (hs : s.val = 256 * (t.val % 8) + r.val) (he : e.val = 2048 + d.val) :
    (iblk1 V c 2 t : Vec Ideal S4x256x1024 .bf16) (ix3 n r d) = (V c main_v7 : S4x2048x3072.Idx → EReal) (ix3 n s e) := by
  obtain ⟨-, -, -, -, -, -, e0, e1, e2, -⟩ := idx_facts1 t
  unfold iblk1
  rw [View.read_apply]
  show V c main_v7 _ = V c main_v7 _
  refine congrArg (V c main_v7) ?_
  funext a
  apply Fin.ext
  match a with
  | ⟨0, _⟩ => show win1_2.index t 0 * 4 + 1 * n.val = n.val; rw [e0]; omega
  | ⟨1, _⟩ => show win1_2.index t 1 * 256 + 1 * r.val = s.val; rw [e1, hs]; omega
  | ⟨2, _⟩ => show win1_2.index t 2 * 1024 + 1 * d.val = e.val; rw [e2, he]; omega

/-- The output's block at point t, read off a whole array: its rows 512·(t / 8) + r. -/
theorem oblk1_apply (G : S4x2048x1024.Idx → EReal) (t : Fin cfg1.N) (n : Fin 4) (r : Fin 512) (d : Fin 1024) (s : Fin 2048)
    (hs : s.val = 512 * (t.val / 8) + r.val) :
    ((cfg1.win 3).blk t).view.read (Elt Ideal) G (ix3 n r d) = G (ix3 n s d) := by
  obtain ⟨-, -, -, -, -, -, -, -, -, e0, e1, e2⟩ := idx_facts1 t
  rw [View.read_apply]
  refine congrArg G ?_
  funext a
  apply Fin.ext
  match a with
  | ⟨0, _⟩ => show win1_3.index t 0 * 4 + 1 * n.val = n.val; rw [e0]; omega
  | ⟨1, _⟩ => show win1_3.index t 1 * 512 + 1 * r.val = s.val; rw [e1, hs]; omega
  | ⟨2, _⟩ => show win1_3.index t 2 * 1024 + 1 * d.val = d.val; rw [e2]; omega

/-- An index of the output array is in point t's block iff each coordinate is in the block's range on its axis. -/
theorem mem_blk1 (t : Fin cfg1.N) (i : S4x2048x1024.Idx) :
    i ∈ ((cfg1.win 3).blk t).view.set ↔ ∀ a : Fin 3, win1_3.index t a * S4x512x1024.size a ≤ (i a).val
      ∧ (i a).val < win1_3.index t a * S4x512x1024.size a + S4x512x1024.size a := by
  show i ∈ ((View.whole main_v8).slice (win1_3.rect t)).set ↔ _
  rw [View.set_slice_whole, Rect.mem_set_unit]
  exact Iff.rfl

/-- The four blocks written back tile the output's rows: row s is in the block of the point 8·(s / 512) + 7. -/
theorem cover1 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 32 := N_1
  have hlt : 8 * ((i 1).val / 512) + 7 < cfg1.N := by rw [hN]; omega
  obtain ⟨-, -, -, -, -, -, -, -, -, e0, e1, e2⟩ := idx_facts1 ⟨8 * ((i 1).val / 512) + 7, hlt⟩
  refine ⟨⟨8 * ((i 1).val / 512) + 7, hlt⟩, (flush1_3 _).mpr (by show (8 * ((i 1).val / 512) + 7) % 8 = 7; omega), ?_⟩
  rw [mem_blk1]
  intro a
  match a with
  | ⟨0, _⟩ =>
    show win1_3.index ⟨8 * ((i 1).val / 512) + 7, hlt⟩ (0 : Fin 3) * 4 ≤ (i 0).val
      ∧ (i 0).val < win1_3.index ⟨8 * ((i 1).val / 512) + 7, hlt⟩ (0 : Fin 3) * 4 + 4
    rw [e0]; omega
  | ⟨1, _⟩ =>
    show win1_3.index ⟨8 * ((i 1).val / 512) + 7, hlt⟩ (1 : Fin 3) * 512 ≤ (i 1).val
      ∧ (i 1).val < win1_3.index ⟨8 * ((i 1).val / 512) + 7, hlt⟩ (1 : Fin 3) * 512 + 512
    rw [e1]; show (8 * ((i 1).val / 512) + 7) / 8 * 512 ≤ (i 1).val ∧ (i 1).val < (8 * ((i 1).val / 512) + 7) / 8 * 512 + 512; omega
  | ⟨2, _⟩ =>
    show win1_3.index ⟨8 * ((i 1).val / 512) + 7, hlt⟩ (2 : Fin 3) * 1024 ≤ (i 2).val
      ∧ (i 2).val < win1_3.index ⟨8 * ((i 1).val / 512) + 7, hlt⟩ (2 : Fin 3) * 1024 + 1024
    rw [e2]; omega

end Cert.KernelIdeal.Hand

end
-- ==== Proof.KI.Val1Pay.lean ====
/-
  Region 1 (the online softmax) at the ideal values: each value the body computes, read at an index.

  With q a 4 × 512 × 1024 block of queries, k and v 4 × 256 × 1024 blocks of keys and values, and (m, l, acc) the
  running maximum, denominator and numerator of the rows, the body forms the scores
  s(n,i,j) = (Σ_d q(n,i,d) · k(n,j,d)) · 2⁻⁵, the new maximum max m (max_j s), the rescaling factor
  exp (m - m'), the weights exp (s - m'), the new denominator and the new numerator, and at the last key block
  numerator over denominator. A change of float format is the identity on the extended reals.
-/
import proofs.«116713_j5162550690439_2_alg».proof.Proof.KI.Data
import proofs.«116713_j5162550690439_2_alg».proof.Proof.Spec
import proofs.«116713_j5162550690439_2_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.Attn

/-! ## Two layout operations at an index: a trailing unit axis added, and broadcast -/

/-- An [a, b] array cast to [a, b, 1] reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand's one entry of row (i, j). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## The two lane reductions at an index -/

/-- The maximum over the 256 scores of a row, from -∞. -/
theorem rowMax_apply (s : FVec Ideal S4x512x256 .f32) (n : Fin 4) (i : Fin 512) :
    multiReduction .maximumf [2] S4x512 s 0xFF800000#32 reduces_S4x512x256_S4x512 (.inl rfl) rfl (ix2 n i)
      = (Finset.univ : Finset (Fin 256)).fold max (Ideal.ofBits .f32 0xFF800000#32) (fun kk => s (ix3 n i kk)) := by
  refine (Ideal.multiReduction_maximumf_single s 0xFF800000#32 reduces_S4x512x256_S4x512 (.inl rfl) rfl (ix2 n i)).trans ?_
  refine congrArg (fun f => (Finset.univ : Finset (Fin 256)).fold max (Ideal.ofBits .f32 0xFF800000#32) f) (funext fun kk => ?_)
  refine congrArg s (funext fun a => Fin.ext ?_)
  match a with
  | ⟨0, _⟩ => rfl
  | ⟨1, _⟩ => rfl
  | ⟨2, _⟩ => rfl

/-- The sum over the 256 weights of a row. -/
theorem rowSum_apply (s : FVec Ideal S4x512x256 .f32) (n : Fin 4) (i : Fin 512) :
    multiReduction .add [2] S4x512 s 0x00000000#32 reduces_S4x512x256_S4x512 (.inl rfl) rfl (ix2 n i)
      = ∑ kk : Fin 256, s (ix3 n i kk) := by
  refine (Ideal.multiReduction_add_single s 0x00000000#32 reduces_S4x512x256_S4x512 (.inl rfl) rfl (ix2 n i)).trans ?_
  refine Finset.sum_congr rfl fun kk _ => ?_
  refine congrArg s (funext fun a => Fin.ext ?_)
  match a with
  | ⟨0, _⟩ => rfl
  | ⟨1, _⟩ => rfl
  | ⟨2, _⟩ => rfl

/-! ## The two batched matrix products at an index -/

/-- The scores' contraction: queries against keys over the feature axis, batch by batch. -/
abbrev dotQK : DotDims S4x512x1024 S4x256x1024 S4x512x256 := dot_S4x512x1024_S4x256x1024_S4x512x256_2_2_1_1_0_0
/-- The numerator's contraction: weights against values over the key axis, batch by batch. -/
abbrev dotPV : DotDims S4x512x256 S4x256x1024 S4x512x1024 := dot_S4x512x256_S4x256x1024_S4x512x1024_2_1_1_2_0_0

theorem lhsQK_0 (i : S4x512x256.Idx) (q : dotQK.contr.Idx) : (dotQK.lhsIdx i q 0).val = (i 0).val := by
  unfold DotDims.lhsIdx
  rw [dif_pos (show (0 : Fin S4x512x1024.rank) ∈ dotQK.lhsBatch by decide)]
  rfl
theorem lhsQK_1 (i : S4x512x256.Idx) (q : dotQK.contr.Idx) : (dotQK.lhsIdx i q 1).val = (i 1).val := by
  unfold DotDims.lhsIdx
  rw [dif_neg (show ¬(1 : Fin S4x512x1024.rank) ∈ dotQK.lhsBatch by decide), dif_pos (show (1 : Fin S4x512x1024.rank) ∈ dotQK.lhsNonContracting by decide)]
  rfl
theorem lhsQK_2 (i : S4x512x256.Idx) (q : dotQK.contr.Idx) : (dotQK.lhsIdx i q 2).val = (q ⟨0, by decide⟩).val :=
  dotQK.lhsIdx_val_of_single rfl i q
theorem rhsQK_0 (i : S4x512x256.Idx) (q : dotQK.contr.Idx) : (dotQK.rhsIdx i q 0).val = (i 0).val := by
  unfold DotDims.rhsIdx
  rw [dif_pos (show (0 : Fin S4x256x1024.rank) ∈ dotQK.rhsBatch by decide)]
  rfl
theorem rhsQK_1 (i : S4x512x256.Idx) (q : dotQK.contr.Idx) : (dotQK.rhsIdx i q 1).val = (i 2).val := by
  unfold DotDims.rhsIdx
  rw [dif_neg (show ¬(1 : Fin S4x256x1024.rank) ∈ dotQK.rhsBatch by decide), dif_pos (show (1 : Fin S4x256x1024.rank) ∈ dotQK.rhsNonContracting by decide)]
  rfl
theorem rhsQK_2 (i : S4x512x256.Idx) (q : dotQK.contr.Idx) : (dotQK.rhsIdx i q 2).val = (q ⟨0, by decide⟩).val :=
  dotQK.rhsIdx_val_of_single rfl i q

/-- Queries against keys, accumulated onto zero: at (n, i, j) the sum over the features of q(n,i,·) · k(n,j,·). -/
theorem matmulQK_apply (q : FVec Ideal S4x512x1024 .bf16) (k : FVec Ideal S4x256x1024 .bf16) (n : Fin 4) (i : Fin 512) (j : Fin 256) :
    matmul dotQK none q k (constant S4x512x256 .f32 0x00000000#32) (ix3 n i j) = ∑ d : Fin 1024, q (ix3 n i d) * k (ix3 n j d) := by
  refine (Ideal.matmul_constant_zero_apply dotQK none q k (ix3 n i j)).trans ?_
  rw [← Equiv.sum_comp (contrEquiv1 dotQK 1024 rfl rfl).symm]
  refine Finset.sum_congr rfl fun d _ => ?_
  have hd := contrEquiv1_symm_val dotQK 1024 rfl rfl d
  have el : dotQK.lhsIdx (ix3 n i j) ((contrEquiv1 dotQK 1024 rfl rfl).symm d) = ix3 n i d := funext fun a => Fin.ext (by
    match a with
    | ⟨0, _⟩ => exact lhsQK_0 _ _
    | ⟨1, _⟩ => exact lhsQK_1 _ _
    | ⟨2, _⟩ => exact (lhsQK_2 _ _).trans hd)
  have er : dotQK.rhsIdx (ix3 n i j) ((contrEquiv1 dotQK 1024 rfl rfl).symm d) = ix3 n j d := funext fun a => Fin.ext (by
    match a with
    | ⟨0, _⟩ => exact rhsQK_0 _ _
    | ⟨1, _⟩ => exact rhsQK_1 _ _
    | ⟨2, _⟩ => exact (rhsQK_2 _ _).trans hd)
  rw [el, er]

theorem lhsPV_0 (i : S4x512x1024.Idx) (q : dotPV.contr.Idx) : (dotPV.lhsIdx i q 0).val = (i 0).val := by
  unfold DotDims.lhsIdx
  rw [dif_pos (show (0 : Fin S4x512x256.rank) ∈ dotPV.lhsBatch by decide)]
  rfl
theorem lhsPV_1 (i : S4x512x1024.Idx) (q : dotPV.contr.Idx) : (dotPV.lhsIdx i q 1).val = (i 1).val := by
  unfold DotDims.lhsIdx
  rw [dif_neg (show ¬(1 : Fin S4x512x256.rank) ∈ dotPV.lhsBatch by decide), dif_pos (show (1 : Fin S4x512x256.rank) ∈ dotPV.lhsNonContracting by decide)]
  rfl
theorem lhsPV_2 (i : S4x512x1024.Idx) (q : dotPV.contr.Idx) : (dotPV.lhsIdx i q 2).val = (q ⟨0, by decide⟩).val :=
  dotPV.lhsIdx_val_of_single rfl i q
theorem rhsPV_0 (i : S4x512x1024.Idx) (q : dotPV.contr.Idx) : (dotPV.rhsIdx i q 0).val = (i 0).val := by
  unfold DotDims.rhsIdx
  rw [dif_pos (show (0 : Fin S4x256x1024.rank) ∈ dotPV.rhsBatch by decide)]
  rfl
theorem rhsPV_1 (i : S4x512x1024.Idx) (q : dotPV.contr.Idx) : (dotPV.rhsIdx i q 1).val = (q ⟨0, by decide⟩).val :=
  dotPV.rhsIdx_val_of_single rfl i q
theorem rhsPV_2 (i : S4x512x1024.Idx) (q : dotPV.contr.Idx) : (dotPV.rhsIdx i q 2).val = (i 2).val := by
  unfold DotDims.rhsIdx
  rw [dif_neg (show ¬(2 : Fin S4x256x1024.rank) ∈ dotPV.rhsBatch by decide), dif_pos (show (2 : Fin S4x256x1024.rank) ∈ dotPV.rhsNonContracting by decide)]
  rfl

/-- Weights against values, accumulated onto zero: at (n, i, d) the sum over the keys of p(n,i,·) · v(n,·,d). -/
theorem matmulPV_apply (p : FVec Ideal S4x512x256 .bf16) (v : FVec Ideal S4x256x1024 .bf16) (n : Fin 4) (i : Fin 512) (d : Fin 1024) :
    matmul dotPV none p v (constant S4x512x1024 .f32 0x00000000#32) (ix3 n i d) = ∑ j : Fin 256, p (ix3 n i j) * v (ix3 n j d) := by
  refine (Ideal.matmul_constant_zero_apply dotPV none p v (ix3 n i d)).trans ?_
  rw [← Equiv.sum_comp (contrEquiv1 dotPV 256 rfl rfl).symm]
  refine Finset.sum_congr rfl fun j _ => ?_
  have hj := contrEquiv1_symm_val dotPV 256 rfl rfl j
  have el : dotPV.lhsIdx (ix3 n i d) ((contrEquiv1 dotPV 256 rfl rfl).symm j) = ix3 n i j := funext fun a => Fin.ext (by
    match a with
    | ⟨0, _⟩ => exact lhsPV_0 _ _
    | ⟨1, _⟩ => exact lhsPV_1 _ _
    | ⟨2, _⟩ => exact (lhsPV_2 _ _).trans hj)
  have er : dotPV.rhsIdx (ix3 n i d) ((contrEquiv1 dotPV 256 rfl rfl).symm j) = ix3 n j d := funext fun a => Fin.ext (by
    match a with
    | ⟨0, _⟩ => exact rhsPV_0 _ _
    | ⟨1, _⟩ => exact (rhsPV_1 _ _).trans hj
    | ⟨2, _⟩ => exact rhsPV_2 _ _)
  rw [el, er]

/-! ## The body's values at an index -/

/-- The scores: queries against keys, scaled by the literal 2⁻⁵. -/
theorem pay8_apply (q : FVec Ideal S4x512x1024 .bf16) (k : FVec Ideal S4x256x1024 .bf16) (n : Fin 4) (i : Fin 512) (j : Fin 256) :
    k1_pay8 (F := Ideal) q k (ix3 n i j)
      = (∑ d : Fin 1024, q (ix3 n i d) * k (ix3 n j d)) * Ideal.ofBits .f32 0x3D000000#32 := by
  unfold k1_pay8
  simp only [shapeCast_self]
  refine (mulf_apply (φ := .f32) _ _ (ix3 n i j)).trans ?_
  exact congrArg (· * Ideal.ofBits .f32 0x3D000000#32) (matmulQK_apply q k n i j)

/-- The new running maximum of row (n, i): the old one against the largest of the row's 256 scores. -/
theorem pay9_apply (q : FVec Ideal S4x512x1024 .bf16) (k : FVec Ideal S4x256x1024 .bf16) (m : FVec Ideal S4x512x1 .f32)
    (n : Fin 4) (i : Fin 512) (u : Fin 1) :
    k1_pay9 (F := Ideal) q k m (ix3 n i u)
      = max (m (ix3 n i u)) ((Finset.univ : Finset (Fin 256)).fold max (Ideal.ofBits .f32 0xFF800000#32)
          (fun j => k1_pay8 (F := Ideal) q k (ix3 n i j))) := by
  unfold k1_pay9
  refine (maximumf_apply (φ := .f32) _ _ (ix3 n i u)).trans ?_
  refine congrArg (max (m (ix3 n i u))) ?_
  refine (shapeCast_ab_ab1_apply _ shapeCasts_S4x512_S4x512x1 n i u).trans ?_
  exact rowMax_apply (k1_pay8 (F := Ideal) q k) n i

/-- The rescaling factor of row (n, i): exp (m - m'), with m the maximum the row had and m' the new one. -/
theorem pay10_apply (q : FVec Ideal S4x512x1024 .bf16) (k : FVec Ideal S4x256x1024 .bf16) (m m₀ : FVec Ideal S4x512x1 .f32)
    (n : Fin 4) (i : Fin 512) (u : Fin 1) :
    k1_pay10 (F := Ideal) q k m m₀ (ix3 n i u) = Ideal.exp (m₀ (ix3 n i u) - k1_pay9 (F := Ideal) q k m (ix3 n i u)) := rfl

/-- The weights: exp (s - m') of each score against the row's new maximum. -/
theorem pay11_apply (q : FVec Ideal S4x512x1024 .bf16) (k : FVec Ideal S4x256x1024 .bf16) (m : FVec Ideal S4x512x1 .f32)
    (n : Fin 4) (i : Fin 512) (j : Fin 256) :
    k1_pay11 (F := Ideal) q k m (ix3 n i j)
      = Ideal.exp (k1_pay8 (F := Ideal) q k (ix3 n i j) - k1_pay9 (F := Ideal) q k m (ix3 n i (0 : Fin 1))) := by
  unfold k1_pay11
  show Ideal.exp (k1_pay8 (F := Ideal) q k (ix3 n i j)
    - broadcastTo S4x512x256 (k1_pay9 (F := Ideal) q k m) broadcasts_S4x512x1_S4x512x256 (ix3 n i j)) = _
  rw [broadcastTo_ab1_abc_apply (k1_pay9 (F := Ideal) q k m) broadcasts_S4x512x1_S4x512x256 n i j]

/-- The new running denominator of row (n, i): the old one rescaled, plus the sum of the row's 256 weights. -/
theorem pay12_apply (q : FVec Ideal S4x512x1024 .bf16) (k : FVec Ideal S4x256x1024 .bf16) (m m₀ l : FVec Ideal S4x512x1 .f32)
    (n : Fin 4) (i : Fin 512) (u : Fin 1) :
    k1_pay12 (F := Ideal) q k m m₀ l (ix3 n i u)
      = k1_pay10 (F := Ideal) q k m m₀ (ix3 n i u) * l (ix3 n i u) + ∑ j : Fin 256, k1_pay11 (F := Ideal) q k m (ix3 n i j) := by
  unfold k1_pay12
  simp only [shapeCast_self]
  refine (addf_apply (φ := .f32) _ _ (ix3 n i u)).trans ?_
  refine congrArg₂ (· + ·) (mulf_apply (φ := .f32) _ _ (ix3 n i u)) ?_
  refine (shapeCast_ab_ab1_apply _ shapeCasts_S4x512_S4x512x1 n i u).trans ?_
  exact rowSum_apply (k1_pay11 (F := Ideal) q k m) n i

/-- The new running numerator of row (n, i) at feature d: the old one rescaled, plus the weights against the values. -/
theorem pay1_apply (v : FVec Ideal S4x256x1024 .bf16) (a : FVec Ideal S4x512x1 .f32) (p : FVec Ideal S4x512x256 .f32)
    (acc : FVec Ideal S4x512x1024 .f32) (n : Fin 4) (i : Fin 512) (d : Fin 1024) :
    k1_pay1 (F := Ideal) v a p acc (ix3 n i d)
      = a (ix3 n i (0 : Fin 1)) * acc (ix3 n i d) + ∑ j : Fin 256, p (ix3 n i j) * v (ix3 n j d) := by
  unfold k1_pay1
  simp only [shapeCast_self]
  refine (addf_apply (φ := .f32) _ _ (ix3 n i d)).trans ?_
  refine congrArg₂ (· + ·) ?_ ?_
  · refine (mulf_apply (φ := .f32) _ _ (ix3 n i d)).trans ?_
    exact congrArg (· * acc (ix3 n i d)) (broadcastTo_ab1_abc_apply a broadcasts_S4x512x1_S4x512x1024 n i d)
  · exact matmulPV_apply (truncf .bf16 p bitsLt_bf16_f32) v n i d

/-- The output at the last key block: numerator over denominator. -/
theorem pay3_apply (acc : FVec Ideal S4x512x1024 .f32) (l : FVec Ideal S4x512x1 .f32) (n : Fin 4) (i : Fin 512) (d : Fin 1024) :
    k1_pay3 (F := Ideal) acc l (ix3 n i d) = Ideal.div (acc (ix3 n i d)) (l (ix3 n i (0 : Fin 1))) := by
  unfold k1_pay3
  refine (divf_apply (φ := .f32) _ _ (ix3 n i d)).trans ?_
  exact congrArg (Ideal.div (acc (ix3 n i d))) (broadcastTo_ab1_abc_apply l broadcasts_S4x512x1_S4x512x1024 n i d)

/-- The stored maximum is the computed one; the value block is read as it is. -/
theorem pay2_eq (m : FVec Ideal S4x512x1 .f32) : k1_pay2 (F := Ideal) m = m := by
  unfold k1_pay2; exact shapeCast_self _ _
theorem pay7_eq (v : FVec Ideal S4x256x1024 .bf16) : k1_pay7 (F := Ideal) v = v := by
  unfold k1_pay7; exact shapeCast_self _ _

/-- The reset state's three literals. -/
theorem pay4_apply (j : S4x512x1.Idx) : k1_pay4 (F := Ideal) j = Ideal.ofBits .f32 0xFF800000#32 := by
  unfold k1_pay4; simp only [shapeCast_self]; rfl
theorem pay5_apply (j : S4x512x1.Idx) : k1_pay5 (F := Ideal) j = Ideal.ofBits .f32 0x00000000#32 := by
  unfold k1_pay5; simp only [shapeCast_self]; rfl
theorem pay6_apply (j : S4x512x1024.Idx) : k1_pay6 (F := Ideal) j = Ideal.ofBits .f32 0x00000000#32 := by
  unfold k1_pay6; simp only [shapeCast_self]; rfl

/-! ## One step of the recurrence, row by row -/

/-- Row (n, r) of a state of the recurrence. -/
def rowOf (s : St1 Ideal) (n : Fin 4) (r : Fin 512) : RowSt :=
  (s.1 (ix3 n r (0 : Fin 1)), s.2.1 (ix3 n r (0 : Fin 1)), fun d => s.2.2 (ix3 n r d))

/-- The scaled scores of row (n, r) of a query block against the 256 rows of a key block. -/
def scBlk (qb : FVec Ideal S4x512x1024 .bf16) (kb : FVec Ideal S4x256x1024 .bf16) (n : Fin 4) (r : Fin 512) : Fin 256 → EReal :=
  fun kk => (∑ d : Fin 1024, qb (ix3 n r d) * kb (ix3 n kk d)) * Ideal.ofBits .f32 0x3D000000#32

/-- The body's scores of a row are the row's scaled scores. -/
theorem pay8_row (qb : FVec Ideal S4x512x1024 .bf16) (kb : FVec Ideal S4x256x1024 .bf16) (n : Fin 4) (r : Fin 512) :
    (fun j => k1_pay8 (F := Ideal) qb kb (ix3 n r j)) = scBlk qb kb n r :=
  funext fun j => pay8_apply qb kb n r j

/-- The body's new maximum of a row, over the row's scaled scores. -/
theorem pay9_row (qb : FVec Ideal S4x512x1024 .bf16) (kb : FVec Ideal S4x256x1024 .bf16) (m : FVec Ideal S4x512x1 .f32)
    (n : Fin 4) (r : Fin 512) :
    k1_pay9 (F := Ideal) qb kb m (ix3 n r (0 : Fin 1))
      = max (m (ix3 n r (0 : Fin 1))) ((Finset.univ : Finset (Fin 256)).fold max (Ideal.ofBits .f32 0xFF800000#32) (scBlk qb kb n r)) := by
  refine (pay9_apply qb kb m n r (0 : Fin 1)).trans ?_
  rw [pay8_row qb kb n r]

/-- One step of the body's recurrence on blocks is, on each row, one step of the row recurrence on the row's
    scaled scores and the value block's rows. -/
theorem rowOf_st1Step (qb : FVec Ideal S4x512x1024 .bf16) (kb vb : FVec Ideal S4x256x1024 .bf16) (s : St1 Ideal) (n : Fin 4) (r : Fin 512) :
    rowOf (st1Step qb kb vb s) n r = rowStep (scBlk qb kb n r) (fun kk d => vb (ix3 n kk d)) (rowOf s n r) := by
  obtain ⟨m, l, acc⟩ := s
  have e9 := pay9_row qb kb m n r
  have hm : mNew qb kb m (ix3 n r (0 : Fin 1))
      = max (m (ix3 n r (0 : Fin 1))) ((Finset.univ : Finset (Fin 256)).fold max (Ideal.ofBits .f32 0xFF800000#32) (scBlk qb kb n r)) := by
    unfold mNew
    rw [pay2_eq]
    exact e9
  have h11 : ∀ j : Fin 256, k1_pay11 (F := Ideal) qb kb m (ix3 n r j)
      = Ideal.exp (scBlk qb kb n r j - max (m (ix3 n r (0 : Fin 1))) ((Finset.univ : Finset (Fin 256)).fold max (Ideal.ofBits .f32 0xFF800000#32) (scBlk qb kb n r))) := by
    intro j
    rw [pay11_apply qb kb m n r j, pay8_apply qb kb n r j, e9]
    rfl
  have h10 : k1_pay10 (F := Ideal) qb kb m m (ix3 n r (0 : Fin 1))
      = Ideal.exp (m (ix3 n r (0 : Fin 1)) - max (m (ix3 n r (0 : Fin 1))) ((Finset.univ : Finset (Fin 256)).fold max (Ideal.ofBits .f32 0xFF800000#32) (scBlk qb kb n r))) := by
    rw [pay10_apply qb kb m m n r (0 : Fin 1), e9]
  have hl : lNew qb kb m l (ix3 n r (0 : Fin 1))
      = Ideal.exp (m (ix3 n r (0 : Fin 1)) - max (m (ix3 n r (0 : Fin 1))) ((Finset.univ : Finset (Fin 256)).fold max (Ideal.ofBits .f32 0xFF800000#32) (scBlk qb kb n r))) * l (ix3 n r (0 : Fin 1))
        + ∑ j : Fin 256, Ideal.exp (scBlk qb kb n r j - max (m (ix3 n r (0 : Fin 1))) ((Finset.univ : Finset (Fin 256)).fold max (Ideal.ofBits .f32 0xFF800000#32) (scBlk qb kb n r))) := by
    unfold lNew
    rw [pay12_apply qb kb m m l n r (0 : Fin 1), h10]
    exact congrArg _ (Finset.sum_congr rfl fun j _ => h11 j)
  have hacc : ∀ d : Fin 1024, accNew qb kb vb m acc (ix3 n r d)
      = Ideal.exp (m (ix3 n r (0 : Fin 1)) - max (m (ix3 n r (0 : Fin 1))) ((Finset.univ : Finset (Fin 256)).fold max (Ideal.ofBits .f32 0xFF800000#32) (scBlk qb kb n r))) * acc (ix3 n r d)
        + ∑ j : Fin 256, Ideal.exp (scBlk qb kb n r j - max (m (ix3 n r (0 : Fin 1))) ((Finset.univ : Finset (Fin 256)).fold max (Ideal.ofBits .f32 0xFF800000#32) (scBlk qb kb n r))) * vb (ix3 n j d) := by
    intro d
    unfold accNew
    rw [pay1_apply (k1_pay7 (F := Ideal) vb) (k1_pay10 (F := Ideal) qb kb m m) (k1_pay11 (F := Ideal) qb kb m) acc n r d, h10, pay7_eq vb]
    exact congrArg _ (Finset.sum_congr rfl fun j _ => by rw [h11 j])
  refine Prod.ext hm (Prod.ext hl (funext fun d => hacc d))

/-- Every row of the reset state is the row recurrence's reset state. -/
theorem rowOf_st1Init (n : Fin 4) (r : Fin 512) : rowOf (st1Init (F := Ideal)) n r = rowInit :=
  Prod.ext (pay4_apply (ix3 n r (0 : Fin 1))) (Prod.ext (pay5_apply (ix3 n r (0 : Fin 1))) (funext fun d => pay6_apply (ix3 n r d)))

/-- The output block at an index: numerator over denominator of the row. -/
theorem outFin_apply (acc : FVec Ideal S4x512x1024 .f32) (l : FVec Ideal S4x512x1 .f32) (n : Fin 4) (r : Fin 512) (d : Fin 1024) :
    outFin (F := Ideal) acc l (ix3 n r d) = Ideal.div (acc (ix3 n r d)) (l (ix3 n r (0 : Fin 1))) := by
  unfold outFin
  exact pay3_apply acc l n r d

end Cert.KernelIdeal.Hand

end
-- ==== Proof.KI.Val1.lean ====
/-
  Region 1's value at the ideal values: the array it leaves is the online softmax of the array it reads.

  The array read is 4 × 2048 × 3072; its three thirds along the last axis are q, k and v. The grid point
  t = 8·qi + kj works on rows 512·qi … 512·qi + 511 of q against rows 256·kj … 256·kj + 255 of k and v.
  Row by row, one step of the kernel's recurrence on those blocks is one step of the row's own recurrence
      m' = max m (max_k s_k),  l' = exp (m - m') · l + ∑_k exp (s_k - m'),
      acc'(d) = exp (m - m') · acc(d) + ∑_k exp (s_k - m') · v(k, d)
  on the scaled scores s_k of the row against key block kj; a point with kj = 0 starts from (-∞, 0, 0). So, by
  induction on the point, after the point 8·qi + kj row r of the state is row 512·qi + r's state after kj + 1
  key/value blocks. A point with kj = 7 writes back acc / l of its 512 rows, which is the online softmax there,
  and the four blocks written back tile the output's rows.
-/
import proofs.«116713_j5162550690439_2_alg».proof.Proof.KI.Data
import proofs.«116713_j5162550690439_2_alg».proof.Proof.KI.Val1Blk
import proofs.«116713_j5162550690439_2_alg».proof.Proof.KI.Val1Pay
import proofs.«116713_j5162550690439_2_alg».proof.Proof.Spec
import proofs.«116713_j5162550690439_2_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Cert.Attn ValueIdx

variable (V : (c : Dev nD) → (b : Ref sig .tc) → Buf (Elt Ideal) ((c : Thread nD τ).loc b))

/-! ## The blocks as blocks of q, k and v -/

section Rows

variable (c : Dev nD) (q k v : T3)
  (hq : ∀ (n : Fin 4) (s : Fin 2048) (d : Fin 1024), (V c main_v7 : S4x2048x3072.Idx → EReal) (ix3 n s ⟨d.val, by omega⟩) = q n s d)
  (hk : ∀ (n : Fin 4) (s : Fin 2048) (d : Fin 1024), (V c main_v7 : S4x2048x3072.Idx → EReal) (ix3 n s ⟨1024 + d.val, by omega⟩) = k n s d)
  (hv : ∀ (n : Fin 4) (s : Fin 2048) (d : Fin 1024), (V c main_v7 : S4x2048x3072.Idx → EReal) (ix3 n s ⟨2048 + d.val, by omega⟩) = v n s d)

/-- The scaled scores of a row, from the row of the query block and the rows of the key block named. -/
theorem scBlk_of_rows (qb : FVec Ideal S4x512x1024 .bf16) (kb : FVec Ideal S4x256x1024 .bf16) (n : Fin 4) (r : Fin 512)
    (qrow : Fin 1024 → EReal) (krows : Fin 256 → Fin 1024 → EReal)
    (h0 : ∀ d, qb (ix3 n r d) = qrow d) (h1 : ∀ kk d, kb (ix3 n kk d) = krows kk d) :
    scBlk qb kb n r = fun kk => (∑ d : Fin 1024, qrow d * krows kk d) * Ideal.ofBits .f32 0x3D000000#32 := by
  funext kk
  unfold scBlk
  exact congrArg (· * Ideal.ofBits .f32 0x3D000000#32) (Finset.sum_congr rfl fun d _ => by rw [h0 d, h1 kk d])

include hq hk in
/-- At the point 8·qi + kj, row r of the query block against the key block: the scaled scores of row 512·qi + r of q
    against rows 256·kj … 256·kj + 255 of k. -/
theorem scBlk_eq (t : Fin cfg1.N) (qi kj : ℕ) (ht : t.val = 8 * qi + kj) (hkj : kj < 8) (n : Fin 4) (r : Fin 512)
    (i : Fin 2048) (hi : i.val = 512 * qi + r.val) :
    scBlk (iblk1 V c 0 t) (iblk1 V c 1 t) n r = sBlk q k n i ⟨kj, hkj⟩ :=
  (scBlk_of_rows (iblk1 V c 0 t) (iblk1 V c 1 t) n r (fun d => q n i d)
    (fun kk d => k n ⟨256 * kj + kk.val, by have := kk.isLt; omega⟩ d)
    (fun d => (iblk1_0_apply V c t n r d i ⟨d.val, by omega⟩ (by omega) rfl).trans (hq n i d))
    (fun kk d => (iblk1_1_apply V c t n kk d ⟨256 * kj + kk.val, by have := kk.isLt; omega⟩ ⟨1024 + d.val, by omega⟩
      (by show 256 * kj + kk.val = 256 * (t.val % 8) + kk.val; omega) rfl).trans
      (hk n ⟨256 * kj + kk.val, by have := kk.isLt; omega⟩ d))).trans rfl

include hv in
/-- At the point 8·qi + kj the value block is rows 256·kj … 256·kj + 255 of v. -/
theorem vBlk_eq (t : Fin cfg1.N) (qi kj : ℕ) (ht : t.val = 8 * qi + kj) (hkj : kj < 8) (n : Fin 4) :
    (fun (kk : Fin 256) (d : Fin 1024) => (iblk1 V c 2 t : Vec Ideal S4x256x1024 .bf16) (ix3 n kk d)) = vBlk v n ⟨kj, hkj⟩ := by
  funext kk d
  have hj : 256 * kj + kk.val < 2048 := by have := kk.isLt; omega
  exact ((iblk1_2_apply V c t n kk d ⟨256 * kj + kk.val, hj⟩ ⟨2048 + d.val, by omega⟩
    (by show 256 * kj + kk.val = 256 * (t.val % 8) + kk.val; omega) rfl).trans (hv n ⟨256 * kj + kk.val, hj⟩ d)).trans rfl

include hq hk hv in
/-- One step of the kernel's recurrence on the blocks of the point 8·qi + kj is, on row r, one step of row
    512·qi + r's recurrence on key/value block kj. -/
theorem rowOf_stepAt (t : Fin cfg1.N) (qi kj : ℕ) (ht : t.val = 8 * qi + kj) (hkj : kj < 8) (s : St1 Ideal) (n : Fin 4)
    (r : Fin 512) (i : Fin 2048) (hi : i.val = 512 * qi + r.val) :
    rowOf (st1Step (iblk1 V c 0 t) (iblk1 V c 1 t) (iblk1 V c 2 t) s) n r
      = rowStep (sBlk q k n i ⟨kj, hkj⟩) (vBlk v n ⟨kj, hkj⟩) (rowOf s n r) := by
  rw [rowOf_st1Step (iblk1 V c 0 t) (iblk1 V c 1 t) (iblk1 V c 2 t) s n r,
    scBlk_eq V c q k hq hk t qi kj ht hkj n r i hi, vBlk_eq V c v hv t qi kj ht hkj n]

include hq hk hv in
/-- The invariant: after the point 8·qi + kj the kernel's state holds, on row r, row 512·qi + r's state after its
    first kj + 1 key/value blocks. By induction on the point; a point with kj = 0 starts from the reset state. -/
theorem stAt1_row : ∀ (m : ℕ) (hm : m < cfg1.N) (qi kj : ℕ) (hkj : kj < 8), m = 8 * qi + kj → ∀ (n : Fin 4) (r : Fin 512)
    (i : Fin 2048), i.val = 512 * qi + r.val → rowOf (stAt1 V c m hm) n r = rowAt q k v n i (kj + 1) (by omega)
  | 0, hm, qi, kj, hkj, hmq, n, r, i, hi => by
    obtain rfl : kj = 0 := by omega
    show rowOf (st1Step (iblk1 V c 0 ⟨0, hm⟩) (iblk1 V c 1 ⟨0, hm⟩) (iblk1 V c 2 ⟨0, hm⟩) st1Init) n r = _
    rw [rowOf_stepAt V c q k v hq hk hv ⟨0, hm⟩ qi 0 hmq hkj st1Init n r i hi, rowOf_st1Init]
    rfl
  | m + 1, hm, qi, kj, hkj, hmq, n, r, i, hi => by
    show rowOf (st1Step (iblk1 V c 0 ⟨m + 1, hm⟩) (iblk1 V c 1 ⟨m + 1, hm⟩) (iblk1 V c 2 ⟨m + 1, hm⟩)
      (if (m + 1) % 8 = 0 then st1Init else stAt1 V c m (Nat.lt_of_succ_lt hm))) n r = _
    rw [rowOf_stepAt V c q k v hq hk hv ⟨m + 1, hm⟩ qi kj hmq hkj _ n r i hi]
    by_cases h0 : (m + 1) % 8 = 0
    · rw [if_pos h0, rowOf_st1Init]
      obtain rfl : kj = 0 := by omega
      rfl
    · rw [if_neg h0]
      obtain ⟨kj', rfl⟩ : ∃ kj', kj = kj' + 1 := ⟨kj - 1, by omega⟩
      rw [stAt1_row m (Nat.lt_of_succ_lt hm) qi kj' (by omega) (by omega) n r i hi]
      rfl

/-! ## What the region leaves in its output -/

/-- The online softmax of the whole arrays, as contents of the output array. -/
def G1 (q k v : T3) : S4x2048x1024.Idx → EReal := fun i => attnOnline q k v (i 0) (i 1) (i 2)

include hq hk hv in
/-- A point that closes a query block (kj = 7) writes back block qi of the online softmax: numerator over
    denominator of each row's state after all 8 key/value blocks. -/
theorem flushed1_eq (t : Fin cfg1.N) (hf : (cfg1.win 3).flush t = true) :
    (dat1 (F := Ideal) V c).flushed 3 t = ((cfg1.win 3).blk t).view.read (Elt Ideal) (G1 q k v) := by
  have h7 : t.val % 8 = 7 := (flush1_3 t).mp hf
  show (cfg1.win 3).cut (grid1.coords t) ((dat1 (F := Ideal) V c).after 3 t) = _
  have ea : (dat1 (F := Ideal) V c).after 3 t
      = outFin (stAt1 V c t.val t.isLt).2.2 (stAt1 V c t.val t.isLt).2.1 := by
    dsimp only [dat1]
  rw [ea]
  funext j
  obtain ⟨n, r, d, rfl⟩ : ∃ (n : Fin 4) (r : Fin 512) (d : Fin 1024), j = ix3 n r d := ⟨j 0, j 1, j 2, eq_ix3 j⟩
  have hN : cfg1.N = 32 := N_1
  have ht : t.val < 32 := hN ▸ t.isLt
  have hs : 512 * (t.val / 8) + r.val < 2048 := by have := r.isLt; omega
  refine Eq.trans ?_ (oblk1_apply (G1 q k v) t n r d ⟨512 * (t.val / 8) + r.val, hs⟩ rfl).symm
  show outFin (F := Ideal) (stAt1 V c t.val t.isLt).2.2 (stAt1 V c t.val t.isLt).2.1 (ix3 n r d)
    = attnOnline q k v n ⟨512 * (t.val / 8) + r.val, hs⟩ d
  refine (outFin_apply (stAt1 V c t.val t.isLt).2.2 (stAt1 V c t.val t.isLt).2.1 n r d).trans ?_
  have hrow := stAt1_row V c q k v hq hk hv t.val t.isLt (t.val / 8) 7 (by omega) (by omega) n r
    ⟨512 * (t.val / 8) + r.val, hs⟩ rfl
  show Ideal.div ((rowOf (stAt1 V c t.val t.isLt) n r).2.2 d) (rowOf (stAt1 V c t.val t.isLt) n r).2.1 = _
  rw [hrow]
  rfl

end Rows

/-- Region 1's output array after its 32 points is the online softmax of the three thirds of the array it reads. -/
theorem final1 (c : Dev nD) (q k v : T3)
    (hq : ∀ (n : Fin 4) (s : Fin 2048) (d : Fin 1024), (V c main_v7 : S4x2048x3072.Idx → EReal) (ix3 n s ⟨d.val, by omega⟩) = q n s d)
    (hk : ∀ (n : Fin 4) (s : Fin 2048) (d : Fin 1024), (V c main_v7 : S4x2048x3072.Idx → EReal) (ix3 n s ⟨1024 + d.val, by omega⟩) = k n s d)
    (hv : ∀ (n : Fin 4) (s : Fin 2048) (d : Fin 1024), (V c main_v7 : S4x2048x3072.Idx → EReal) (ix3 n s ⟨2048 + d.val, by omega⟩) = v n s d) :
    ∀ (n : Fin 4) (s : Fin 2048) (d : Fin 1024), ((dat1 (F := Ideal) V c).arrAt 3 cfg1.N : S4x2048x1024.Idx → EReal) (ix3 n s d) = attnOnline q k v n s d := by
  intro n s d
  have h := (dat1 (F := Ideal) V c).arrAt_eq_of_cover 3 (G1 q k v) (fun t hf => flushed1_eq V c q k v hq hk hv t hf) cover1
  exact congrFun h (ix3 n s d)

end Cert.KernelIdeal.Hand

end
-- ==== Proof.lean ====
/-
  Scaled-dot-product attention: a two-kernel Pallas program against plain softmax attention.

  The kernel program first computes the fused projection  [q | k | v] = x · [Wq | Wk | Wv]ᵀ + [bq | bk | bv]
  row block by row block, then runs an online softmax over the 2048 keys in 8 blocks of 256, carrying a running
  maximum, denominator and numerator per query row, and divides at the last block. The reference computes
  q, k, v separately, all scores q · kᵀ / √1024, their softmax over the 2048 keys, and the weighted sum of v.

  On the extended reals the two agree when every input entry is a real number (the precondition): the kernel's
  scale literal is exactly 2⁻⁵ = 1/√1024; the online recurrence telescopes by
  exp (m - m') · exp (s - m) = exp (s - m'); and (∑ e_j · v_j) / L = ∑ (e_j / L) · v_j for a positive real L.
  Changes of float format are the identity, so the kernel's bf16 staging does not enter.

  The three frames: each kernel program runs to the end, faults nowhere and leaves its arguments unchanged —
  proved once for any float instance over the run of @main's two host stretches and two kernel regions —, and
  the reference's frame is its generated run with the result dropped. The ideal pass rewrote nothing, so
  `preserves` is trivial.
-/
import proofs.«116713_j5162550690439_2_alg».proof.Defs
import proofs.«116713_j5162550690439_2_alg».proof.Proof.Gen.Kernel
import proofs.«116713_j5162550690439_2_alg».proof.Proof.Gen.KernelIdeal
import proofs.«116713_j5162550690439_2_alg».proof.Proof.Gen.ReferenceIdeal
import proofs.«116713_j5162550690439_2_alg».proof.Proof.Gen.Pre_finite_inputs
import proofs.«116713_j5162550690439_2_alg».proof.Proof.Gen.ReferenceIdeal.Read
import proofs.«116713_j5162550690439_2_alg».proof.Proof.K.Run
import proofs.«116713_j5162550690439_2_alg».proof.Proof.KI.Run
import proofs.«116713_j5162550690439_2_alg».proof.Proof.Finite
import proofs.«116713_j5162550690439_2_alg».proof.Proof.SpecLaws
import proofs.«116713_j5162550690439_2_alg».proof.Proof.RefG
import proofs.«116713_j5162550690439_2_alg».proof.Proof.KI.Glue
import proofs.«116713_j5162550690439_2_alg».proof.Proof.KI.Val1
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ =>
  (θ_run Cert.Kernel.defs _ _).mono (fun _ h c => (h c).2) (Cert.Kernel.Hand.run (F := Bits) m ρ)

/-- The idealized kernel program runs and keeps its arguments. -/
theorem frame_ki : Cert.frame_KernelIdeal := fun m ρ _ =>
  (θ_run Cert.KernelIdeal.defs _ _).mono (fun _ h c => (h c).2) (Cert.KernelIdeal.Hand.run (F := Ideal) m ρ)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

open Cert.Attn ValueIdx Cert.KernelIdeal.Hand in
/-- The reference's result term of memories agreeing with the kernel's on the arguments is what the kernel's
    region 1 leaves in the result array. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v27 m' c
      = (Cert.KernelIdeal.Hand.dat1 (Cert.KernelIdeal.Hand.Vh3 (F := Ideal) m ρ) c).arrAt 3 Cert.KernelIdeal.cfg1.N := by
  obtain ⟨r0, r1, r2, r3, r4, r5, r6⟩ := Cert.Finite.real_of_pre _ _ _ _ _ _ _ hpre
  obtain ⟨e0, e1, e2, e3, e4, e5, e6⟩ := hagree
  rw [Cert.ReferenceIdeal.RefValue.res_eq m' c, e0, e1, e2, e3, e4, e5, e6]
  funext i
  obtain ⟨n, s, d, rfl⟩ : ∃ (n : Fin 4) (s : Fin 2048) (d : Fin 1024), i = ix3 n s d := ⟨i 0, i 1, i 2, eq_ix3 i⟩
  refine Eq.trans ?_ (final1 (Vh3 (F := Ideal) m ρ) c _ _ _ (qkv_q m ρ c) (qkv_k m ρ c) (qkv_v m ρ c) n s d).symm
  have hx : ∀ n s h, ∃ r : ℝ, arr3 (m ((c.tc : Thread Cert.KernelIdeal.nD Cert.KernelIdeal.τ).loc Cert.KernelIdeal.main_arg0)) n s h = (r : EReal) := fun _ _ _ => r0 _
  have hwq : ∀ o h, ∃ r : ℝ, arr2 (m ((c.tc : Thread Cert.KernelIdeal.nD Cert.KernelIdeal.τ).loc Cert.KernelIdeal.main_arg1)) o h = (r : EReal) := fun _ _ => r1 _
  have hbq : ∀ o, ∃ r : ℝ, arr1 (m ((c.tc : Thread Cert.KernelIdeal.nD Cert.KernelIdeal.τ).loc Cert.KernelIdeal.main_arg2)) o = (r : EReal) := fun _ => r2 _
  have hwk : ∀ o h, ∃ r : ℝ, arr2 (m ((c.tc : Thread Cert.KernelIdeal.nD Cert.KernelIdeal.τ).loc Cert.KernelIdeal.main_arg3)) o h = (r : EReal) := fun _ _ => r3 _
  have hbk : ∀ o, ∃ r : ℝ, arr1 (m ((c.tc : Thread Cert.KernelIdeal.nD Cert.KernelIdeal.τ).loc Cert.KernelIdeal.main_arg4)) o = (r : EReal) := fun _ => r4 _
  have hwv : ∀ o h, ∃ r : ℝ, arr2 (m ((c.tc : Thread Cert.KernelIdeal.nD Cert.KernelIdeal.τ).loc Cert.KernelIdeal.main_arg5)) o h = (r : EReal) := fun _ _ => r5 _
  have hbv : ∀ o, ∃ r : ℝ, arr1 (m ((c.tc : Thread Cert.KernelIdeal.nD Cert.KernelIdeal.τ).loc Cert.KernelIdeal.main_arg6)) o = (r : EReal) := fun _ => r6 _
  exact (congrFun (congrFun (congrFun (attnOnline_eq_attnRef _ _ _ (proj_real _ _ _ hx hwq hbq) (proj_real _ _ _ hx hwk hbk) (proj_real _ _ _ hx hwv hbv)) n) s) d).symm

/-- From memories that agree on the arguments both programs end with the same result array: the kernel's
    at what region 1's write-backs left, the reference's at its composed term, and these are one function. -/
theorem algebraic : Cert.algebraic_KernelIdeal_ReferenceIdeal := by
  intro m ρ m' ρ' hpre hagree
  refine ⟨fun c => (Cert.KernelIdeal.Hand.dat1 (Cert.KernelIdeal.Hand.Vh3 (F := Ideal) m ρ) c).arrAt 3 Cert.KernelIdeal.cfg1.N,
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  exact value_eq m ρ m' c (hpre c) (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
